-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16x16 : Shape := ⟨4, ![8, 64, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S8x64x16x16 : S_.BroadcastsInDim S8x64x16x16 (![] : Fin 0 → Fin S8x64x16x16.rank)
  reducesTo_S8x64x16x16_S_d0_1_2_3 : S8x64x16x16.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x128 .f32) (main_arg6 : FVec F S128 .f32) (main_arg7 : FVec F S128x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S8x64x16x16 .f32) (main_arg1 : FVec F S128x128 .f32) (main_arg2 : FVec F S128 .f32) (main_arg3 : FVec F S128x64 .f32) (main_arg4 : FVec F S64 .f32) (main_arg5 : FVec F S64x128 .f32) (main_arg6 : FVec F S128 .f32) (main_arg7 : FVec F S128x64 .f32) (main_arg8 : FVec F S64 .f32) : IVec S_ 1 :=
  let main_v0 : FVec F S8x64x16x16 .f32 := Host.absf main_arg0
  let main_cst : FVec F S_ .f32 := constant S_ .f32 0x7F800000#32
  let main_v1 : FVec F S8x64x16x16 .f32 := broadcastInDim S8x64x16x16 ![] bcast_S_S8x64x16x16 main_cst
  let main_v2 : IVec S8x64x16x16 1 := cmpf .olt main_v0 main_v1
  let main_c : IVec S_ 1 := constantI S_ 1 1#1
  let main_v3 : IVec S_ 1 := (fun x v => Host.reduce IntOp.andi x v reducesTo_S8x64x16x16_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S8x64x16x16 : Shape := ⟨4, ![8, 64, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S8x64x256 : Shape := ⟨3, ![8, 64, 256]⟩
abbrev S8x256x64 : Shape := ⟨3, ![8, 256, 64]⟩
abbrev S8x1x64 : Shape := ⟨3, ![8, 1, 64]⟩
abbrev S1x128x64 : Shape := ⟨3, ![1, 128, 64]⟩
abbrev S1x1x64 : Shape := ⟨3, ![1, 1, 64]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩
abbrev S16384x128 : Shape := ⟨2, ![16384, 128]⟩
abbrev S16384x64 : Shape := ⟨2, ![16384, 64]⟩
abbrev S1x64 : Shape := ⟨2, ![1, 64]⟩
abbrev S8x64 : Shape := ⟨2, ![8, 64]⟩
abbrev S8x128 : Shape := ⟨2, ![8, 128]⟩
abbrev S1x128 : Shape := ⟨2, ![1, 128]⟩
abbrev S_ : Shape := ⟨0, ![]⟩
abbrev S8x64x1x1 : Shape := ⟨4, ![8, 64, 1, 1]⟩

abbrev nBuf : Space → Nat
  | .hbm => 28
  | .vmem => 12
  | .smem => 0
  | _ => 0

abbrev bufTy : (tb : Table) → Fin (tcTables nBuf tb) → BufTy
  | .hbm, ⟨0, _⟩ => ⟨S8x64x16x16, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S8x64x256, .f32⟩
  | .hbm, ⟨10, _⟩ => ⟨S8x256x64, .f32⟩
  | .hbm, ⟨11, _⟩ => ⟨S64x128, .f32⟩
  | .hbm, ⟨12, _⟩ => ⟨S64x128, .f32⟩
  | .hbm, ⟨13, _⟩ => ⟨S8x1x64, .f32⟩
  | .hbm, ⟨14, _⟩ => ⟨S8x64, .f32⟩
  | .hbm, ⟨15, _⟩ => ⟨S8x128, .f32⟩
  | .hbm, ⟨16, _⟩ => ⟨S1x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S8x64, .f32⟩
  | .hbm, ⟨23, _⟩ => ⟨S1x64, .f32⟩
  | .hbm, ⟨24, _⟩ => ⟨S8x64, .f32⟩
  | .hbm, ⟨25, _⟩ => ⟨S8x64, .f32⟩
  | .hbm, ⟨26, _⟩ => ⟨S8x64x1x1, .f32⟩
  | .hbm, ⟨27, _⟩ => ⟨S8x64x16x16, .f32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S128x64, .f32⟩
  | .local _ .vmem, ⟨8, _⟩ => ⟨S64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | _, _ => ⟨S8x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg1 : BitVec 32 := BitVec.ofNat 32 (i 1).val
  let c1_i32 : BitVec 32 := 1#32
  let v48 : BitVec 1 := Scalar.cmpi .eq arg1 c1_i32
  let arg2 : BitVec 32 := BitVec.ofNat 32 (i 2).val
  let c1_i32_26 : BitVec 32 := 1#32
  let v49 : BitVec 1 := Scalar.cmpi .eq arg2 c1_i32_26
  let v50 : BitVec 1 := Scalar.andi v48 v49
  let v51 : BitVec 32 := Scalar.extui v50
  let c0_i32_27 : BitVec 32 := 0#32
  let v52 : BitVec 1 := Scalar.cmpi .ne v51 c0_i32_27
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

class Facts₀ : Prop where
  shapeCasts_S8x64x16x16_S8x64x256 : S8x64x16x16.ShapeCasts S8x64x256
  transposes_S8x64x256_S8x256x64_0_2_1 : S8x64x256.Transposes [0, 2, 1] S8x256x64
  slices_S128x128_S64x128_0_0 : S128x128.Slices ![0, 0] S64x128
  slices_S128x128_S64x128_64_0 : S128x128.Slices ![64, 0] S64x128
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S128x128x128 : S1x1x128.Broadcasts S128x128x128
  shapeCasts_S128x128x128_S16384x128 : S128x128x128.ShapeCasts S16384x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  reduces_S16384x64_S64 : S16384x64.Reduces [0] S64
  shapeCasts_S64_S1x1x64 : S64.ShapeCasts S1x1x64
  shapeCasts_S8x1x64_S8x64 : S8x1x64.ShapeCasts S8x64
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S8x64_S8x64x1x1_0_1 : S8x64.BroadcastsInDim S8x64x1x1 (![0, 1] : Fin 2 → Fin S8x64x1x1.rank)
  bcast_S8x64x1x1_S8x64x16x16_0_1_2_3 : S8x64x1x1.BroadcastsInDim S8x64x16x16 (![0, 1, 2, 3] : Fin 4 → Fin S8x64x16x16.rank)
  dot_S128x64_S64x128_S128x128_1_0_0_1_n_n_wf : DotDims.WF S128x64 S64x128 S128x128 [1] [0] [0] [1] [] []
  dot_S16384x128_S128x64_S16384x64_1_0_0_1_n_n_wf : DotDims.WF S16384x128 S128x64 S16384x64 [1] [0] [0] [1] [] []
  dot_S8x64_S64x128_S8x128_1_0_0_1_n_n_wf : DotDims.WF S8x64 S64x128 S8x128 [1] [0] [0] [1] [] []
  dot_S8x128_S128x64_S8x64_1_0_0_1_n_n_wf : DotDims.WF S8x128 S128x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S8x256x64.size a
  hwx0_0 : ∀ i : grid0.Coords, EltTy.bits .f32 = 32 ∨ (Rect.block (s := S8x256x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S8x256x64.size a
  hwx0_1 : ∀ i : grid0.Coords, EltTy.bits .f32 = 32 ∨ (Rect.block (s := S8x256x64) S1x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S8x1x64.size a
  hwx0_7 : ∀ i : grid0.Coords, EltTy.bits .f32 = 32 ∨ (Rect.block (s := S8x1x64) S1x1x64.size (cc0_transform_7 i) (hinb0_7 i)).WholeWords (EltTy.packing .f32)

variable [Facts₀]

def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S8x64_S64x128_S8x128_1_0_0_1_n_n : DotDims S8x64 S64x128 S8x128 where
  lhsContracting := [1]
  rhsContracting := [0]
  lhsNonContracting := [0]
  rhsNonContracting := [1]
  lhsBatch := []
  rhsBatch := []
  wf := dot_S8x64_S64x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf

abbrev win0_0 : Pipeline.Window sig grid0 :=
  Pipeline.Window.ofSpec (Memref.whole main_v1) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x64x16x16 : Shape := ⟨4, ![8, 64, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S8x64x256 : Shape := ⟨3, ![8, 64, 256]⟩
abbrev S8x256x64 : Shape := ⟨3, ![8, 256, 64]⟩
abbrev S8x256x128 : Shape := ⟨3, ![8, 256, 128]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S1x1x1x128 : Shape := ⟨4, ![1, 1, 1, 128]⟩
abbrev S_ : Shape := ⟨0, ![]⟩
abbrev S8x256x256x64 : Shape := ⟨4, ![8, 256, 256, 64]⟩
abbrev S1x1x1x64 : Shape := ⟨4, ![1, 1, 1, 64]⟩
abbrev S8x64 : Shape := ⟨2, ![8, 64]⟩
abbrev S8x128 : Shape := ⟨2, ![8, 128]⟩
abbrev S1x128 : Shape := ⟨2, ![1, 128]⟩
abbrev S1x64 : Shape := ⟨2, ![1, 64]⟩
abbrev S8x64x1x1 : Shape := ⟨4, ![8, 64, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x64x16x16, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S8x64x256, .f32⟩
  | .hbm, ⟨10, _⟩ => ⟨S8x256x64, .f32⟩
  | .hbm, ⟨11, _⟩ => ⟨S64x128, .f32⟩
  | .hbm, ⟨12, _⟩ => ⟨S64x128, .f32⟩
  | .hbm, ⟨13, _⟩ => ⟨S8x256x128, .f32⟩
  | .hbm, ⟨14, _⟩ => ⟨S8x256x128, .f32⟩
  | .hbm, ⟨15, _⟩ => ⟨S8x256x1x128, .f32⟩
  | .hbm, ⟨16, _⟩ => ⟨S8x1x256x128, .f32⟩
  | .hbm, ⟨17, _⟩ => ⟨S8x256x256x128, .f32⟩
  | .hbm, ⟨18, _⟩ => ⟨S8x256x256x128, .f32⟩
  | .hbm, ⟨19, _⟩ => ⟨S8x256x256x128, .f32⟩
  | .hbm, ⟨20, _⟩ => ⟨S1x1x1x128, .f32⟩
  | .hbm, ⟨21, _⟩ => ⟨S8x256x256x128, .f32⟩
  | .hbm, ⟨22, _⟩ => ⟨S8x256x256x128, .f32⟩
  | .hbm, ⟨23, _⟩ => ⟨S_, .f32⟩
  | .hbm, ⟨24, _⟩ => ⟨S8x256x256x128, .f32⟩
  | .hbm, ⟨25, _⟩ => ⟨S8x256x256x128, .f32⟩
  | .hbm, ⟨26, _⟩ => ⟨S8x256x256x64, .f32⟩
  | .hbm, ⟨27, _⟩ => ⟨S1x1x1x64, .f32⟩
  | .hbm, ⟨28, _⟩ => ⟨S8x256x256x64, .f32⟩
  | .hbm, ⟨29, _⟩ => ⟨S8x256x256x64, .f32⟩
  | .hbm, ⟨30, _⟩ => ⟨S_, .f32⟩
  | .hbm, ⟨31, _⟩ => ⟨S8x256x256x64, .f32⟩
  | .hbm, ⟨32, _⟩ => ⟨S8x256x256x64, .f32⟩
  | .hbm, ⟨33, _⟩ => ⟨S_, .f32⟩
  | .hbm, ⟨34, _⟩ => ⟨S8x64, .f32⟩
  | .hbm, ⟨35, _⟩ => ⟨S8x128, .f32⟩
  | .hbm, ⟨36, _⟩ => ⟨S1x128, .f32⟩
  | .hbm, ⟨37, _⟩ => ⟨S8x128, .f32⟩
  | .hbm, ⟨38, _⟩ => ⟨S8x128, .f32⟩
  | .hbm, ⟨39, _⟩ => ⟨S_, .f32⟩
  | .hbm, ⟨40, _⟩ => ⟨S8x128, .f32⟩
  | .hbm, ⟨41, _⟩ => ⟨S8x128, .f32⟩
  | .hbm, ⟨42, _⟩ => ⟨S8x64, .f32⟩
  | .hbm, ⟨43, _⟩ => ⟨S1x64, .f32⟩
  | .hbm, ⟨44, _⟩ => ⟨S8x64, .f32⟩
  | .hbm, ⟨45, _⟩ => ⟨S8x64, .f32⟩
  | .hbm, ⟨46, _⟩ => ⟨S8x64x1x1, .f32⟩
  | .hbm, ⟨47, _⟩ => ⟨S8x64x16x16, .f32⟩
  | _, _ => ⟨S8x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_cst : Ref sig .tc := ⟨.hbm, 30, rfl⟩
abbrev main_call1_v0 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call2_cst : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  shapeCasts_S8x64x16x16_S8x64x256 : S8x64x16x16.ShapeCasts S8x64x256
  transposes_S8x64x256_S8x256x64_0_2_1 : S8x64x256.Transposes [0, 2, 1] S8x256x64
  slices_S128x128_S64x128_0_0 : S128x128.Slices ![0, 0] S64x128
  slices_S128x128_S64x128_64_0 : S128x128.Slices ![64, 0] S64x128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S_S8x256x256x128 : S_.BroadcastsInDim S8x256x256x128 (![] : Fin 0 → Fin S8x256x256x128.rank)
  bcast_S64_S1x1x1x64_3 : S64.BroadcastsInDim S1x1x1x64 (![3] : Fin 1 → Fin S1x1x1x64.rank)
  bcast_S1x1x1x64_S8x256x256x64_0_1_2_3 : S1x1x1x64.BroadcastsInDim S8x256x256x64 (![0, 1, 2, 3] : Fin 4 → Fin S8x256x256x64.rank)
  bcast_S_S8x256x256x64 : S_.BroadcastsInDim S8x256x256x64 (![] : Fin 0 → Fin S8x256x256x64.rank)
  reducesTo_S8x256x256x64_S8x64_d1_2 : S8x256x256x64.ReducesTo [1, 2] S8x64
  h_S_ : 0 < S_.numel
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S8x64_S8x64x1x1_0_1 : S8x64.BroadcastsInDim S8x64x1x1 (![0, 1] : Fin 2 → Fin S8x64x1x1.rank)
  bcast_S8x64x1x1_S8x64x16x16_0_1_2_3 : S8x64x1x1.BroadcastsInDim S8x64x16x16 (![0, 1, 2, 3] : Fin 4 → Fin S8x64x16x16.rank)
  dot_S8x256x64_S64x128_S8x256x128_2_0_01_1_n_n_wf : DotDims.WF S8x256x64 S64x128 S8x256x128 [2] [0] [0, 1] [1] [] []
  dot_S8x256x256x128_S128x64_S8x256x256x64_3_0_012_1_n_n_wf : DotDims.WF S8x256x256x128 S128x64 S8x256x256x64 [3] [0] [0, 1, 2] [1] [] []
  dot_S8x64_S64x128_S8x128_1_0_0_1_n_n_wf : DotDims.WF S8x64 S64x128 S8x128 [1] [0] [0] [1] [] []
  dot_S8x128_S128x64_S8x64_1_0_0_1_n_n_wf : DotDims.WF S8x128 S128x64 S8x64 [1] [0] [0] [1] [] []

variable [Facts₀]

def dot_S8x256x64_S64x128_S8x256x128_2_0_01_1_n_n : DotDims S8x256x64 S64x128 S8x256x128 where
  lhsContracting := [2]
  rhsContracting := [0]
  lhsNonContracting := [0, 1]
  rhsNonContracting := [1]
  lhsBatch := []
  rhsBatch := []
  wf := dot_S8x256x64_S64x128_S8x256x128_2_0_01_1_n_n_wf
def dot_S8x256x256x128_S128x64_S8x256x256x64_3_0_012_1_n_n : DotDims S8x256x256x128 S128x64 S8x256x256x64 where
  lhsContracting := [3]
  rhsContracting := [0]
  lhsNonContracting := [0, 1, 2]
  rhsNonContracting := [1]
  lhsBatch := []
  rhsBatch := []
  wf := dot_S8x256x256x128_S128x64_S8x256x256x64_3_0_012_1_n_n_wf
def dot_S8x64_S64x128_S8x128_1_0_0_1_n_n : DotDims S8x64 S64x128 S8x128 where
  lhsContracting := [1]
  rhsContracting := [0]
  lhsNonContracting := [0]
  rhsNonContracting := [1]
  lhsBatch := []
  rhsBatch := []
  wf := dot_S8x64_S64x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf

class Facts : Prop extends Facts₀ where

variable [Facts]
-- ==== Proof.KBody.lean ====
/-
  The kernel body at a SYMBOLIC grid point, for any float instance. The grid is (8 images, 2 row blocks, 2 row
  blocks); the body at point (b, i, j): if i = 0 and j = 0, store zeros into the accumulator (a scratch buffer of
  shape [1, 1, 64]); load the seven input blocks whole (two blocks of feature rows, the two first-layer weights, the
  first-layer bias, the second-layer weight, the second-layer bias), load the accumulator, and store back the
  accumulator plus the tile's contribution; if i = 1 and j = 1, load the accumulator and store it whole into the
  output's buffer.

  Three runs, at any point of their kind (the kind given as the two branch conditions): a first step leaves the
  accumulator at `stepA zeros …` whatever it held, a middle step takes it from `a` to `stepA a …`, a last step
  (which is never a first one) does the same and leaves `stepA a …` in the output's buffer as well. Every access is
  of a whole buffer through the rectangle at zero offsets of the buffer's own sizes: a load through it reads the
  contents, a store through it leaves its payload, so what the stores leave are the clean terms of the statements.
  The payloads (a [16384, 128] intermediate among them) stay opaque names throughout.
-/
import proofs.«172315_j47828755808730_2_alg».proof.Proof.Gen.Kernel
import proofs.«172315_j47828755808730_2_alg».proof.Proof.Gen.Kernel.Skeleton
import proofs.«172315_j47828755808730_2_alg».proof.Proof.Gen.Kernel.Launch
import Idealize.ShloMosaic.Lib.Writes
import Idealize.ShloMosaic.Lib.Pipeline.FrameBody
import Idealize.ShloMosaic.Lib.Pipeline.Value
import Idealize.ShloMosaic.Lib.Tactic
import Idealize.ShloMosaic.Lib.Pipeline.Kit

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ambient algebra: one copy of the rounds algebra over the machine's cells. -/
local notation "𝕄" => MT nD τ sig Unit (Elt F) ℕ (UR sig nD τ) ℕ

/-- The accumulator: the kernel's one scratch buffer, whole. -/
abbrev accM : Memref sig .tc .vmem S1x1x64 .f32 := Memref.whole cc0_scratch0

/-- The branch conditions at point `t`: "i = 0 and j = 0" as the body computes it, "i = 1 and j = 1" as the program names it. -/
abbrev IsFirst (t : Fin cfg0.N) : Prop :=
  Scalar.cmpi .ne (Scalar.extui (Scalar.andi (Scalar.cmpi .eq (BitVec.ofNat 32 ((grid0.coords t) 1).val) 0#32)
    (Scalar.cmpi .eq (BitVec.ofNat 32 ((grid0.coords t) 2).val) 0#32))) 0#32 = 1#1
abbrev IsLast (t : Fin cfg0.N) : Prop := k0_cond2 (grid0.coords t) = 1#1

/-- The accumulator after a step from contents `a`: `a` plus the tile's contribution, a function of the seven blocks. -/
def stepA (a : Vec F S1x1x64 .f32) (x0 x1 : Vec F S1x128x64 .f32) (x2 x3 : Vec F S64x128 .f32) (x4 : Vec F S128 .f32)
    (x5 : Vec F S128x64 .f32) (x6 : Vec F S64 .f32) : Vec F S1x1x64 .f32 :=
  k0_pay1 (k0_pay3 x0 x1 x2 x3 x4 x5) x6 a

/-! ## Whole-buffer accesses

Each buffer is accessed through the rectangle at zero offsets of its own sizes. -/

/-- The whole [1, 1, 64] block (accumulator, output), -/
abbrev rA : Rect S1x1x64 := Rect.unit (s := S1x1x64) ![0, 0, 0] S1x1x64.size inb_S1x1x64_S1x1x64_0_0_0
/-- a whole block of feature rows, -/
abbrev rX : Rect S1x128x64 := Rect.unit (s := S1x128x64) ![0, 0, 0] S1x128x64.size inb_S1x128x64_S1x128x64_0_0_0
/-- a whole first-layer weight, -/
abbrev rW : Rect S64x128 := Rect.unit (s := S64x128) ![0, 0] S64x128.size inb_S64x128_S64x128_0_0
/-- the whole first-layer bias, -/
abbrev rB : Rect S128 := Rect.unit (s := S128) ![0] S128.size inb_S128_S128_0
/-- the whole second-layer weight, -/
abbrev rV : Rect S128x64 := Rect.unit (s := S128x64) ![0, 0] S128x64.size inb_S128x64_S128x64_0_0
/-- the whole second-layer bias. -/
abbrev rC : Rect S64 := Rect.unit (s := S64) ![0] S64.size inb_S64_S64_0

theorem hzA : (![0, 0, 0] : Fin S1x1x64.rank → Nat) = fun _ => 0 := funext fun i => by fin_cases i <;> rfl
theorem hzX : (![0, 0, 0] : Fin S1x128x64.rank → Nat) = fun _ => 0 := funext fun i => by fin_cases i <;> rfl
theorem hzW : (![0, 0] : Fin S64x128.rank → Nat) = fun _ => 0 := funext fun i => by fin_cases i <;> rfl
theorem hzB : (![0] : Fin S128.rank → Nat) = fun _ => 0 := funext fun i => by fin_cases i <;> rfl
theorem hzV : (![0, 0] : Fin S128x64.rank → Nat) = fun _ => 0 := funext fun i => by fin_cases i <;> rfl
theorem hzC : (![0] : Fin S64.rank → Nat) = fun _ => 0 := funext fun i => by fin_cases i <;> rfl

section Reads

variable {κ : Kind} {sp : Space}

omit [FloatOps F] in
/-- A whole-buffer load reads the buffer's contents: one statement per shape. -/
theorem load_A (v : View sig κ sp S1x1x64 .f32) (f : v.ty.Contents (Elt F)) :
    v.readAt (Elt F) rA.toLoadRect f = v.read (Elt F) f := by
  rw [View.readAt_eq_ld, View.ld_unit_zero (S := S1x1x64) hzA]
omit [FloatOps F] in
theorem load_X (v : View sig κ sp S1x128x64 .f32) (f : v.ty.Contents (Elt F)) :
    v.readAt (Elt F) rX.toLoadRect f = v.read (Elt F) f := by
  rw [View.readAt_eq_ld, View.ld_unit_zero (S := S1x128x64) hzX]
omit [FloatOps F] in
theorem load_W (v : View sig κ sp S64x128 .f32) (f : v.ty.Contents (Elt F)) :
    v.readAt (Elt F) rW.toLoadRect f = v.read (Elt F) f := by
  rw [View.readAt_eq_ld, View.ld_unit_zero (S := S64x128) hzW]
omit [FloatOps F] in
theorem load_B (v : View sig κ sp S128 .f32) (f : v.ty.Contents (Elt F)) :
    v.readAt (Elt F) rB.toLoadRect f = v.read (Elt F) f := by
  rw [View.readAt_eq_ld, View.ld_unit_zero (S := S128) hzB]
omit [FloatOps F] in
theorem load_V (v : View sig κ sp S128x64 .f32) (f : v.ty.Contents (Elt F)) :
    v.readAt (Elt F) rV.toLoadRect f = v.read (Elt F) f := by
  rw [View.readAt_eq_ld, View.ld_unit_zero (S := S128x64) hzV]
omit [FloatOps F] in
theorem load_C (v : View sig κ sp S64 .f32) (f : v.ty.Contents (Elt F)) :
    v.readAt (Elt F) rC.toLoadRect f = v.read (Elt F) f := by
  rw [View.readAt_eq_ld, View.ld_unit_zero (S := S64) hzC]

/-- A [1, 1, 64] buffer stored whole once holds that store's payload, whatever it held before; -/
theorem read_one (v : View sig κ sp S1x1x64 .f32) (f : v.ty.Contents (Elt F)) (p : Vec F S1x1x64 .f32) :
    v.read (Elt F) (v.writes (Elt F) f [⟨rA, p⟩]) = p := by
  rw [View.read_writes_eq_canon _ _ _ (View.cover_of_tiled [⟨rA, p⟩] S1x1x64.size (by rfl)), View.canon_unit_zero hzA]
/-- stored whole twice, the later store's. -/
theorem read_two (v : View sig κ sp S1x1x64 .f32) (f : v.ty.Contents (Elt F)) (p q : Vec F S1x1x64 .f32) :
    v.read (Elt F) (v.writes (Elt F) f [⟨rA, p⟩, ⟨rA, q⟩]) = p := by
  rw [View.read_writes_eq_canon _ _ _ (View.cover_of_tiled [⟨rA, p⟩, ⟨rA, q⟩] S1x1x64.size (by rfl)),
    View.canon_cons_unit_zero hzA]
/-- A whole load of what one whole store left reads that store's payload. -/
theorem readBack (v : View sig κ sp S1x1x64 .f32) (p : Vec F S1x1x64 .f32) :
    v.readCov [⟨rA, p⟩] rA.toLoadRect = p :=
  View.readCov_unit_zero v hzA inb_S1x1x64_S1x1x64_0_0_0 p

end Reads

/-- The step's payload over values equal to the blocks' contents is the step over the contents. -/
theorem stepA_congr {a a' : Vec F S1x1x64 .f32} {x0 x0' x1 x1' : Vec F S1x128x64 .f32} {x2 x2' x3 x3' : Vec F S64x128 .f32}
    {x4 x4' : Vec F S128 .f32} {x5 x5' : Vec F S128x64 .f32} {x6 x6' : Vec F S64 .f32}
    (ha : a' = a) (e0 : x0' = x0) (e1 : x1' = x1) (e2 : x2' = x2) (e3 : x3' = x3) (e4 : x4' = x4) (e5 : x5' = x5) (e6 : x6' = x6) :
    k0_pay1 (k0_pay3 x0' x1' x2' x3' x4' x5') x6' a' = stepA a x0 x1 x2 x3 x4 x5 x6 := by
  subst ha e0 e1 e2 e3 e4 e5 e6; rfl

section Runs

variable (c : Dev nD) (t : Fin cfg0.N)
  (M0 : Memref sig .tc .vmem S1x128x64 .f32) (h0 : M0.IsWhole) (M1 : Memref sig .tc .vmem S1x128x64 .f32) (h1 : M1.IsWhole)
  (M2 : Memref sig .tc .vmem S64x128 .f32) (h2 : M2.IsWhole) (M3 : Memref sig .tc .vmem S64x128 .f32) (h3 : M3.IsWhole)
  (M4 : Memref sig .tc .vmem S128 .f32) (h4 : M4.IsWhole) (M5 : Memref sig .tc .vmem S128x64 .f32) (h5 : M5.IsWhole)
  (M6 : Memref sig .tc .vmem S64 .f32) (h6 : M6.IsWhole) (M7 : Memref sig .tc .vmem S1x1x64 .f32) (h7 : M7.IsWhole)
  (x0 x1 : Vec F S1x128x64 .f32) (x2 x3 : Vec F S64x128 .f32) (x4 : Vec F S128 .f32) (x5 : Vec F S128x64 .f32) (x6 : Vec F S64 .f32)
  (a : Vec F S1x1x64 .f32)

local notation "BODY" => cc0__relnet_kernel (grid0.coords t) M0 h0 M1 h1 M2 h2 M3 h3 M4 h4 M5 h5 M6 h6 M7 h7 (Memref.whole cc0_scratch0) (Memref.isWhole_whole _)

/-- The seven input buffers at their contents. -/
local notation "INS" => iprop(owns (c : Thread nD τ) M0 fullShare x0 ∗ owns (c : Thread nD τ) M1 fullShare x1 ∗ owns (c : Thread nD τ) M2 fullShare x2
  ∗ owns (c : Thread nD τ) M3 fullShare x3 ∗ owns (c : Thread nD τ) M4 fullShare x4 ∗ owns (c : Thread nD τ) M5 fullShare x5 ∗ owns (c : Thread nD τ) M6 fullShare x6)

/-- A first step (i = 0 and j = 0): the accumulator, whatever it held, ends at the step from zeros; the output's
    buffer is untouched. -/
theorem run_first (hF : IsFirst t) (hL : ¬ IsLast t) (O : sProp 𝕄) (Q : PUnit → sProp 𝕄) :
    iprop(INS ∗ O ∗ (∃ a, owns (c : Thread nD τ) accM fullShare a)
      ∗ (iprop(INS ∗ O ∗ owns (c : Thread nD τ) accM fullShare (stepA k0_pay2 x0 x1 x2 x3 x4 x5 x6)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, HO, ⟨%a', %fa, %hfa, Ha⟩, Hk⟩
  subst hf0 hf1 hf2 hf3 hf4 hf5 hf6
  sl_exec! (disch := assumption)
  sl_step
  iapply Hk
  isplitl [H0 H1 H2 H3 H4 H5 H6]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [HO]; · iexact HO
  iexists _; isplitr; swap; (· iexact Ha); ipureintro
  unfold run_first.sl.Ha_2 run_first.sl.v43 run_first.sl.Ha_1 run_first.sl.r
  rw [read_two]
  exact stepA_congr (readBack _ _) (load_X _ _) (load_X _ _) (load_W _ _) (load_W _ _) (load_B _ _) (load_V _ _) (load_C _ _)

/-- A middle step: the accumulator at `a` ends at the step from `a`; the output's buffer is untouched. -/
theorem run_mid (hF : ¬ IsFirst t) (hL : ¬ IsLast t) (O : sProp 𝕄) (Q : PUnit → sProp 𝕄) :
    iprop(INS ∗ O ∗ owns (c : Thread nD τ) accM fullShare a
      ∗ (iprop(INS ∗ O ∗ owns (c : Thread nD τ) accM fullShare (stepA a x0 x1 x2 x3 x4 x5 x6)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, HO, ⟨%fa, %hfa, Ha⟩, Hk⟩
  subst hf0 hf1 hf2 hf3 hf4 hf5 hf6 hfa
  sl_exec! (disch := assumption)
  sl_step
  iapply Hk
  isplitl [H0 H1 H2 H3 H4 H5 H6]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [HO]; · iexact HO
  iexists _; isplitr; swap; (· iexact Ha); ipureintro
  unfold run_mid.sl.Ha_1 run_mid.sl.r
  rw [read_one]
  exact stepA_congr (load_A _ _) (load_X _ _) (load_X _ _) (load_W _ _) (load_W _ _) (load_B _ _) (load_V _ _) (load_C _ _)

/-- A last step (i = 1 and j = 1; never a first one): the accumulator at `a` ends at the step from `a`, and the
    output's buffer, whatever it held, holds the same. -/
theorem run_last (hF : ¬ IsFirst t) (hL : IsLast t) (Q : PUnit → sProp 𝕄) :
    iprop(INS ∗ (∃ d, owns (c : Thread nD τ) M7 fullShare d) ∗ owns (c : Thread nD τ) accM fullShare a
      ∗ (iprop(INS ∗ owns (c : Thread nD τ) M7 fullShare (stepA a x0 x1 x2 x3 x4 x5 x6)
          ∗ owns (c : Thread nD τ) accM fullShare (stepA a x0 x1 x2 x3 x4 x5 x6)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, %hf7, H7⟩, ⟨%fa, %hfa, Ha⟩, Hk⟩
  subst hf0 hf1 hf2 hf3 hf4 hf5 hf6 hfa
  sl_exec! (disch := assumption)
  sl_step
  iapply Hk
  isplitl [H0 H1 H2 H3 H4 H5 H6]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]
  · iexists _; isplitr; swap; (· iexact H7); ipureintro
    unfold run_last.sl.H7_1 run_last.sl.v53 run_last.sl.Ha_1 run_last.sl.r
    rw [read_one, readBack]
    exact stepA_congr (load_A _ _) (load_X _ _) (load_X _ _) (load_W _ _) (load_W _ _) (load_B _ _) (load_V _ _) (load_C _ _)
  iexists _; isplitr; swap; (· iexact Ha); ipureintro
  unfold run_last.sl.Ha_1 run_last.sl.r
  rw [read_one]
  exact stepA_congr (load_A _ _) (load_X _ _) (load_X _ _) (load_W _ _) (load_W _ _) (load_B _ _) (load_V _ _) (load_C _ _)

end Runs

end Cert.Proof.K

end
-- ==== Proof.KData.lean ====
/-
  The proof data of the kernel's one pipeline, generic in the float instance.

  @main first lays the image out as xf : [8, 256, 64] (a reshape and a transpose) and cuts the first layer's weight into its
  two halves wi, wj : [64, 128]; the region then walks a grid of 8 · 2 · 2 points. At point t = 4·b + 2·i + j the body
  reads rows 128·i … of image b (window 0) and rows 128·j … of the same image (window 1) — two windows on the ONE array
  xf —, the two weight halves, both biases and the second weight whole, and adds the tile's sum over its 128 · 128
  pairs into a scratch accumulator: zeroed at the first point of each image (t ≡ 0 mod 4), copied to the output's
  block (row b of the [8, 1, 64] result) at the last (t ≡ 3 mod 4).
  Here: the arrays as the region finds them, each window's block at a point, the accumulator after each point by
  recursion on the point, the invariant between points, and what every staging buffer holds when the body is called.
-/
import proofs.«172315_j47828755808730_2_alg».proof.Proof.Gen.Kernel
import proofs.«172315_j47828755808730_2_alg».proof.Proof.Gen.Kernel.Skeleton
import proofs.«172315_j47828755808730_2_alg».proof.Proof.Gen.Kernel.Launch
import proofs.«172315_j47828755808730_2_alg».proof.Proof.Gen.Kernel.Points
import proofs.«172315_j47828755808730_2_alg».proof.Proof.KBody
import Idealize.ShloMosaic.Lib.Pipeline.Regions
import Idealize.ShloMosaic.Lib.Pipeline.Frame
import Idealize.ShloMosaic.Lib.Pipeline.FrameBody

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- after the four layout operations before the region: xf, wi, wj are written, nothing else moved. -/
abbrev W₁ (c : Dev nD) : Valuation τ sig (Elt F) := StableHlo.after hostOps0 (V₀ m c)
abbrev V₁ (c : Dev nD) (b : Ref sig .tc) : Buf (Elt F) ((c : Thread nD τ).loc b) := W₁ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V₁ m c (Pipeline.arrRef spec0 w))

/-! ## The accumulator, point by point -/

/-- One step of the accumulator from contents `a` at point `t`: the tile's column sums added. -/
def stepAt (c : Dev nD) (t : Fin cfg0.N) (a : Vec F S1x1x64 .f32) : Vec F S1x1x64 .f32 :=
  k0_pay1 (k0_pay3 (iblk m c 0 t) (iblk m c 1 t) (iblk m c 2 t) (iblk m c 3 t) (iblk m c 4 t) (iblk m c 5 t)) (iblk m c 6 t) a

/-- The scratch after point `k`: restarted from zeros at the first point of each image, stepped otherwise. -/
def accA (c : Dev nD) : (k : ℕ) → k < cfg0.N → Vec F S1x1x64 .f32
  | 0, hk => stepAt m c ⟨0, hk⟩ k0_pay2
  | k + 1, hk => if (k + 1) % 4 = 0 then stepAt m c ⟨k + 1, hk⟩ k0_pay2 else stepAt m c ⟨k + 1, hk⟩ (accA c k (Nat.lt_of_succ_lt hk))

theorem accA_first (c : Dev nD) (t : Fin cfg0.N) (h : t.val % 4 = 0) : accA m c t.val t.isLt = stepAt m c t k0_pay2 := by
  obtain ⟨k, hk⟩ := t
  cases k with
  | zero => rfl
  | succ k => show (if (k + 1) % 4 = 0 then _ else _) = _; rw [if_pos h]

theorem accA_step (c : Dev nD) (t : Fin cfg0.N) (h : t.val % 4 ≠ 0) (hp : t.val - 1 < cfg0.N) :
    accA m c t.val t.isLt = stepAt m c t (accA m c (t.val - 1) hp) := by
  obtain ⟨k, hk⟩ := t
  cases k with
  | zero => exact absurd rfl h
  | succ k => show (if (k + 1) % 4 = 0 then _ else _) = _; rw [if_neg h]; rfl

/-- The scratch BEFORE a point that is not an image's first: what the point before left. -/
abbrev accB (c : Dev nD) (t : Fin cfg0.N) (h : t.val % 4 ≠ 0) : Vec F S1x1x64 .f32 :=
  accA m c (t.val - 1) (by have := t.isLt; omega)

/-! ## The proof data -/

/-- The invariant before point `k` (k = 0 … 32): the scratch at anything before an image's first point and after the
    last image, else at what the point before left. -/
def Φv (c : Dev nD) (k : Fin (cfg0.N + 1)) : sProp 𝕄 :=
  if h : k.val % 4 = 0 then iprop(∃ a, owns (c : Thread nD τ) accM fullShare a)
  else iprop(owns (c : Thread nD τ) accM fullShare (accA m c (k.val - 1) (by have := k.isLt; omega)))

/-- xf is read through two windows: each holds half of it; every other array is held whole. -/
def dats (_ : Fin 1) (c : Dev nD) : Dat τ (Elt F) Unit ℕ (UR sig nD τ) ℕ cfg0 c where
  A w := V₁ m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accA m c t.val t.isLt
  Φ k := Φv m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V₁ m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = accA m c t.val t.isLt := by dsimp only [dats]

end Cert.Proof.K

end
-- ==== Proof.KArr.lean ====
/-
  What the body finds in each input's staging buffer, and the arrays' buffers against the pipeline's account of them.

  Every input window's current staging buffer holds its block at every point, fetched there or not (an input that is
  not refetched kept its block index). The seven distinct buffers behind the eight windows, each held whole, are the
  pipeline's arrays: xf, read through two windows, is split into its two half shares, one per window, and put back
  together when both windows end holding the same contents.
-/
import proofs.«172315_j47828755808730_2_alg».proof.Proof.KData

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The inputs' staging buffers hold their blocks -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The arrays' buffers -/

/-- The distinct buffers behind the eight windows: seven. -/
theorem arrImage : Finset.univ.image (Pipeline.arrRef spec0) = [main_v1, main_v2, main_v3, main_arg2, main_arg3, main_arg4, main_v4].toFinset := by decide

omit [FloatOps F] in
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_v2) ↦{fullShare} V main_v2)
          ∗ (((c : Thread nD τ).loc main_v3) ↦{fullShare} V main_v3) ∗ (((c : Thread nD τ).loc main_arg2) ↦{fullShare} V main_arg2)
          ∗ (((c : Thread nD τ).loc main_arg3) ↦{fullShare} V main_arg3) ∗ (((c : Thread nD τ).loc main_arg4) ↦{fullShare} V main_arg4)
          ∗ (((c : Thread nD τ).loc main_v4) ↦{fullShare} V main_v4)) := by
  unfold Pipeline.arrBufs
  exact bigSep_eq_bigSepL_of_eq _ arrImage (by decide) _

/-- The pipeline's arrays, window by window: xf at its two half shares, the others whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2) ∗ (((c : Thread nD τ).loc main_v3) ↦{fullShare} G 3)
          ∗ (((c : Thread nD τ).loc main_arg2) ↦{fullShare} G 4) ∗ (((c : Thread nD τ).loc main_arg3) ↦{fullShare} G 5)
          ∗ (((c : Thread nD τ).loc main_arg4) ↦{fullShare} G 6) ∗ (((c : Thread nD τ).loc main_v4) ↦{fullShare} G 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The seven buffers held whole at `V` are the pipeline's arrays at contents read off `V`, and conversely. -/
theorem arrays_of_bufs (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ (dats m 0 c).arrays G := by
  rw [arrBufs_eq, arrays_chain, hG 0, hG 1, hG 2, hG 3, hG 4, hG 5, hG 6, hG 7]
  iintro ⟨H1, H2, H3, H4, H5, H6, H7⟩
  ihave H := (pointsTo_share (PosShare.mem_left_op_right fullShare)).1 $$ H1
  icases H with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

theorem bufs_of_arrays (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    ((dats m 0 c).arrays G : sProp 𝕄) ⊢ Pipeline.arrBufs (Ix := Unit) (Name := ℕ) (U := UR sig nD τ) (Lvl := ℕ) spec0 c V := by
  rw [arrBufs_eq, arrays_chain, hG 0, hG 1, hG 2, hG 3, hG 4, hG 5, hG 6, hG 7]
  iintro ⟨Hl, Hr, H2, H3, H4, H5, H6, H7⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  iexact H7

end Cert.Proof.K

end
-- ==== Proof.KLaunch.lean ====
/-
  The kernel's run, generic in the float instance: @main as five segments — the four layout operations, the
  region, and three stretches of the dense tail — launched from any memory with zero semaphore counters.

  The region is entered from every unscoped buffer held whole at the contents the layout operations left; the seven
  buffers behind its eight windows become the pipeline's arrays (xf split between its two windows), the scratch
  accumulator enters the invariant; at the exit the arrays are put back, the result's buffer now at the contents the
  write-backs produced, and the tail's operations run on from there. Every weakly fair execution terminates, and the
  final memory holds, at every unscoped buffer, the tail's operations applied to those contents.
-/
import proofs.«172315_j47828755808730_2_alg».proof.Proof.KArr

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The kernel has no semaphore of its own. -/
abbrev osem : PEmpty → SemLoc sig := fun k => k.elim

/-- What rides beside the buffers through every segment: the core owing nothing. -/
abbrev R (c : Dev nD) : sProp 𝕄 := iprop(∃ W, owes (c : Thread nD τ) (0 : CellTallies nD τ sig Unit) W)

/-! ## The buffers after the region -/

/-- The result's buffer at what the write-backs left; every other buffer as the region found it. -/
def W₂ (c : Dev nD) : Valuation τ sig (Elt F) :=
  Function.update (W₁ m c) (Proc.devRef .tc main_v4) ((dats m 0 c).arrAt 7 cfg0.N)
abbrev V₂ (c : Dev nD) (b : Ref sig .tc) : Buf (Elt F) ((c : Thread nD τ).loc b) := W₂ m c (Proc.devRef .tc b)
/-- and after the dense tail. -/
abbrev W₃ (c : Dev nD) : Valuation τ sig (Elt F) := StableHlo.after hostOps1_2 (StableHlo.after hostOps1_1 (StableHlo.after hostOps1 (W₂ m c)))

theorem V₂_v4 (c : Dev nD) : V₂ m c main_v4 = (dats m 0 c).arrAt 7 cfg0.N := by
  unfold V₂ W₂; exact Function.update_self ..

theorem V₂_of_ne (c : Dev nD) (b : Ref sig .tc) (hb : b ≠ main_v4) : V₂ m c b = V₁ m c b := by
  unfold V₂ W₂ V₁
  exact Function.update_of_ne (fun e => hb (Proc.devRef_injective (τ := τ) _ e)) ..

/-- Every window's array ends at the contents `V₂` names: an input's as it was, the result's as written back. -/
theorem arrAt_last (c : Dev nD) : ∀ w : Fin cfg0.W, (dats m 0 c).arrAt w cfg0.N = V₂ m c (Pipeline.arrRef spec0 w)
  | ⟨0, _⟩ => ((dats m 0 c).arrAt_in 0 rfl _).trans ((A_eq m c 0).trans (V₂_of_ne m c _ (by decide)).symm)
  | ⟨1, _⟩ => ((dats m 0 c).arrAt_in 1 rfl _).trans ((A_eq m c 1).trans (V₂_of_ne m c _ (by decide)).symm)
  | ⟨2, _⟩ => ((dats m 0 c).arrAt_in 2 rfl _).trans ((A_eq m c 2).trans (V₂_of_ne m c _ (by decide)).symm)
  | ⟨3, _⟩ => ((dats m 0 c).arrAt_in 3 rfl _).trans ((A_eq m c 3).trans (V₂_of_ne m c _ (by decide)).symm)
  | ⟨4, _⟩ => ((dats m 0 c).arrAt_in 4 rfl _).trans ((A_eq m c 4).trans (V₂_of_ne m c _ (by decide)).symm)
  | ⟨5, _⟩ => ((dats m 0 c).arrAt_in 5 rfl _).trans ((A_eq m c 5).trans (V₂_of_ne m c _ (by decide)).symm)
  | ⟨6, _⟩ => ((dats m 0 c).arrAt_in 6 rfl _).trans ((A_eq m c 6).trans (V₂_of_ne m c _ (by decide)).symm)
  | ⟨7, _⟩ => (V₂_v4 m c).symm

/-- The buffers no window stages are untouched by the region. -/
theorem rest_congr (c : Dev nD) :
    (Pipeline.unscopedRest (Ix := Unit) (Name := ℕ) (U := UR sig nD τ) (Lvl := ℕ) spec0 c (V₁ m c) : sProp 𝕄)
      = Pipeline.unscopedRest spec0 c (V₂ m c) := by
  unfold Pipeline.unscopedRest
  refine bigSep_congr fun b hb => ?_
  rw [V₂_of_ne m c b fun e => (Finset.mem_sdiff.mp hb).2 (Finset.mem_image.mpr ⟨7, Finset.mem_univ _, e ▸ rfl⟩)]

/-! ## The segments -/

theorem ops_fresh0 : ∀ op ∈ (hostOps0 : List (HloOp τ sig (Elt F))), op.fresh = ∅ := by
  intro _ h; (repeat (cases h with | head => rfl | tail _ h => ?_)); exact nomatch h
theorem ops_fresh1 : ∀ op ∈ (hostOps1 : List (HloOp τ sig (Elt F))), op.fresh = ∅ := by
  intro _ h; (repeat (cases h with | head => rfl | tail _ h => ?_)); exact nomatch h
theorem ops_fresh1_1 : ∀ op ∈ (hostOps1_1 : List (HloOp τ sig (Elt F))), op.fresh = ∅ := by
  intro _ h; (repeat (cases h with | head => rfl | tail _ h => ?_)); exact nomatch h
theorem ops_fresh1_2 : ∀ op ∈ (hostOps1_2 : List (HloOp τ sig (Elt F))), op.fresh = ∅ := by
  intro _ h; (repeat (cases h with | head => rfl | tail _ h => ?_)); exact nomatch h

/-- The layout operations before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) ops_fresh0 (V₀ m) R
/-- The dense tail, in its three stretches. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) ops_fresh1 (W₂ m) R
def seg2 : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h)) ops_fresh1_1 (fun c => StableHlo.after hostOps1 (W₂ m c)) R
def seg3 : Pipeline.HostSeg (Name := ℕ) (U := UR sig nD τ) (pcfgs (F := F)) defs₀ 𝒱₀ L lv :=
  Pipeline.HostSeg.ofOps _ _ _ _ _ (Pipeline.ucRefs τ sig) hostOps1_2
    (fun op h => Pipeline.sub_ucRefs op ((List.forall_iff_forall_mem.mp hostOps1_2_sub) op h)) ops_fresh1_2
    (fun c => StableHlo.after hostOps1_1 (StableHlo.after hostOps1 (W₂ m c))) R

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-! ## The region -/

-- the region's entry and exit are the launch's statements at this program's own configuration
set_option backward.isDefEq.respectTransparency.types false in
/-- The region, entered from what the layout operations left and left with the result's buffer rewritten. -/
def reg0 (hbody : ∀ c, BodyObligation (dats (F := F) m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := osem
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (W₁ m c) ∗ R c)
  post c := iprop(StableHlo.held (c : Thread nD τ) (Pipeline.ucRefs τ sig) (W₂ m c) ∗ R c)
  X _ := iprop(emp)
  Y _ := iprop(emp)
  Z c := Pipeline.unscopedRest spec0 c (V₁ m c)
  hentry c := by
    rw [show StableHlo.held (c : Thread nD τ) (Pipeline.ucRefs τ sig) (W₁ m c) = unscopedBufs c (V₁ m c) from (Pipeline.unscopedBufs_held c _).symm,
      Pipeline.unscopedBufs_split₀ cfgs 0 winFacts₀0.arr_unscoped c]
    iintro ⟨⟨⟨Hab, Hrest⟩, HO⟩, -, -⟩
    ihave Ha := (arrays_of_bufs m c (V₁ m c) (fun w => (dats m 0 c).arrAt w 0) (fun w => A_eq m c w)) $$ Hab
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      iapply (owesAt_intro m c 0 W); iexact HO
    isplitr; · iempintro
    iexact Hrest
  hin c := by
    rw [show (dats m 0 c).Φ 0 = Φv m c 0 from rfl]
    unfold Φv; rw [dif_pos (by decide), scopedRest0_eq]
    iintro ⟨-, -, ⟨%f, Hf⟩⟩
    iexists f; rw [owns_whole_eq]; iexists f; isplitr; (· ipureintro; rfl); iexact Hf
  hout c := by
    rw [show (dats m 0 c).Φ (Fin.last cfg0.N) = Φv m c (Fin.last cfg0.N) from rfl]
    unfold Φv; rw [dif_pos (by rw [Fin.val_last]; have : cfg0.N = 32 := N_0; omega), Pipeline.ownSems0_none, scopedRest0_eq]; simp only [owns_whole_eq]
    iintro ⟨%a, %f, %hf, Hf⟩
    isplitr; · iempintro
    isplitr; · iempintro
    iexists f; iexact Hf
  hexit c := by
    rw [show StableHlo.held (c : Thread nD τ) (Pipeline.ucRefs τ sig) (W₂ m c) = unscopedBufs c (V₂ m c) from (Pipeline.unscopedBufs_held c _).symm,
      Pipeline.unscopedBufs_split₀ cfgs 0 winFacts₀0.arr_unscoped c, rest_congr m c]
    iintro ⟨Ha, HO, -, HZ⟩
    imodintro
    isplitr [HO]
    · isplitl [Ha]
      · iapply (bufs_of_arrays m c (V₂ m c) _ (arrAt_last m c)); iexact Ha
      · iexact HZ
    · unfold Pipeline.Dat.owesAt Pipeline.owesWithin
      icases HO with ⟨%W, -, HO⟩; iexists W; iexact HO

/-! ## The run -/

/-- @main as its five segments. -/
abbrev segs (hbody : ∀ c, BodyObligation (dats (F := F) m 0 c) (defs₀ (F := F)) 𝒱₀ () Set.univ) :
    List (Pipeline.Seg (pcfgs (F := F)) adm (dats m) () defs₀ 𝒱₀ L lv) :=
  [.host (seg0 m), .region (reg0 m hbody), .host (seg1 m), .host (seg2 m), .host (seg3 m)]

/-- The final memory: every unscoped buffer of every core at the dense tail's account of it. -/
def QF : PUnit × MemSt nD τ sig (Elt F) → Prop := fun r =>
  ∀ c : Dev nD, ∀ b ∈ Pipeline.ucRefs τ sig, r.2.mem ((c : Dev nD), b) = W₃ m c b

set_option backward.isDefEq.respectTransparency.types false in
/-- From any memory with zero semaphore counters, every weakly fair execution of @main terminates, nothing faulting,
    and ends with every unscoped buffer at `W₃`. -/
theorem run_main (hbody : ∀ c, BodyObligation (dats (F := F) m 0 c) (defs₀ (F := F)) 𝒱₀ () Set.univ) :
    θ_run defs (onTc (τ := τ) (main (F := F))) ⟨m, fun _ => 0, ρ⟩ (QF m) :=
  Pipeline.θ_run_regions_kit (pcfgs (F := F)) adm (dats m) () cellOf_inj emb₁ defs₀ 𝒱₀ L lv m ρ main (segs m hbody)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (W₃ m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = W₃ m c b)
    (hfin := fun c s' => by
      unfold StableHlo.held
      iintro ⟨Hh, HSI⟩
      ihave Hr := (pointsTo_read_all (Pipeline.ucRefs τ sig) (fun b => ((c : Dev nD), b)) (W₃ m c) s') $$ [Hh HSI]
      · isplitl [Hh] <;> iassumption
      icases Hr with ⟨%h, HSI⟩
      imodintro
      isplitr; · ipureintro; exact h
      iexact HSI)
    (hQ := fun _ h => h)

end Cert.Proof.K

end
-- ==== Proof.KKeep.lean ====
/-
  Buffers a stretch of host operations does not write keep their contents through it.

  The contents after a list of host operations are a fold over the list; each operation replaces the one buffer it
  writes. So the fold, read at a buffer that is not among the buffers the list writes, is the contents before. For each
  of the program's four stretches the written buffers are listed, and every argument of the program (and the region's
  result) is outside each list.
-/
import proofs.«172315_j47828755808730_2_alg».proof.Proof.Gen.Kernel.Launch
import Idealize.ShloMosaic.Lib.StableHlo.Run

noncomputable section

namespace Cert.Proof.K

open Cert.Kernel Cert.Kernel.Gen Idealize.ShloMosaic Idealize.ShloMosaic.TcCoe Idealize.SL.Sem

variable {F : FTy → Type} [FloatOps F]

/-- The program's nine arguments. -/
abbrev args : List (Ref sig .tc) :=
  [main_arg0, main_arg1, main_arg2, main_arg3, main_arg4, main_arg5, main_arg6, main_arg7, main_arg8]

/-- The buffers each stretch writes, in order. -/
abbrev written0 : List (Ref sig .tc) := [main_v0, main_v1, main_v2, main_v3]
abbrev written1 : List (Ref sig .tc) := [main_v5, main_v6, main_v7, main_v8, main_v9]
abbrev written1_1 : List (Ref sig .tc) := [main_call0_cst, main_call0_v0, main_v10]
abbrev written1_2 : List (Ref sig .tc) := [main_v11, main_v12, main_v13, main_v14, main_v15, main_v16]

/-- An operation whose one written buffer is in a list writes inside the list. -/
theorem singleton_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

theorem writes0 : (hostOps0 : List (HloOp τ sig (Elt F))).Forall fun op =>
    op.writes ⊆ (written0.map (Proc.devRef (τ := τ) .tc)).toFinset :=
  ⟨singleton_sub (y := main_v0) (by decide), singleton_sub (y := main_v1) (by decide), singleton_sub (y := main_v2) (by decide),
    singleton_sub (y := main_v3) (by decide)⟩

theorem writes1 : (hostOps1 : List (HloOp τ sig (Elt F))).Forall fun op =>
    op.writes ⊆ (written1.map (Proc.devRef (τ := τ) .tc)).toFinset :=
  ⟨singleton_sub (y := main_v5) (by decide), singleton_sub (y := main_v6) (by decide), singleton_sub (y := main_v7) (by decide),
    singleton_sub (y := main_v8) (by decide), singleton_sub (y := main_v9) (by decide)⟩

theorem writes1_1 : (hostOps1_1 : List (HloOp τ sig (Elt F))).Forall fun op =>
    op.writes ⊆ (written1_1.map (Proc.devRef (τ := τ) .tc)).toFinset :=
  ⟨singleton_sub (y := main_call0_cst) (by decide), singleton_sub (y := main_call0_v0) (by decide),
    singleton_sub (y := main_v10) (by decide)⟩

theorem writes1_2 : (hostOps1_2 : List (HloOp τ sig (Elt F))).Forall fun op =>
    op.writes ⊆ (written1_2.map (Proc.devRef (τ := τ) .tc)).toFinset :=
  ⟨singleton_sub (y := main_v11) (by decide), singleton_sub (y := main_v12) (by decide), singleton_sub (y := main_v13) (by decide),
    singleton_sub (y := main_v14) (by decide), singleton_sub (y := main_v15) (by decide), singleton_sub (y := main_v16) (by decide)⟩

/-- Any buffer outside a stretch's written list keeps its contents through the stretch. -/
theorem keep0_of_not_mem (V : Valuation τ sig (Elt F)) {b : Ref sig .tc} (hb : b ∉ written0) :
    StableHlo.after hostOps0 V (Proc.devRef .tc b) = V (Proc.devRef .tc b) :=
  StableHlo.after_of_writes_sub hostOps0 V writes0 hb
theorem keep1_of_not_mem (V : Valuation τ sig (Elt F)) {b : Ref sig .tc} (hb : b ∉ written1) :
    StableHlo.after hostOps1 V (Proc.devRef .tc b) = V (Proc.devRef .tc b) :=
  StableHlo.after_of_writes_sub hostOps1 V writes1 hb
theorem keep1_1_of_not_mem (V : Valuation τ sig (Elt F)) {b : Ref sig .tc} (hb : b ∉ written1_1) :
    StableHlo.after hostOps1_1 V (Proc.devRef .tc b) = V (Proc.devRef .tc b) :=
  StableHlo.after_of_writes_sub hostOps1_1 V writes1_1 hb
theorem keep1_2_of_not_mem (V : Valuation τ sig (Elt F)) {b : Ref sig .tc} (hb : b ∉ written1_2) :
    StableHlo.after hostOps1_2 V (Proc.devRef .tc b) = V (Proc.devRef .tc b) :=
  StableHlo.after_of_writes_sub hostOps1_2 V writes1_2 hb

/-- No argument is written by any stretch. -/
theorem args_not_written0 : ∀ b ∈ args, b ∉ written0 := by decide
theorem args_not_written1 : ∀ b ∈ args, b ∉ written1 := by decide
theorem args_not_written1_1 : ∀ b ∈ args, b ∉ written1_1 := by decide
theorem args_not_written1_2 : ∀ b ∈ args, b ∉ written1_2 := by decide

/-- Every argument keeps its contents through the operations before the region … -/
theorem keep0 (V : Valuation τ sig (Elt F)) : ∀ b ∈ args,
    StableHlo.after hostOps0 V (Proc.devRef .tc b) = V (Proc.devRef .tc b) :=
  fun b hb => keep0_of_not_mem V (args_not_written0 b hb)
/-- … and through each of the three stretches after it. -/
theorem keep1 (V : Valuation τ sig (Elt F)) : ∀ b ∈ args,
    StableHlo.after hostOps1 V (Proc.devRef .tc b) = V (Proc.devRef .tc b) :=
  fun b hb => keep1_of_not_mem V (args_not_written1 b hb)
theorem keep1_1 (V : Valuation τ sig (Elt F)) : ∀ b ∈ args,
    StableHlo.after hostOps1_1 V (Proc.devRef .tc b) = V (Proc.devRef .tc b) :=
  fun b hb => keep1_1_of_not_mem V (args_not_written1_1 b hb)
theorem keep1_2 (V : Valuation τ sig (Elt F)) : ∀ b ∈ args,
    StableHlo.after hostOps1_2 V (Proc.devRef .tc b) = V (Proc.devRef .tc b) :=
  fun b hb => keep1_2_of_not_mem V (args_not_written1_2 b hb)

/-- The region's result buffer is not written by the operations before the region. -/
theorem keep0_v4 (V : Valuation τ sig (Elt F)) :
    StableHlo.after hostOps0 V (Proc.devRef .tc main_v4) = V (Proc.devRef .tc main_v4) :=
  keep0_of_not_mem V (by decide)

end Cert.Proof.K

end
-- ==== Proof.KFrame.lean ====
/-
  The kernel program's frame, generic in the float instance: no host operation and no window of the region writes an
  argument array, so each of the nine arguments is, after the run, what it was at launch.
-/
import proofs.«172315_j47828755808730_2_alg».proof.Proof.KLaunch
import proofs.«172315_j47828755808730_2_alg».proof.Proof.KKeep

noncomputable section

namespace Cert.Proof.K

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

variable (m : (ℓ : Loc nD τ sig) → Buf (Elt F) ℓ) (ρ : Dev nD → PrngReg)

/-- An unscoped TensorCore buffer is among the buffers the host stretches hold. -/
theorem mem_uc (b : Ref sig .tc) (hb : b.isScoped = false) : Proc.devRef (τ := τ) .tc b ∈ Pipeline.ucRefs τ sig := by
  unfold Pipeline.ucRefs StableHlo.tcRefs
  refine Finset.mem_filter.mpr ⟨Finset.mem_map.mpr ⟨b, Finset.mem_univ _, rfl⟩, ?_⟩
  intro h
  exact Bool.false_ne_true (hb.symm.trans h)

/-- An argument array after the whole run of @main: the dense tail, the region and the layout operations all leave it. -/
theorem W₃_arg (c : Dev nD) (b : Ref sig .tc) (hb : b ∈ args) : W₃ m c (Proc.devRef .tc b) = m ((c : Thread nD τ).loc b) := by
  have hne : b ≠ main_v4 := fun e => by subst e; exact absurd hb (by decide)
  show StableHlo.after hostOps1_2 (StableHlo.after hostOps1_1 (StableHlo.after hostOps1 (W₂ m c))) (Proc.devRef .tc b) = _
  rw [keep1_2 _ b hb, keep1_1 _ b hb, keep1 _ b hb]
  exact (V₂_of_ne m c b hne).trans (keep0 (V₀ m c) b hb)

/-- The frame from the body obligation: every weakly fair execution terminates and the nine arguments end unchanged. -/
theorem frame_of (hbody : ∀ c, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 rfl)).trans (W₃_arg m c main_arg0 (by decide)),
     (h c _ (mem_uc main_arg1 rfl)).trans (W₃_arg m c main_arg1 (by decide)),
     (h c _ (mem_uc main_arg2 rfl)).trans (W₃_arg m c main_arg2 (by decide)),
     (h c _ (mem_uc main_arg3 rfl)).trans (W₃_arg m c main_arg3 (by decide)),
     (h c _ (mem_uc main_arg4 rfl)).trans (W₃_arg m c main_arg4 (by decide)),
     (h c _ (mem_uc main_arg5 rfl)).trans (W₃_arg m c main_arg5 (by decide)),
     (h c _ (mem_uc main_arg6 rfl)).trans (W₃_arg m c main_arg6 (by decide)),
     (h c _ (mem_uc main_arg7 rfl)).trans (W₃_arg m c main_arg7 (by decide)),
     (h c _ (mem_uc main_arg8 rfl)).trans (W₃_arg m c main_arg8 (by decide))⟩) (run_main m ρ hbody)

end Cert.Proof.K

end
-- ==== Proof.KOblig.lean ====
/-
  The pipeline's body obligation, from the body's three runs.

  A point t = 4·b + 2·i + j is an image's first (i = 0 and j = 0) iff t ≡ 0 (mod 4) and its last (i = 1 and j = 1) iff
  t ≡ 3 (mod 4). The output's window is idle, and not written back, at every point but an image's last; no input's
  window is ever idle. Between points the invariant holds the accumulator: at anything before an image's first point,
  else at what the point before left. At each point the run of the point's kind takes the invariant's form before the
  point to its form after it: a first step from anything to the step from zeros, a middle step from what the point
  before left to the step from that, a last step the same and the output's staging buffer at the same contents; at a
  point that is not a last one the output's staging buffer passes through the body untouched.
-/
import proofs.«172315_j47828755808730_2_alg».proof.Proof.KArr

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The kinds of point -/

/-- A point is an image's first iff its number is ≡ 0 (mod 4), its last iff ≡ 3. -/
theorem isFirst_iff : ∀ t : Fin cfg0.N, IsFirst t ↔ t.val % 4 = 0 :=
  (by decide +kernel : ∀ t : Fin grid0.N, (Scalar.cmpi .ne (Scalar.extui (Scalar.andi (Scalar.cmpi .eq (BitVec.ofNat 32 ((grid0.coords t) 1).val) 0#32)
    (Scalar.cmpi .eq (BitVec.ofNat 32 ((grid0.coords t) 2).val) 0#32))) 0#32 = 1#1) ↔ t.val % 4 = 0)
theorem isLast_iff : ∀ t : Fin cfg0.N, IsLast t ↔ t.val % 4 = 3 :=
  (by decide +kernel : ∀ t : Fin grid0.N, k0_cond2 (grid0.coords t) = 1#1 ↔ t.val % 4 = 3)

/-- The output's window is idle except at a last point, and written back exactly there; no input's window is ever idle. -/
theorem idle7_of_last (t : Fin cfg0.N) (h : IsLast t) : idle0 7 (grid0.coords t) = false := by
  show (!(k0_cond2 (grid0.coords t) == 1#1)) = false; rw [show (k0_cond2 (grid0.coords t) == 1#1) = true from beq_iff_eq.mpr h]; rfl
theorem idle7_of_not_last (t : Fin cfg0.N) (h : ¬ IsLast t) : idle0 7 (grid0.coords t) = true := by
  show (!(k0_cond2 (grid0.coords t) == 1#1)) = true; rw [show (k0_cond2 (grid0.coords t) == 1#1) = false from beq_eq_false_iff_ne.mpr h]; rfl
theorem idle_0 (t : Fin cfg0.N) : idle0 0 (grid0.coords t) = false := rfl
theorem idle_1 (t : Fin cfg0.N) : idle0 1 (grid0.coords t) = false := rfl
theorem idle_2 (t : Fin cfg0.N) : idle0 2 (grid0.coords t) = false := rfl
theorem idle_3 (t : Fin cfg0.N) : idle0 3 (grid0.coords t) = false := rfl
theorem idle_4 (t : Fin cfg0.N) : idle0 4 (grid0.coords t) = false := rfl
theorem idle_5 (t : Fin cfg0.N) : idle0 5 (grid0.coords t) = false := rfl
theorem idle_6 (t : Fin cfg0.N) : idle0 6 (grid0.coords t) = false := rfl
theorem flush7_of_last (t : Fin cfg0.N) (h : IsLast t) : (cfg0.win 7).flush t = true := (flush0_7 t).mpr ((isLast_iff t).mp h)
theorem flush7_of_not_last (t : Fin cfg0.N) (h : ¬ IsLast t) : (cfg0.win 7).flush t = false :=
  Bool.eq_false_iff.mpr fun hf => h ((isLast_iff t).mpr ((flush0_7 t).mp hf))

variable (m : (ℓ : Loc nD τ sig) → Buf (Elt F) ℓ)

/-- A step at point `t` is the body's step over the blocks at `t`. -/
theorem stepAt_eq (c : Dev nD) (t : Fin cfg0.N) (a : Vec F S1x1x64 .f32) :
    stepAt m c t a = stepA a (iblk m c 0 t) (iblk m c 1 t) (iblk m c 2 t) (iblk m c 3 t) (iblk m c 4 t) (iblk m c 5 t) (iblk m c 6 t) := rfl

/-- The core owes nothing, before every point. -/
private theorem owesAt_of_owes (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-! ## The invariant before and after a point, by the point's kind -/

theorem Φ_pre_first (c : Dev nD) (t : Fin cfg0.N) (h : t.val % 4 = 0) :
    (dats m 0 c).Φ t.castSucc = iprop(∃ a, owns (c : Thread nD τ) accM fullShare a) := by
  show Φv m c _ = _; unfold Φv; rw [dif_pos (by exact h)]
theorem Φ_pre_other (c : Dev nD) (t : Fin cfg0.N) (h : t.val % 4 ≠ 0) :
    (dats m 0 c).Φ t.castSucc = iprop(owns (c : Thread nD τ) accM fullShare (accB m c t h)) := by
  show Φv m c _ = _; unfold Φv; rw [dif_neg (by exact h)]; rfl
theorem Φ_post_last (c : Dev nD) (t : Fin cfg0.N) (h : t.val % 4 = 3) :
    (dats m 0 c).Φ t.succ = iprop(∃ a, owns (c : Thread nD τ) accM fullShare a) := by
  show Φv m c _ = _; unfold Φv; rw [dif_pos (by show (t.val + 1) % 4 = 0; omega)]
theorem Φ_post_other (c : Dev nD) (t : Fin cfg0.N) (h : t.val % 4 ≠ 3) :
    (dats m 0 c).Φ t.succ = iprop(owns (c : Thread nD τ) accM fullShare (accA m c t.val t.isLt)) := by
  show Φv m c _ = _; unfold Φv; rw [dif_neg (by show ¬ (t.val + 1) % 4 = 0; omega)]; rfl

/-! ## The obligation -/

/-- At every point, by the point's kind: the run of that kind between the invariant's two forms; the output's staging
    buffer passed through at a point that is not a last one, left at the step's result at a last one. -/
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl]
  by_cases hL : IsLast t
  · -- a last point: not a first one
    have h3 : t.val % 4 = 3 := (isLast_iff t).mp hL
    have h1 : t.val % 4 ≠ 0 := by omega
    have hF : ¬ IsFirst t := fun h => h1 ((isFirst_iff t).mp h)
    simp only [idle_0, idle_1, idle_2, idle_3, idle_4, idle_5, idle_6, idle7_of_last t hL, flush7_of_last t hL, before_0, before_1, before_2, before_3, before_4, before_5, before_6, after_0, after_1, after_2, after_3, after_4, after_5, after_6, after_7]
    rw [Φ_pre_other m c t h1, Φ_post_last m c t h3, accA_step m c t h1 (by have := t.isLt; omega), stepAt_eq]
    iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t) (accB m c t h1) hF hL)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [Ha]; · iexact Ha
    iintro ⟨⟨H0, H1, H2, H3, H4, H5, H6⟩, H7, Ha⟩
    isplitl [Ha]; · iexists _; iexact Ha
    isplitl [HO]; · iapply (owesAt_of_owes m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [idle_0, idle_1, idle_2, idle_3, idle_4, idle_5, idle_6, idle7_of_not_last t hL, flush7_of_not_last t hL, before_0, before_1, before_2, before_3, before_4, before_5, before_6, after_0, after_1, after_2, after_3, after_4, after_5, after_6, after_7]
    by_cases hF : IsFirst t
    · -- a first point
      have h0 : t.val % 4 = 0 := (isFirst_iff t).mp hF
      rw [Φ_pre_first m c t h0, Φ_post_other m c t (by omega), accA_first m c t h0, stepAt_eq]
      iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run_first c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t) hF hL (iprop(∃ d, owns (c : Thread nD τ) (st0_7 t) fullShare ((dats m 0 c).before 7 t d))))
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [Ha]; · iexact Ha
      iintro ⟨⟨H0, H1, H2, H3, H4, H5, H6⟩, H7, Ha⟩
      isplitl [Ha]; · iexact Ha
      isplitl [HO]; · iapply (owesAt_of_owes m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      have h1 : t.val % 4 ≠ 0 := fun h => hF ((isFirst_iff t).mpr h)
      have h2 : t.val % 4 ≠ 3 := fun h => hL ((isLast_iff t).mpr h)
      rw [Φ_pre_other m c t h1, Φ_post_other m c t h2, accA_step m c t h1 (by have := t.isLt; omega), stepAt_eq]
      iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run_mid c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t) (accB m c t h1) hF hL (iprop(∃ d, owns (c : Thread nD τ) (st0_7 t) fullShare ((dats m 0 c).before 7 t d))))
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [Ha]; · iexact Ha
      iintro ⟨⟨H0, H1, H2, H3, H4, H5, H6⟩, H7, Ha⟩
      isplitl [Ha]; · iexact Ha
      isplitl [HO]; · iapply (owesAt_of_owes m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.Proof.K

end
-- ==== Proof.KIBody.lean ====
/-
  The kernel body at a SYMBOLIC grid point, for any float instance. The grid is (8 images, 2 row blocks, 2 row
  blocks); the body at point (b, i, j): if i = 0 and j = 0, store zeros into the accumulator (a scratch buffer of
  shape [1, 1, 64]); load the seven input blocks whole (two blocks of feature rows, the two first-layer weights, the
  first-layer bias, the second-layer weight, the second-layer bias), load the accumulator, and store back the
  accumulator plus the tile's contribution; if i = 1 and j = 1, load the accumulator and store it whole into the
  output's buffer.

  Three runs, at any point of their kind (the kind given as the two branch conditions): a first step leaves the
  accumulator at `stepA zeros …` whatever it held, a middle step takes it from `a` to `stepA a …`, a last step
  (which is never a first one) does the same and leaves `stepA a …` in the output's buffer as well. Every access is
  of a whole buffer through the rectangle at zero offsets of the buffer's own sizes: a load through it reads the
  contents, a store through it leaves its payload, so what the stores leave are the clean terms of the statements.
  The payloads (a [16384, 128] intermediate among them) stay opaque names throughout.
-/
import proofs.«172315_j47828755808730_2_alg».proof.Proof.Gen.KernelIdeal
import proofs.«172315_j47828755808730_2_alg».proof.Proof.Gen.KernelIdeal.Skeleton
import proofs.«172315_j47828755808730_2_alg».proof.Proof.Gen.KernelIdeal.Launch
import Idealize.ShloMosaic.Lib.Writes
import Idealize.ShloMosaic.Lib.Pipeline.FrameBody
import Idealize.ShloMosaic.Lib.Pipeline.Value
import Idealize.ShloMosaic.Lib.Tactic
import Idealize.ShloMosaic.Lib.Pipeline.Kit

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ambient algebra: one copy of the rounds algebra over the machine's cells. -/
local notation "𝕄" => MT nD τ sig Unit (Elt F) ℕ (UR sig nD τ) ℕ

/-- The accumulator: the kernel's one scratch buffer, whole. -/
abbrev accM : Memref sig .tc .vmem S1x1x64 .f32 := Memref.whole cc0_scratch0

/-- The branch conditions at point `t`: "i = 0 and j = 0" as the body computes it, "i = 1 and j = 1" as the program names it. -/
abbrev IsFirst (t : Fin cfg0.N) : Prop :=
  Scalar.cmpi .ne (Scalar.extui (Scalar.andi (Scalar.cmpi .eq (BitVec.ofNat 32 ((grid0.coords t) 1).val) 0#32)
    (Scalar.cmpi .eq (BitVec.ofNat 32 ((grid0.coords t) 2).val) 0#32))) 0#32 = 1#1
abbrev IsLast (t : Fin cfg0.N) : Prop := k0_cond2 (grid0.coords t) = 1#1

/-- The accumulator after a step from contents `a`: `a` plus the tile's contribution, a function of the seven blocks. -/
def stepA (a : Vec F S1x1x64 .f32) (x0 x1 : Vec F S1x128x64 .f32) (x2 x3 : Vec F S64x128 .f32) (x4 : Vec F S128 .f32)
    (x5 : Vec F S128x64 .f32) (x6 : Vec F S64 .f32) : Vec F S1x1x64 .f32 :=
  k0_pay1 (k0_pay3 x0 x1 x2 x3 x4 x5) x6 a

/-! ## Whole-buffer accesses

Each buffer is accessed through the rectangle at zero offsets of its own sizes. -/

/-- The whole [1, 1, 64] block (accumulator, output), -/
abbrev rA : Rect S1x1x64 := Rect.unit (s := S1x1x64) ![0, 0, 0] S1x1x64.size inb_S1x1x64_S1x1x64_0_0_0
/-- a whole block of feature rows, -/
abbrev rX : Rect S1x128x64 := Rect.unit (s := S1x128x64) ![0, 0, 0] S1x128x64.size inb_S1x128x64_S1x128x64_0_0_0
/-- a whole first-layer weight, -/
abbrev rW : Rect S64x128 := Rect.unit (s := S64x128) ![0, 0] S64x128.size inb_S64x128_S64x128_0_0
/-- the whole first-layer bias, -/
abbrev rB : Rect S128 := Rect.unit (s := S128) ![0] S128.size inb_S128_S128_0
/-- the whole second-layer weight, -/
abbrev rV : Rect S128x64 := Rect.unit (s := S128x64) ![0, 0] S128x64.size inb_S128x64_S128x64_0_0
/-- the whole second-layer bias. -/
abbrev rC : Rect S64 := Rect.unit (s := S64) ![0] S64.size inb_S64_S64_0

theorem hzA : (![0, 0, 0] : Fin S1x1x64.rank → Nat) = fun _ => 0 := funext fun i => by fin_cases i <;> rfl
theorem hzX : (![0, 0, 0] : Fin S1x128x64.rank → Nat) = fun _ => 0 := funext fun i => by fin_cases i <;> rfl
theorem hzW : (![0, 0] : Fin S64x128.rank → Nat) = fun _ => 0 := funext fun i => by fin_cases i <;> rfl
theorem hzB : (![0] : Fin S128.rank → Nat) = fun _ => 0 := funext fun i => by fin_cases i <;> rfl
theorem hzV : (![0, 0] : Fin S128x64.rank → Nat) = fun _ => 0 := funext fun i => by fin_cases i <;> rfl
theorem hzC : (![0] : Fin S64.rank → Nat) = fun _ => 0 := funext fun i => by fin_cases i <;> rfl

section Reads

variable {κ : Kind} {sp : Space}

omit [FloatOps F] in
/-- A whole-buffer load reads the buffer's contents: one statement per shape. -/
theorem load_A (v : View sig κ sp S1x1x64 .f32) (f : v.ty.Contents (Elt F)) :
    v.readAt (Elt F) rA.toLoadRect f = v.read (Elt F) f := by
  rw [View.readAt_eq_ld, View.ld_unit_zero (S := S1x1x64) hzA]
omit [FloatOps F] in
theorem load_X (v : View sig κ sp S1x128x64 .f32) (f : v.ty.Contents (Elt F)) :
    v.readAt (Elt F) rX.toLoadRect f = v.read (Elt F) f := by
  rw [View.readAt_eq_ld, View.ld_unit_zero (S := S1x128x64) hzX]
omit [FloatOps F] in
theorem load_W (v : View sig κ sp S64x128 .f32) (f : v.ty.Contents (Elt F)) :
    v.readAt (Elt F) rW.toLoadRect f = v.read (Elt F) f := by
  rw [View.readAt_eq_ld, View.ld_unit_zero (S := S64x128) hzW]
omit [FloatOps F] in
theorem load_B (v : View sig κ sp S128 .f32) (f : v.ty.Contents (Elt F)) :
    v.readAt (Elt F) rB.toLoadRect f = v.read (Elt F) f := by
  rw [View.readAt_eq_ld, View.ld_unit_zero (S := S128) hzB]
omit [FloatOps F] in
theorem load_V (v : View sig κ sp S128x64 .f32) (f : v.ty.Contents (Elt F)) :
    v.readAt (Elt F) rV.toLoadRect f = v.read (Elt F) f := by
  rw [View.readAt_eq_ld, View.ld_unit_zero (S := S128x64) hzV]
omit [FloatOps F] in
theorem load_C (v : View sig κ sp S64 .f32) (f : v.ty.Contents (Elt F)) :
    v.readAt (Elt F) rC.toLoadRect f = v.read (Elt F) f := by
  rw [View.readAt_eq_ld, View.ld_unit_zero (S := S64) hzC]

/-- A [1, 1, 64] buffer stored whole once holds that store's payload, whatever it held before; -/
theorem read_one (v : View sig κ sp S1x1x64 .f32) (f : v.ty.Contents (Elt F)) (p : Vec F S1x1x64 .f32) :
    v.read (Elt F) (v.writes (Elt F) f [⟨rA, p⟩]) = p := by
  rw [View.read_writes_eq_canon _ _ _ (View.cover_of_tiled [⟨rA, p⟩] S1x1x64.size (by rfl)), View.canon_unit_zero hzA]
/-- stored whole twice, the later store's. -/
theorem read_two (v : View sig κ sp S1x1x64 .f32) (f : v.ty.Contents (Elt F)) (p q : Vec F S1x1x64 .f32) :
    v.read (Elt F) (v.writes (Elt F) f [⟨rA, p⟩, ⟨rA, q⟩]) = p := by
  rw [View.read_writes_eq_canon _ _ _ (View.cover_of_tiled [⟨rA, p⟩, ⟨rA, q⟩] S1x1x64.size (by rfl)),
    View.canon_cons_unit_zero hzA]
/-- A whole load of what one whole store left reads that store's payload. -/
theorem readBack (v : View sig κ sp S1x1x64 .f32) (p : Vec F S1x1x64 .f32) :
    v.readCov [⟨rA, p⟩] rA.toLoadRect = p :=
  View.readCov_unit_zero v hzA inb_S1x1x64_S1x1x64_0_0_0 p

end Reads

/-- The step's payload over values equal to the blocks' contents is the step over the contents. -/
theorem stepA_congr {a a' : Vec F S1x1x64 .f32} {x0 x0' x1 x1' : Vec F S1x128x64 .f32} {x2 x2' x3 x3' : Vec F S64x128 .f32}
    {x4 x4' : Vec F S128 .f32} {x5 x5' : Vec F S128x64 .f32} {x6 x6' : Vec F S64 .f32}
    (ha : a' = a) (e0 : x0' = x0) (e1 : x1' = x1) (e2 : x2' = x2) (e3 : x3' = x3) (e4 : x4' = x4) (e5 : x5' = x5) (e6 : x6' = x6) :
    k0_pay1 (k0_pay3 x0' x1' x2' x3' x4' x5') x6' a' = stepA a x0 x1 x2 x3 x4 x5 x6 := by
  subst ha e0 e1 e2 e3 e4 e5 e6; rfl

section Runs

variable (c : Dev nD) (t : Fin cfg0.N)
  (M0 : Memref sig .tc .vmem S1x128x64 .f32) (h0 : M0.IsWhole) (M1 : Memref sig .tc .vmem S1x128x64 .f32) (h1 : M1.IsWhole)
  (M2 : Memref sig .tc .vmem S64x128 .f32) (h2 : M2.IsWhole) (M3 : Memref sig .tc .vmem S64x128 .f32) (h3 : M3.IsWhole)
  (M4 : Memref sig .tc .vmem S128 .f32) (h4 : M4.IsWhole) (M5 : Memref sig .tc .vmem S128x64 .f32) (h5 : M5.IsWhole)
  (M6 : Memref sig .tc .vmem S64 .f32) (h6 : M6.IsWhole) (M7 : Memref sig .tc .vmem S1x1x64 .f32) (h7 : M7.IsWhole)
  (x0 x1 : Vec F S1x128x64 .f32) (x2 x3 : Vec F S64x128 .f32) (x4 : Vec F S128 .f32) (x5 : Vec F S128x64 .f32) (x6 : Vec F S64 .f32)
  (a : Vec F S1x1x64 .f32)

local notation "BODY" => cc0__relnet_kernel (grid0.coords t) M0 h0 M1 h1 M2 h2 M3 h3 M4 h4 M5 h5 M6 h6 M7 h7 (Memref.whole cc0_scratch0) (Memref.isWhole_whole _)

/-- The seven input buffers at their contents. -/
local notation "INS" => iprop(owns (c : Thread nD τ) M0 fullShare x0 ∗ owns (c : Thread nD τ) M1 fullShare x1 ∗ owns (c : Thread nD τ) M2 fullShare x2
  ∗ owns (c : Thread nD τ) M3 fullShare x3 ∗ owns (c : Thread nD τ) M4 fullShare x4 ∗ owns (c : Thread nD τ) M5 fullShare x5 ∗ owns (c : Thread nD τ) M6 fullShare x6)

/-- A first step (i = 0 and j = 0): the accumulator, whatever it held, ends at the step from zeros; the output's
    buffer is untouched. -/
theorem run_first (hF : IsFirst t) (hL : ¬ IsLast t) (O : sProp 𝕄) (Q : PUnit → sProp 𝕄) :
    iprop(INS ∗ O ∗ (∃ a, owns (c : Thread nD τ) accM fullShare a)
      ∗ (iprop(INS ∗ O ∗ owns (c : Thread nD τ) accM fullShare (stepA k0_pay2 x0 x1 x2 x3 x4 x5 x6)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, HO, ⟨%a', %fa, %hfa, Ha⟩, Hk⟩
  subst hf0 hf1 hf2 hf3 hf4 hf5 hf6
  sl_exec! (disch := assumption)
  sl_step
  iapply Hk
  isplitl [H0 H1 H2 H3 H4 H5 H6]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [HO]; · iexact HO
  iexists _; isplitr; swap; (· iexact Ha); ipureintro
  unfold run_first.sl.Ha_2 run_first.sl.v43 run_first.sl.Ha_1 run_first.sl.r
  rw [read_two]
  exact stepA_congr (readBack _ _) (load_X _ _) (load_X _ _) (load_W _ _) (load_W _ _) (load_B _ _) (load_V _ _) (load_C _ _)

/-- A middle step: the accumulator at `a` ends at the step from `a`; the output's buffer is untouched. -/
theorem run_mid (hF : ¬ IsFirst t) (hL : ¬ IsLast t) (O : sProp 𝕄) (Q : PUnit → sProp 𝕄) :
    iprop(INS ∗ O ∗ owns (c : Thread nD τ) accM fullShare a
      ∗ (iprop(INS ∗ O ∗ owns (c : Thread nD τ) accM fullShare (stepA a x0 x1 x2 x3 x4 x5 x6)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, HO, ⟨%fa, %hfa, Ha⟩, Hk⟩
  subst hf0 hf1 hf2 hf3 hf4 hf5 hf6 hfa
  sl_exec! (disch := assumption)
  sl_step
  iapply Hk
  isplitl [H0 H1 H2 H3 H4 H5 H6]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [HO]; · iexact HO
  iexists _; isplitr; swap; (· iexact Ha); ipureintro
  unfold run_mid.sl.Ha_1 run_mid.sl.r
  rw [read_one]
  exact stepA_congr (load_A _ _) (load_X _ _) (load_X _ _) (load_W _ _) (load_W _ _) (load_B _ _) (load_V _ _) (load_C _ _)

/-- A last step (i = 1 and j = 1; never a first one): the accumulator at `a` ends at the step from `a`, and the
    output's buffer, whatever it held, holds the same. -/
theorem run_last (hF : ¬ IsFirst t) (hL : IsLast t) (Q : PUnit → sProp 𝕄) :
    iprop(INS ∗ (∃ d, owns (c : Thread nD τ) M7 fullShare d) ∗ owns (c : Thread nD τ) accM fullShare a
      ∗ (iprop(INS ∗ owns (c : Thread nD τ) M7 fullShare (stepA a x0 x1 x2 x3 x4 x5 x6)
          ∗ owns (c : Thread nD τ) accM fullShare (stepA a x0 x1 x2 x3 x4 x5 x6)) -∗ Q ⟨⟩))
      ⊢ wp frame (wpE (defs₀ (F := F)) Variants.none c none) Set.univ BODY Q := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, %hf7, H7⟩, ⟨%fa, %hfa, Ha⟩, Hk⟩
  subst hf0 hf1 hf2 hf3 hf4 hf5 hf6 hfa
  sl_exec! (disch := assumption)
  sl_step
  iapply Hk
  isplitl [H0 H1 H2 H3 H4 H5 H6]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]
  · iexists _; isplitr; swap; (· iexact H7); ipureintro
    unfold run_last.sl.H7_1 run_last.sl.v53 run_last.sl.Ha_1 run_last.sl.r
    rw [read_one, readBack]
    exact stepA_congr (load_A _ _) (load_X _ _) (load_X _ _) (load_W _ _) (load_W _ _) (load_B _ _) (load_V _ _) (load_C _ _)
  iexists _; isplitr; swap; (· iexact Ha); ipureintro
  unfold run_last.sl.Ha_1 run_last.sl.r
  rw [read_one]
  exact stepA_congr (load_A _ _) (load_X _ _) (load_X _ _) (load_W _ _) (load_W _ _) (load_B _ _) (load_V _ _) (load_C _ _)

end Runs

end Cert.Proof.KI

end
-- ==== Proof.KIData.lean ====
/-
  The proof data of the idealized kernel's one pipeline, generic in the float instance.

  @main first lays the image out as xf : [8, 256, 64] (a reshape and a transpose) and cuts the first layer's weight into its
  two halves wi, wj : [64, 128]; the region then walks a grid of 8 · 2 · 2 points. At point t = 4·b + 2·i + j the body
  reads rows 128·i … of image b (window 0) and rows 128·j … of the same image (window 1) — two windows on the ONE array
  xf —, the two weight halves, both biases and the second weight whole, and adds the tile's sum over its 128 · 128
  pairs into a scratch accumulator: zeroed at the first point of each image (t ≡ 0 mod 4), copied to the output's
  block (row b of the [8, 1, 64] result) at the last (t ≡ 3 mod 4).
  Here: the arrays as the region finds them, each window's block at a point, the accumulator after each point by
  recursion on the point, the invariant between points, and what every staging buffer holds when the body is called.
-/
import proofs.«172315_j47828755808730_2_alg».proof.Proof.Gen.KernelIdeal
import proofs.«172315_j47828755808730_2_alg».proof.Proof.Gen.KernelIdeal.Skeleton
import proofs.«172315_j47828755808730_2_alg».proof.Proof.Gen.KernelIdeal.Launch
import proofs.«172315_j47828755808730_2_alg».proof.Proof.Gen.KernelIdeal.Points
import proofs.«172315_j47828755808730_2_alg».proof.Proof.KIBody
import Idealize.ShloMosaic.Lib.Pipeline.Regions
import Idealize.ShloMosaic.Lib.Pipeline.Frame
import Idealize.ShloMosaic.Lib.Pipeline.FrameBody

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- after the four layout operations before the region: xf, wi, wj are written, nothing else moved. -/
abbrev W₁ (c : Dev nD) : Valuation τ sig (Elt F) := StableHlo.after hostOps0 (V₀ m c)
abbrev V₁ (c : Dev nD) (b : Ref sig .tc) : Buf (Elt F) ((c : Thread nD τ).loc b) := W₁ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V₁ m c (Pipeline.arrRef spec0 w))

/-! ## The accumulator, point by point -/

/-- One step of the accumulator from contents `a` at point `t`: the tile's column sums added. -/
def stepAt (c : Dev nD) (t : Fin cfg0.N) (a : Vec F S1x1x64 .f32) : Vec F S1x1x64 .f32 :=
  k0_pay1 (k0_pay3 (iblk m c 0 t) (iblk m c 1 t) (iblk m c 2 t) (iblk m c 3 t) (iblk m c 4 t) (iblk m c 5 t)) (iblk m c 6 t) a

/-- The scratch after point `k`: restarted from zeros at the first point of each image, stepped otherwise. -/
def accA (c : Dev nD) : (k : ℕ) → k < cfg0.N → Vec F S1x1x64 .f32
  | 0, hk => stepAt m c ⟨0, hk⟩ k0_pay2
  | k + 1, hk => if (k + 1) % 4 = 0 then stepAt m c ⟨k + 1, hk⟩ k0_pay2 else stepAt m c ⟨k + 1, hk⟩ (accA c k (Nat.lt_of_succ_lt hk))

theorem accA_first (c : Dev nD) (t : Fin cfg0.N) (h : t.val % 4 = 0) : accA m c t.val t.isLt = stepAt m c t k0_pay2 := by
  obtain ⟨k, hk⟩ := t
  cases k with
  | zero => rfl
  | succ k => show (if (k + 1) % 4 = 0 then _ else _) = _; rw [if_pos h]

theorem accA_step (c : Dev nD) (t : Fin cfg0.N) (h : t.val % 4 ≠ 0) (hp : t.val - 1 < cfg0.N) :
    accA m c t.val t.isLt = stepAt m c t (accA m c (t.val - 1) hp) := by
  obtain ⟨k, hk⟩ := t
  cases k with
  | zero => exact absurd rfl h
  | succ k => show (if (k + 1) % 4 = 0 then _ else _) = _; rw [if_neg h]; rfl

/-- The scratch BEFORE a point that is not an image's first: what the point before left. -/
abbrev accB (c : Dev nD) (t : Fin cfg0.N) (h : t.val % 4 ≠ 0) : Vec F S1x1x64 .f32 :=
  accA m c (t.val - 1) (by have := t.isLt; omega)

/-! ## The proof data -/

/-- The invariant before point `k` (k = 0 … 32): the scratch at anything before an image's first point and after the
    last image, else at what the point before left. -/
def Φv (c : Dev nD) (k : Fin (cfg0.N + 1)) : sProp 𝕄 :=
  if h : k.val % 4 = 0 then iprop(∃ a, owns (c : Thread nD τ) accM fullShare a)
  else iprop(owns (c : Thread nD τ) accM fullShare (accA m c (k.val - 1) (by have := k.isLt; omega)))

/-- xf is read through two windows: each holds half of it; every other array is held whole. -/
def dats (_ : Fin 1) (c : Dev nD) : Dat τ (Elt F) Unit ℕ (UR sig nD τ) ℕ cfg0 c where
  A w := V₁ m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accA m c t.val t.isLt
  Φ k := Φv m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V₁ m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = accA m c t.val t.isLt := by dsimp only [dats]

end Cert.Proof.KI

end
-- ==== Proof.KIArr.lean ====
/-
  What the body finds in each input's staging buffer, and the arrays' buffers against the pipeline's account of them.

  Every input window's current staging buffer holds its block at every point, fetched there or not (an input that is
  not refetched kept its block index). The seven distinct buffers behind the eight windows, each held whole, are the
  pipeline's arrays: xf, read through two windows, is split into its two half shares, one per window, and put back
  together when both windows end holding the same contents.
-/
import proofs.«172315_j47828755808730_2_alg».proof.Proof.KIData

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The inputs' staging buffers hold their blocks -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The arrays' buffers -/

/-- The distinct buffers behind the eight windows: seven. -/
theorem arrImage : Finset.univ.image (Pipeline.arrRef spec0) = [main_v1, main_v2, main_v3, main_arg2, main_arg3, main_arg4, main_v4].toFinset := by decide

omit [FloatOps F] in
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_v2) ↦{fullShare} V main_v2)
          ∗ (((c : Thread nD τ).loc main_v3) ↦{fullShare} V main_v3) ∗ (((c : Thread nD τ).loc main_arg2) ↦{fullShare} V main_arg2)
          ∗ (((c : Thread nD τ).loc main_arg3) ↦{fullShare} V main_arg3) ∗ (((c : Thread nD τ).loc main_arg4) ↦{fullShare} V main_arg4)
          ∗ (((c : Thread nD τ).loc main_v4) ↦{fullShare} V main_v4)) := by
  unfold Pipeline.arrBufs
  exact bigSep_eq_bigSepL_of_eq _ arrImage (by decide) _

/-- The pipeline's arrays, window by window: xf at its two half shares, the others whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2) ∗ (((c : Thread nD τ).loc main_v3) ↦{fullShare} G 3)
          ∗ (((c : Thread nD τ).loc main_arg2) ↦{fullShare} G 4) ∗ (((c : Thread nD τ).loc main_arg3) ↦{fullShare} G 5)
          ∗ (((c : Thread nD τ).loc main_arg4) ↦{fullShare} G 6) ∗ (((c : Thread nD τ).loc main_v4) ↦{fullShare} G 7)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- The seven buffers held whole at `V` are the pipeline's arrays at contents read off `V`, and conversely. -/
theorem arrays_of_bufs (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ (dats m 0 c).arrays G := by
  rw [arrBufs_eq, arrays_chain, hG 0, hG 1, hG 2, hG 3, hG 4, hG 5, hG 6, hG 7]
  iintro ⟨H1, H2, H3, H4, H5, H6, H7⟩
  ihave H := (pointsTo_share (PosShare.mem_left_op_right fullShare)).1 $$ H1
  icases H with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  iexact H7

theorem bufs_of_arrays (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    ((dats m 0 c).arrays G : sProp 𝕄) ⊢ Pipeline.arrBufs (Ix := Unit) (Name := ℕ) (U := UR sig nD τ) (Lvl := ℕ) spec0 c V := by
  rw [arrBufs_eq, arrays_chain, hG 0, hG 1, hG 2, hG 3, hG 4, hG 5, hG 6, hG 7]
  iintro ⟨Hl, Hr, H2, H3, H4, H5, H6, H7⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  isplitl [H6]; · iexact H6
  iexact H7

end Cert.Proof.KI

end
-- ==== Proof.KILaunch.lean ====
/-
  The idealized kernel's run, generic in the float instance: @main as five segments — the four layout operations, the
  region, and three stretches of the dense tail — launched from any memory with zero semaphore counters.

  The region is entered from every unscoped buffer held whole at the contents the layout operations left; the seven
  buffers behind its eight windows become the pipeline's arrays (xf split between its two windows), the scratch
  accumulator enters the invariant; at the exit the arrays are put back, the result's buffer now at the contents the
  write-backs produced, and the tail's operations run on from there. Every weakly fair execution terminates, and the
  final memory holds, at every unscoped buffer, the tail's operations applied to those contents.
-/
import proofs.«172315_j47828755808730_2_alg».proof.Proof.KIArr

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The kernel has no semaphore of its own. -/
abbrev osem : PEmpty → SemLoc sig := fun k => k.elim

/-- What rides beside the buffers through every segment: the core owing nothing. -/
abbrev R (c : Dev nD) : sProp 𝕄 := iprop(∃ W, owes (c : Thread nD τ) (0 : CellTallies nD τ sig Unit) W)

/-! ## The buffers after the region -/

/-- The result's buffer at what the write-backs left; every other buffer as the region found it. -/
def W₂ (c : Dev nD) : Valuation τ sig (Elt F) :=
  Function.update (W₁ m c) (Proc.devRef .tc main_v4) ((dats m 0 c).arrAt 7 cfg0.N)
abbrev V₂ (c : Dev nD) (b : Ref sig .tc) : Buf (Elt F) ((c : Thread nD τ).loc b) := W₂ m c (Proc.devRef .tc b)
/-- and after the dense tail. -/
abbrev W₃ (c : Dev nD) : Valuation τ sig (Elt F) := StableHlo.after hostOps1_2 (StableHlo.after hostOps1_1 (StableHlo.after hostOps1 (W₂ m c)))

theorem V₂_v4 (c : Dev nD) : V₂ m c main_v4 = (dats m 0 c).arrAt 7 cfg0.N := by
  unfold V₂ W₂; exact Function.update_self ..

theorem V₂_of_ne (c : Dev nD) (b : Ref sig .tc) (hb : b ≠ main_v4) : V₂ m c b = V₁ m c b := by
  unfold V₂ W₂ V₁
  exact Function.update_of_ne (fun e => hb (Proc.devRef_injective (τ := τ) _ e)) ..

/-- Every window's array ends at the contents `V₂` names: an input's as it was, the result's as written back. -/
theorem arrAt_last (c : Dev nD) : ∀ w : Fin cfg0.W, (dats m 0 c).arrAt w cfg0.N = V₂ m c (Pipeline.arrRef spec0 w)
  | ⟨0, _⟩ => ((dats m 0 c).arrAt_in 0 rfl _).trans ((A_eq m c 0).trans (V₂_of_ne m c _ (by decide)).symm)
  | ⟨1, _⟩ => ((dats m 0 c).arrAt_in 1 rfl _).trans ((A_eq m c 1).trans (V₂_of_ne m c _ (by decide)).symm)
  | ⟨2, _⟩ => ((dats m 0 c).arrAt_in 2 rfl _).trans ((A_eq m c 2).trans (V₂_of_ne m c _ (by decide)).symm)
  | ⟨3, _⟩ => ((dats m 0 c).arrAt_in 3 rfl _).trans ((A_eq m c 3).trans (V₂_of_ne m c _ (by decide)).symm)
  | ⟨4, _⟩ => ((dats m 0 c).arrAt_in 4 rfl _).trans ((A_eq m c 4).trans (V₂_of_ne m c _ (by decide)).symm)
  | ⟨5, _⟩ => ((dats m 0 c).arrAt_in 5 rfl _).trans ((A_eq m c 5).trans (V₂_of_ne m c _ (by decide)).symm)
  | ⟨6, _⟩ => ((dats m 0 c).arrAt_in 6 rfl _).trans ((A_eq m c 6).trans (V₂_of_ne m c _ (by decide)).symm)
  | ⟨7, _⟩ => (V₂_v4 m c).symm

/-- The buffers no window stages are untouched by the region. -/
theorem rest_congr (c : Dev nD) :
    (Pipeline.unscopedRest (Ix := Unit) (Name := ℕ) (U := UR sig nD τ) (Lvl := ℕ) spec0 c (V₁ m c) : sProp 𝕄)
      = Pipeline.unscopedRest spec0 c (V₂ m c) := by
  unfold Pipeline.unscopedRest
  refine bigSep_congr fun b hb => ?_
  rw [V₂_of_ne m c b fun e => (Finset.mem_sdiff.mp hb).2 (Finset.mem_image.mpr ⟨7, Finset.mem_univ _, e ▸ rfl⟩)]

/-! ## The segments -/

theorem ops_fresh0 : ∀ op ∈ (hostOps0 : List (HloOp τ sig (Elt F))), op.fresh = ∅ := by
  intro _ h; (repeat (cases h with | head => rfl | tail _ h => ?_)); exact nomatch h
theorem ops_fresh1 : ∀ op ∈ (hostOps1 : List (HloOp τ sig (Elt F))), op.fresh = ∅ := by
  intro _ h; (repeat (cases h with | head => rfl | tail _ h => ?_)); exact nomatch h
theorem ops_fresh1_1 : ∀ op ∈ (hostOps1_1 : List (HloOp τ sig (Elt F))), op.fresh = ∅ := by
  intro _ h; (repeat (cases h with | head => rfl | tail _ h => ?_)); exact nomatch h
theorem ops_fresh1_2 : ∀ op ∈ (hostOps1_2 : List (HloOp τ sig (Elt F))), op.fresh = ∅ := by
  intro _ h; (repeat (cases h with | head => rfl | tail _ h => ?_)); exact nomatch h

/-- The layout operations before the region. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) ops_fresh0 (V₀ m) R
/-- The dense tail, in its three stretches. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) ops_fresh1 (W₂ m) R
def seg2 : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h)) ops_fresh1_1 (fun c => StableHlo.after hostOps1 (W₂ m c)) R
def seg3 : Pipeline.HostSeg (Name := ℕ) (U := UR sig nD τ) (pcfgs (F := F)) defs₀ 𝒱₀ L lv :=
  Pipeline.HostSeg.ofOps _ _ _ _ _ (Pipeline.ucRefs τ sig) hostOps1_2
    (fun op h => Pipeline.sub_ucRefs op ((List.forall_iff_forall_mem.mp hostOps1_2_sub) op h)) ops_fresh1_2
    (fun c => StableHlo.after hostOps1_1 (StableHlo.after hostOps1 (W₂ m c))) R

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-! ## The region -/

-- the region's entry and exit are the launch's statements at this program's own configuration
set_option backward.isDefEq.respectTransparency.types false in
/-- The region, entered from what the layout operations left and left with the result's buffer rewritten. -/
def reg0 (hbody : ∀ c, BodyObligation (dats (F := F) m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := osem
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (W₁ m c) ∗ R c)
  post c := iprop(StableHlo.held (c : Thread nD τ) (Pipeline.ucRefs τ sig) (W₂ m c) ∗ R c)
  X _ := iprop(emp)
  Y _ := iprop(emp)
  Z c := Pipeline.unscopedRest spec0 c (V₁ m c)
  hentry c := by
    rw [show StableHlo.held (c : Thread nD τ) (Pipeline.ucRefs τ sig) (W₁ m c) = unscopedBufs c (V₁ m c) from (Pipeline.unscopedBufs_held c _).symm,
      Pipeline.unscopedBufs_split₀ cfgs 0 winFacts₀0.arr_unscoped c]
    iintro ⟨⟨⟨Hab, Hrest⟩, HO⟩, -, -⟩
    ihave Ha := (arrays_of_bufs m c (V₁ m c) (fun w => (dats m 0 c).arrAt w 0) (fun w => A_eq m c w)) $$ Hab
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      iapply (owesAt_intro m c 0 W); iexact HO
    isplitr; · iempintro
    iexact Hrest
  hin c := by
    rw [show (dats m 0 c).Φ 0 = Φv m c 0 from rfl]
    unfold Φv; rw [dif_pos (by decide), scopedRest0_eq]
    iintro ⟨-, -, ⟨%f, Hf⟩⟩
    iexists f; rw [owns_whole_eq]; iexists f; isplitr; (· ipureintro; rfl); iexact Hf
  hout c := by
    rw [show (dats m 0 c).Φ (Fin.last cfg0.N) = Φv m c (Fin.last cfg0.N) from rfl]
    unfold Φv; rw [dif_pos (by rw [Fin.val_last]; have : cfg0.N = 32 := N_0; omega), Pipeline.ownSems0_none, scopedRest0_eq]; simp only [owns_whole_eq]
    iintro ⟨%a, %f, %hf, Hf⟩
    isplitr; · iempintro
    isplitr; · iempintro
    iexists f; iexact Hf
  hexit c := by
    rw [show StableHlo.held (c : Thread nD τ) (Pipeline.ucRefs τ sig) (W₂ m c) = unscopedBufs c (V₂ m c) from (Pipeline.unscopedBufs_held c _).symm,
      Pipeline.unscopedBufs_split₀ cfgs 0 winFacts₀0.arr_unscoped c, rest_congr m c]
    iintro ⟨Ha, HO, -, HZ⟩
    imodintro
    isplitr [HO]
    · isplitl [Ha]
      · iapply (bufs_of_arrays m c (V₂ m c) _ (arrAt_last m c)); iexact Ha
      · iexact HZ
    · unfold Pipeline.Dat.owesAt Pipeline.owesWithin
      icases HO with ⟨%W, -, HO⟩; iexists W; iexact HO

/-! ## The run -/

/-- @main as its five segments. -/
abbrev segs (hbody : ∀ c, BodyObligation (dats (F := F) m 0 c) (defs₀ (F := F)) 𝒱₀ () Set.univ) :
    List (Pipeline.Seg (pcfgs (F := F)) adm (dats m) () defs₀ 𝒱₀ L lv) :=
  [.host (seg0 m), .region (reg0 m hbody), .host (seg1 m), .host (seg2 m), .host (seg3 m)]

/-- The final memory: every unscoped buffer of every core at the dense tail's account of it. -/
def QF : PUnit × MemSt nD τ sig (Elt F) → Prop := fun r =>
  ∀ c : Dev nD, ∀ b ∈ Pipeline.ucRefs τ sig, r.2.mem ((c : Dev nD), b) = W₃ m c b

set_option backward.isDefEq.respectTransparency.types false in
/-- From any memory with zero semaphore counters, every weakly fair execution of @main terminates, nothing faulting,
    and ends with every unscoped buffer at `W₃`. -/
theorem run_main (hbody : ∀ c, BodyObligation (dats (F := F) m 0 c) (defs₀ (F := F)) 𝒱₀ () Set.univ) :
    θ_run defs (onTc (τ := τ) (main (F := F))) ⟨m, fun _ => 0, ρ⟩ (QF m) :=
  Pipeline.θ_run_regions_kit (pcfgs (F := F)) adm (dats m) () cellOf_inj emb₁ defs₀ 𝒱₀ L lv m ρ main (segs m hbody)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (W₃ m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = W₃ m c b)
    (hfin := fun c s' => by
      unfold StableHlo.held
      iintro ⟨Hh, HSI⟩
      ihave Hr := (pointsTo_read_all (Pipeline.ucRefs τ sig) (fun b => ((c : Dev nD), b)) (W₃ m c) s') $$ [Hh HSI]
      · isplitl [Hh] <;> iassumption
      icases Hr with ⟨%h, HSI⟩
      imodintro
      isplitr; · ipureintro; exact h
      iexact HSI)
    (hQ := fun _ h => h)

end Cert.Proof.KI

end
-- ==== Proof.KIKeep.lean ====
/-
  Buffers a stretch of host operations does not write keep their contents through it.

  The contents after a list of host operations are a fold over the list; each operation replaces the one buffer it
  writes. So the fold, read at a buffer that is not among the buffers the list writes, is the contents before. For each
  of the program's four stretches the written buffers are listed, and every argument of the program (and the region's
  result) is outside each list.
-/
import proofs.«172315_j47828755808730_2_alg».proof.Proof.Gen.KernelIdeal.Launch
import Idealize.ShloMosaic.Lib.StableHlo.Run

noncomputable section

namespace Cert.Proof.KI

open Cert.KernelIdeal Cert.KernelIdeal.Gen Idealize.ShloMosaic Idealize.ShloMosaic.TcCoe Idealize.SL.Sem

variable {F : FTy → Type} [FloatOps F]

/-- The program's nine arguments. -/
abbrev args : List (Ref sig .tc) :=
  [main_arg0, main_arg1, main_arg2, main_arg3, main_arg4, main_arg5, main_arg6, main_arg7, main_arg8]

/-- The buffers each stretch writes, in order. -/
abbrev written0 : List (Ref sig .tc) := [main_v0, main_v1, main_v2, main_v3]
abbrev written1 : List (Ref sig .tc) := [main_v5, main_v6, main_v7, main_v8, main_v9]
abbrev written1_1 : List (Ref sig .tc) := [main_call0_cst, main_call0_v0, main_v10]
abbrev written1_2 : List (Ref sig .tc) := [main_v11, main_v12, main_v13, main_v14, main_v15, main_v16]

/-- An operation whose one written buffer is in a list writes inside the list. -/
theorem singleton_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

theorem writes0 : (hostOps0 : List (HloOp τ sig (Elt F))).Forall fun op =>
    op.writes ⊆ (written0.map (Proc.devRef (τ := τ) .tc)).toFinset :=
  ⟨singleton_sub (y := main_v0) (by decide), singleton_sub (y := main_v1) (by decide), singleton_sub (y := main_v2) (by decide),
    singleton_sub (y := main_v3) (by decide)⟩

theorem writes1 : (hostOps1 : List (HloOp τ sig (Elt F))).Forall fun op =>
    op.writes ⊆ (written1.map (Proc.devRef (τ := τ) .tc)).toFinset :=
  ⟨singleton_sub (y := main_v5) (by decide), singleton_sub (y := main_v6) (by decide), singleton_sub (y := main_v7) (by decide),
    singleton_sub (y := main_v8) (by decide), singleton_sub (y := main_v9) (by decide)⟩

theorem writes1_1 : (hostOps1_1 : List (HloOp τ sig (Elt F))).Forall fun op =>
    op.writes ⊆ (written1_1.map (Proc.devRef (τ := τ) .tc)).toFinset :=
  ⟨singleton_sub (y := main_call0_cst) (by decide), singleton_sub (y := main_call0_v0) (by decide),
    singleton_sub (y := main_v10) (by decide)⟩

theorem writes1_2 : (hostOps1_2 : List (HloOp τ sig (Elt F))).Forall fun op =>
    op.writes ⊆ (written1_2.map (Proc.devRef (τ := τ) .tc)).toFinset :=
  ⟨singleton_sub (y := main_v11) (by decide), singleton_sub (y := main_v12) (by decide), singleton_sub (y := main_v13) (by decide),
    singleton_sub (y := main_v14) (by decide), singleton_sub (y := main_v15) (by decide), singleton_sub (y := main_v16) (by decide)⟩

/-- Any buffer outside a stretch's written list keeps its contents through the stretch. -/
theorem keep0_of_not_mem (V : Valuation τ sig (Elt F)) {b : Ref sig .tc} (hb : b ∉ written0) :
    StableHlo.after hostOps0 V (Proc.devRef .tc b) = V (Proc.devRef .tc b) :=
  StableHlo.after_of_writes_sub hostOps0 V writes0 hb
theorem keep1_of_not_mem (V : Valuation τ sig (Elt F)) {b : Ref sig .tc} (hb : b ∉ written1) :
    StableHlo.after hostOps1 V (Proc.devRef .tc b) = V (Proc.devRef .tc b) :=
  StableHlo.after_of_writes_sub hostOps1 V writes1 hb
theorem keep1_1_of_not_mem (V : Valuation τ sig (Elt F)) {b : Ref sig .tc} (hb : b ∉ written1_1) :
    StableHlo.after hostOps1_1 V (Proc.devRef .tc b) = V (Proc.devRef .tc b) :=
  StableHlo.after_of_writes_sub hostOps1_1 V writes1_1 hb
theorem keep1_2_of_not_mem (V : Valuation τ sig (Elt F)) {b : Ref sig .tc} (hb : b ∉ written1_2) :
    StableHlo.after hostOps1_2 V (Proc.devRef .tc b) = V (Proc.devRef .tc b) :=
  StableHlo.after_of_writes_sub hostOps1_2 V writes1_2 hb

/-- No argument is written by any stretch. -/
theorem args_not_written0 : ∀ b ∈ args, b ∉ written0 := by decide
theorem args_not_written1 : ∀ b ∈ args, b ∉ written1 := by decide
theorem args_not_written1_1 : ∀ b ∈ args, b ∉ written1_1 := by decide
theorem args_not_written1_2 : ∀ b ∈ args, b ∉ written1_2 := by decide

/-- Every argument keeps its contents through the operations before the region … -/
theorem keep0 (V : Valuation τ sig (Elt F)) : ∀ b ∈ args,
    StableHlo.after hostOps0 V (Proc.devRef .tc b) = V (Proc.devRef .tc b) :=
  fun b hb => keep0_of_not_mem V (args_not_written0 b hb)
/-- … and through each of the three stretches after it. -/
theorem keep1 (V : Valuation τ sig (Elt F)) : ∀ b ∈ args,
    StableHlo.after hostOps1 V (Proc.devRef .tc b) = V (Proc.devRef .tc b) :=
  fun b hb => keep1_of_not_mem V (args_not_written1 b hb)
theorem keep1_1 (V : Valuation τ sig (Elt F)) : ∀ b ∈ args,
    StableHlo.after hostOps1_1 V (Proc.devRef .tc b) = V (Proc.devRef .tc b) :=
  fun b hb => keep1_1_of_not_mem V (args_not_written1_1 b hb)
theorem keep1_2 (V : Valuation τ sig (Elt F)) : ∀ b ∈ args,
    StableHlo.after hostOps1_2 V (Proc.devRef .tc b) = V (Proc.devRef .tc b) :=
  fun b hb => keep1_2_of_not_mem V (args_not_written1_2 b hb)

/-- The region's result buffer is not written by the operations before the region. -/
theorem keep0_v4 (V : Valuation τ sig (Elt F)) :
    StableHlo.after hostOps0 V (Proc.devRef .tc main_v4) = V (Proc.devRef .tc main_v4) :=
  keep0_of_not_mem V (by decide)

end Cert.Proof.KI

end
-- ==== Proof.KIFrame.lean ====
/-
  The kernel program's frame, generic in the float instance: no host operation and no window of the region writes an
  argument array, so each of the nine arguments is, after the run, what it was at launch.
-/
import proofs.«172315_j47828755808730_2_alg».proof.Proof.KILaunch
import proofs.«172315_j47828755808730_2_alg».proof.Proof.KIKeep

noncomputable section

namespace Cert.Proof.KI

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

variable (m : (ℓ : Loc nD τ sig) → Buf (Elt F) ℓ) (ρ : Dev nD → PrngReg)

/-- An unscoped TensorCore buffer is among the buffers the host stretches hold. -/
theorem mem_uc (b : Ref sig .tc) (hb : b.isScoped = false) : Proc.devRef (τ := τ) .tc b ∈ Pipeline.ucRefs τ sig := by
  unfold Pipeline.ucRefs StableHlo.tcRefs
  refine Finset.mem_filter.mpr ⟨Finset.mem_map.mpr ⟨b, Finset.mem_univ _, rfl⟩, ?_⟩
  intro h
  exact Bool.false_ne_true (hb.symm.trans h)

/-- An argument array after the whole run of @main: the dense tail, the region and the layout operations all leave it. -/
theorem W₃_arg (c : Dev nD) (b : Ref sig .tc) (hb : b ∈ args) : W₃ m c (Proc.devRef .tc b) = m ((c : Thread nD τ).loc b) := by
  have hne : b ≠ main_v4 := fun e => by subst e; exact absurd hb (by decide)
  show StableHlo.after hostOps1_2 (StableHlo.after hostOps1_1 (StableHlo.after hostOps1 (W₂ m c))) (Proc.devRef .tc b) = _
  rw [keep1_2 _ b hb, keep1_1 _ b hb, keep1 _ b hb]
  exact (V₂_of_ne m c b hne).trans (keep0 (V₀ m c) b hb)

/-- The frame from the body obligation: every weakly fair execution terminates and the nine arguments end unchanged. -/
theorem frame_of (hbody : ∀ c, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 rfl)).trans (W₃_arg m c main_arg0 (by decide)),
     (h c _ (mem_uc main_arg1 rfl)).trans (W₃_arg m c main_arg1 (by decide)),
     (h c _ (mem_uc main_arg2 rfl)).trans (W₃_arg m c main_arg2 (by decide)),
     (h c _ (mem_uc main_arg3 rfl)).trans (W₃_arg m c main_arg3 (by decide)),
     (h c _ (mem_uc main_arg4 rfl)).trans (W₃_arg m c main_arg4 (by decide)),
     (h c _ (mem_uc main_arg5 rfl)).trans (W₃_arg m c main_arg5 (by decide)),
     (h c _ (mem_uc main_arg6 rfl)).trans (W₃_arg m c main_arg6 (by decide)),
     (h c _ (mem_uc main_arg7 rfl)).trans (W₃_arg m c main_arg7 (by decide)),
     (h c _ (mem_uc main_arg8 rfl)).trans (W₃_arg m c main_arg8 (by decide))⟩) (run_main m ρ hbody)

end Cert.Proof.KI

end
-- ==== Proof.KIOblig.lean ====
/-
  The pipeline's body obligation, from the body's three runs.

  A point t = 4·b + 2·i + j is an image's first (i = 0 and j = 0) iff t ≡ 0 (mod 4) and its last (i = 1 and j = 1) iff
  t ≡ 3 (mod 4). The output's window is idle, and not written back, at every point but an image's last; no input's
  window is ever idle. Between points the invariant holds the accumulator: at anything before an image's first point,
  else at what the point before left. At each point the run of the point's kind takes the invariant's form before the
  point to its form after it: a first step from anything to the step from zeros, a middle step from what the point
  before left to the step from that, a last step the same and the output's staging buffer at the same contents; at a
  point that is not a last one the output's staging buffer passes through the body untouched.
-/
import proofs.«172315_j47828755808730_2_alg».proof.Proof.KIArr

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The kinds of point -/

/-- A point is an image's first iff its number is ≡ 0 (mod 4), its last iff ≡ 3. -/
theorem isFirst_iff : ∀ t : Fin cfg0.N, IsFirst t ↔ t.val % 4 = 0 :=
  (by decide +kernel : ∀ t : Fin grid0.N, (Scalar.cmpi .ne (Scalar.extui (Scalar.andi (Scalar.cmpi .eq (BitVec.ofNat 32 ((grid0.coords t) 1).val) 0#32)
    (Scalar.cmpi .eq (BitVec.ofNat 32 ((grid0.coords t) 2).val) 0#32))) 0#32 = 1#1) ↔ t.val % 4 = 0)
theorem isLast_iff : ∀ t : Fin cfg0.N, IsLast t ↔ t.val % 4 = 3 :=
  (by decide +kernel : ∀ t : Fin grid0.N, k0_cond2 (grid0.coords t) = 1#1 ↔ t.val % 4 = 3)

/-- The output's window is idle except at a last point, and written back exactly there; no input's window is ever idle. -/
theorem idle7_of_last (t : Fin cfg0.N) (h : IsLast t) : idle0 7 (grid0.coords t) = false := by
  show (!(k0_cond2 (grid0.coords t) == 1#1)) = false; rw [show (k0_cond2 (grid0.coords t) == 1#1) = true from beq_iff_eq.mpr h]; rfl
theorem idle7_of_not_last (t : Fin cfg0.N) (h : ¬ IsLast t) : idle0 7 (grid0.coords t) = true := by
  show (!(k0_cond2 (grid0.coords t) == 1#1)) = true; rw [show (k0_cond2 (grid0.coords t) == 1#1) = false from beq_eq_false_iff_ne.mpr h]; rfl
theorem idle_0 (t : Fin cfg0.N) : idle0 0 (grid0.coords t) = false := rfl
theorem idle_1 (t : Fin cfg0.N) : idle0 1 (grid0.coords t) = false := rfl
theorem idle_2 (t : Fin cfg0.N) : idle0 2 (grid0.coords t) = false := rfl
theorem idle_3 (t : Fin cfg0.N) : idle0 3 (grid0.coords t) = false := rfl
theorem idle_4 (t : Fin cfg0.N) : idle0 4 (grid0.coords t) = false := rfl
theorem idle_5 (t : Fin cfg0.N) : idle0 5 (grid0.coords t) = false := rfl
theorem idle_6 (t : Fin cfg0.N) : idle0 6 (grid0.coords t) = false := rfl
theorem flush7_of_last (t : Fin cfg0.N) (h : IsLast t) : (cfg0.win 7).flush t = true := (flush0_7 t).mpr ((isLast_iff t).mp h)
theorem flush7_of_not_last (t : Fin cfg0.N) (h : ¬ IsLast t) : (cfg0.win 7).flush t = false :=
  Bool.eq_false_iff.mpr fun hf => h ((isLast_iff t).mpr ((flush0_7 t).mp hf))

variable (m : (ℓ : Loc nD τ sig) → Buf (Elt F) ℓ)

/-- A step at point `t` is the body's step over the blocks at `t`. -/
theorem stepAt_eq (c : Dev nD) (t : Fin cfg0.N) (a : Vec F S1x1x64 .f32) :
    stepAt m c t a = stepA a (iblk m c 0 t) (iblk m c 1 t) (iblk m c 2 t) (iblk m c 3 t) (iblk m c 4 t) (iblk m c 5 t) (iblk m c 6 t) := rfl

/-- The core owes nothing, before every point. -/
private theorem owesAt_of_owes (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-! ## The invariant before and after a point, by the point's kind -/

theorem Φ_pre_first (c : Dev nD) (t : Fin cfg0.N) (h : t.val % 4 = 0) :
    (dats m 0 c).Φ t.castSucc = iprop(∃ a, owns (c : Thread nD τ) accM fullShare a) := by
  show Φv m c _ = _; unfold Φv; rw [dif_pos (by exact h)]
theorem Φ_pre_other (c : Dev nD) (t : Fin cfg0.N) (h : t.val % 4 ≠ 0) :
    (dats m 0 c).Φ t.castSucc = iprop(owns (c : Thread nD τ) accM fullShare (accB m c t h)) := by
  show Φv m c _ = _; unfold Φv; rw [dif_neg (by exact h)]; rfl
theorem Φ_post_last (c : Dev nD) (t : Fin cfg0.N) (h : t.val % 4 = 3) :
    (dats m 0 c).Φ t.succ = iprop(∃ a, owns (c : Thread nD τ) accM fullShare a) := by
  show Φv m c _ = _; unfold Φv; rw [dif_pos (by show (t.val + 1) % 4 = 0; omega)]
theorem Φ_post_other (c : Dev nD) (t : Fin cfg0.N) (h : t.val % 4 ≠ 3) :
    (dats m 0 c).Φ t.succ = iprop(owns (c : Thread nD τ) accM fullShare (accA m c t.val t.isLt)) := by
  show Φv m c _ = _; unfold Φv; rw [dif_neg (by show ¬ (t.val + 1) % 4 = 0; omega)]; rfl

/-! ## The obligation -/

/-- At every point, by the point's kind: the run of that kind between the invariant's two forms; the output's staging
    buffer passed through at a point that is not a last one, left at the step's result at a last one. -/
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl]
  by_cases hL : IsLast t
  · -- a last point: not a first one
    have h3 : t.val % 4 = 3 := (isLast_iff t).mp hL
    have h1 : t.val % 4 ≠ 0 := by omega
    have hF : ¬ IsFirst t := fun h => h1 ((isFirst_iff t).mp h)
    simp only [idle_0, idle_1, idle_2, idle_3, idle_4, idle_5, idle_6, idle7_of_last t hL, flush7_of_last t hL, before_0, before_1, before_2, before_3, before_4, before_5, before_6, after_0, after_1, after_2, after_3, after_4, after_5, after_6, after_7]
    rw [Φ_pre_other m c t h1, Φ_post_last m c t h3, accA_step m c t h1 (by have := t.isLt; omega), stepAt_eq]
    iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t) (accB m c t h1) hF hL)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [Ha]; · iexact Ha
    iintro ⟨⟨H0, H1, H2, H3, H4, H5, H6⟩, H7, Ha⟩
    isplitl [Ha]; · iexists _; iexact Ha
    isplitl [HO]; · iapply (owesAt_of_owes m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [idle_0, idle_1, idle_2, idle_3, idle_4, idle_5, idle_6, idle7_of_not_last t hL, flush7_of_not_last t hL, before_0, before_1, before_2, before_3, before_4, before_5, before_6, after_0, after_1, after_2, after_3, after_4, after_5, after_6, after_7]
    by_cases hF : IsFirst t
    · -- a first point
      have h0 : t.val % 4 = 0 := (isFirst_iff t).mp hF
      rw [Φ_pre_first m c t h0, Φ_post_other m c t (by omega), accA_first m c t h0, stepAt_eq]
      iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run_first c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t) hF hL (iprop(∃ d, owns (c : Thread nD τ) (st0_7 t) fullShare ((dats m 0 c).before 7 t d))))
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [Ha]; · iexact Ha
      iintro ⟨⟨H0, H1, H2, H3, H4, H5, H6⟩, H7, Ha⟩
      isplitl [Ha]; · iexact Ha
      isplitl [HO]; · iapply (owesAt_of_owes m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point
      have h1 : t.val % 4 ≠ 0 := fun h => hF ((isFirst_iff t).mpr h)
      have h2 : t.val % 4 ≠ 3 := fun h => hL ((isLast_iff t).mpr h)
      rw [Φ_pre_other m c t h1, Φ_post_other m c t h2, accA_step m c t h1 (by have := t.isLt; omega), stepAt_eq]
      iintro ⟨Ha, ⟨%Wt, %hW, HO⟩, ⟨%d0, H0⟩, ⟨%d1, H1⟩, ⟨%d2, H2⟩, ⟨%d3, H3⟩, ⟨%d4, H4⟩, ⟨%d5, H5⟩, ⟨%d6, H6⟩, H7⟩
      iapply (run_mid c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t) (accB m c t h1) hF hL (iprop(∃ d, owns (c : Thread nD τ) (st0_7 t) fullShare ((dats m 0 c).before 7 t d))))
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [Ha]; · iexact Ha
      iintro ⟨⟨H0, H1, H2, H3, H4, H5, H6⟩, H7, Ha⟩
      isplitl [Ha]; · iexact Ha
      isplitl [HO]; · iapply (owesAt_of_owes m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.Proof.KI

end
-- ==== Proof.Spec.lean ====
/-
  The mathematics both programs compute, as functions of arrays over the extended reals.

  For one pair of positions (n1, n2) of one image, with feature rows xi = xf[b, n1, :] and xj = xf[b, n2, :]:
    h g   = max ((Σ_c xi c · wi[c, g] + Σ_c xj c · wj[c, g]) + b1 g, 0)        (g < 128)
    pairTerm … o = max (Σ_g h g · w2[g, o] + b2 o, 0)                            (o < 64)
  The pooled relation feature of image b is the sum of pairTerm over all 256 · 256 pairs (`pooled`); a 128 × 128 tile
  of pairs, the rows of the first block against the rows of the second, contributes `blockSum`.
-/
import Idealize.ShloMosaic.PureOps.Ideal
import Idealize.ShloMosaic.Lib.ValueIdx

noncomputable section

namespace Cert.RelSpec

open Idealize.ShloMosaic Idealize.ShloMosaic.ValueIdx

/-- One pair's output channel `o`: the second layer's rectified affine map of the first layer's rectified sum of
    the two rows' projections and the bias. -/
def pairTerm (xi xj : Fin 64 → EReal) (wi wj : (⟨2, ![64, 128]⟩ : Shape).Idx → EReal) (b1 : (⟨1, ![128]⟩ : Shape).Idx → EReal)
    (w2 : (⟨2, ![128, 64]⟩ : Shape).Idx → EReal) (b2 : (⟨1, ![64]⟩ : Shape).Idx → EReal) (o : Fin 64) : EReal :=
  max ((∑ g : Fin 128, max (((∑ c : Fin 64, xi c * wi (ix2 c g)) + ∑ c : Fin 64, xj c * wj (ix2 c g)) + b1 (ix1 g)) 0 * w2 (ix2 g o))
    + b2 (ix1 o)) 0

/-- A 128 × 128 tile of pairs: every row of the block `xi` against every row of the block `xj`. -/
def blockSum (xi xj : (⟨3, ![1, 128, 64]⟩ : Shape).Idx → EReal) (wi wj : (⟨2, ![64, 128]⟩ : Shape).Idx → EReal)
    (b1 : (⟨1, ![128]⟩ : Shape).Idx → EReal) (w2 : (⟨2, ![128, 64]⟩ : Shape).Idx → EReal) (b2 : (⟨1, ![64]⟩ : Shape).Idx → EReal)
    (o : Fin 64) : EReal :=
  ∑ p : Fin 128, ∑ q : Fin 128, pairTerm (fun c => xi (ix3 0 p c)) (fun c => xj (ix3 0 q c)) wi wj b1 w2 b2 o

/-- The pooled feature of image `b`, channel `o`: all 256 · 256 pairs of positions. -/
def pooled (xf : (⟨3, ![8, 256, 64]⟩ : Shape).Idx → EReal) (wi wj : (⟨2, ![64, 128]⟩ : Shape).Idx → EReal)
    (b1 : (⟨1, ![128]⟩ : Shape).Idx → EReal) (w2 : (⟨2, ![128, 64]⟩ : Shape).Idx → EReal) (b2 : (⟨1, ![64]⟩ : Shape).Idx → EReal)
    (b : Fin 8) (o : Fin 64) : EReal :=
  ∑ n1 : Fin 256, ∑ n2 : Fin 256, pairTerm (fun c => xf (ix3 b n1 c)) (fun c => xf (ix3 b n2 c)) wi wj b1 w2 b2 o

/-- Rows 128·i … 128·i + 127 of image `b`, as a block of shape [1, 128, 64]. -/
def rowBlock (xf : (⟨3, ![8, 256, 64]⟩ : Shape).Idx → EReal) (b : Fin 8) (i : Fin 2) : (⟨3, ![1, 128, 64]⟩ : Shape).Idx → EReal :=
  fun y => xf (ix3 b ⟨128 * i.val + (y 1).val, by have h1 : i.val < 2 := i.isLt; have h2 : (y 1).val < 128 := (y 1).isLt; omega⟩ (y 2))

end Cert.RelSpec

end
-- ==== Proof.RefPooled.lean ====
/-
  The reference program, read as mathematics.

  * `ref_pooled`: the array the reference sums over both position axes — the rectified second layer of the
    rectified first layer of the pairwise sums of projections — is, at image `b` and channel `o`, the sum of
    `pairTerm` over all 256 · 256 pairs of positions, i.e. `Cert.RelSpec.pooled`.
  * `tail` / `ref_tail`: everything after the pooled feature is a function `tail` of the pooled feature and the
    last four arguments only (two dense layers and two broadcasts).
-/
import proofs.«172315_j47828755808730_2_alg».proof.Proof.Gen.ReferenceIdeal.Read
import proofs.«172315_j47828755808730_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.RelRef

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-! ## A host sum over the two middle axes of a rank-4 array, at any extents -/

/-- The host's sum of a rank-4 array over its two middle axes, read at the result index (a, d): the initial value plus the
    double sum, over the two middle coordinates, of the array at (a, n1, n2, d). The source indices that drop to (a, d)
    are exactly those with first coordinate `a` and last coordinate `d`; they correspond to the pairs (n1, n2). -/
theorem hostReduceAdd_mid2 {A B C D : Nat} (h' : (⟨4, ![A, B, C, D]⟩ : Shape).ReducesTo [1, 2] ⟨2, ![A, D]⟩)
    (x : (⟨4, ![A, B, C, D]⟩ : Shape).Idx → EReal) (init : EReal) (a : Fin A) (d : Fin D) :
    Ideal.hostReduceAdd h' x init (ix2 a d) = init + ∑ n1 : Fin B, ∑ n2 : Fin C, x (ix4 a n1 n2 d) := by
  unfold Ideal.hostReduceAdd
  congr 1
  rw [← Finset.sum_product' Finset.univ Finset.univ (fun n1 n2 => x (ix4 a n1 n2 d))]
  have hd0 : ∀ i : (⟨4, ![A, B, C, D]⟩ : Shape).Idx, (h'.drop i 0 : Nat) = i 0 := fun i => rfl
  have hd1 : ∀ i : (⟨4, ![A, B, C, D]⟩ : Shape).Idx, (h'.drop i 1 : Nat) = i 3 := fun i => rfl
  have hleft : ∀ i : (⟨4, ![A, B, C, D]⟩ : Shape).Idx, h'.drop i = ix2 a d → ix4 a (i 1) (i 2) d = i := by
    intro i hj
    have e0 : (i 0).val = a.val := by rw [← hd0 i, hj]; rfl
    have e3 : (i 3).val = d.val := by rw [← hd1 i, hj]; rfl
    funext c
    match c with
    | ⟨0, _⟩ => exact Fin.ext e0.symm
    | ⟨1, _⟩ => rfl
    | ⟨2, _⟩ => rfl
    | ⟨3, _⟩ => exact Fin.ext e3.symm
  refine Finset.sum_nbij' (fun i => (i 1, i 2)) (fun p => ix4 a p.1 p.2 d) ?_ ?_ ?_ ?_ ?_
  · intro i _; exact Finset.mem_product.2 ⟨Finset.mem_univ _, Finset.mem_univ _⟩
  · intro p _
    refine Finset.mem_filter.2 ⟨Finset.mem_univ _, ?_⟩
    funext b
    match b with
    | ⟨0, _⟩ => exact Fin.ext (hd0 _)
    | ⟨1, _⟩ => exact Fin.ext (hd1 _)
  · intro i hi; exact hleft i (Finset.mem_filter.1 hi).2
  · intro p _; rfl
  · intro i hi; exact congrArg x (hleft i (Finset.mem_filter.1 hi).2).symm

/-! ## The summed array at one pair of positions -/

/-- The first rows' projection at (b, n, g): the sum over the 64 input channels. -/
theorem v4_at (x0 : (⟨S8x64x16x16, .f32⟩ : BufTy).Contents (Elt Ideal)) (x1 : (⟨S128x128, .f32⟩ : BufTy).Contents (Elt Ideal)) (b : Fin 8) (n : Fin 256) (g : Fin 128) :
    val_main_v4 (F := Ideal) x0 x1 (ix3 b n g)
      = ∑ c : Fin 64, val_main_v1 (F := Ideal) x0 (ix3 b n c) * val_main_v2 (F := Ideal) x1 (ix2 c g) := by
  rw [val_main_v4_apply]
  refine Finset.sum_congr rfl fun c _ => ?_
  have el : lidx_main_v4 (ix3 b n g) c = ix3 b n c := funext fun a => match a with
    | ⟨0, _⟩ => rfl | ⟨1, _⟩ => rfl | ⟨2, _⟩ => rfl
  have er : ridx_main_v4 (ix3 b n g) c = ix2 c g := funext fun a => match a with
    | ⟨0, _⟩ => rfl | ⟨1, _⟩ => rfl
  rw [el, er]

/-- The second rows' projection at (b, n, g). -/
theorem v5_at (x0 : (⟨S8x64x16x16, .f32⟩ : BufTy).Contents (Elt Ideal)) (x1 : (⟨S128x128, .f32⟩ : BufTy).Contents (Elt Ideal)) (b : Fin 8) (n : Fin 256) (g : Fin 128) :
    val_main_v5 (F := Ideal) x0 x1 (ix3 b n g)
      = ∑ c : Fin 64, val_main_v1 (F := Ideal) x0 (ix3 b n c) * val_main_v3 (F := Ideal) x1 (ix2 c g) := by
  rw [val_main_v5_apply]
  refine Finset.sum_congr rfl fun c _ => ?_
  have el : lidx_main_v5 (ix3 b n g) c = ix3 b n c := funext fun a => match a with
    | ⟨0, _⟩ => rfl | ⟨1, _⟩ => rfl | ⟨2, _⟩ => rfl
  have er : ridx_main_v5 (ix3 b n g) c = ix2 c g := funext fun a => match a with
    | ⟨0, _⟩ => rfl | ⟨1, _⟩ => rfl
  rw [el, er]

/-- The first layer before rectification at (b, n1, n2, g): the two projections' sum plus the bias. -/
theorem v13_at (x0 : (⟨S8x64x16x16, .f32⟩ : BufTy).Contents (Elt Ideal)) (x1 : (⟨S128x128, .f32⟩ : BufTy).Contents (Elt Ideal))
    (x2 : (⟨S128, .f32⟩ : BufTy).Contents (Elt Ideal)) (b : Fin 8) (n1 n2 : Fin 256) (g : Fin 128) :
    val_main_v13 (F := Ideal) x0 x1 x2 (ix4 b n1 n2 g)
      = (val_main_v4 (F := Ideal) x0 x1 (ix3 b n1 g) + val_main_v5 (F := Ideal) x0 x1 (ix3 b n2 g)) + x2 (ix1 g) := by
  rw [val_main_v13_apply, val_main_v10_apply, val_main_v8_apply, val_main_v6_apply, val_main_v9_apply, val_main_v7_apply,
    val_main_v12_apply, val_main_v11_apply]
  have e1 : idx_main_v6 (idx_main_v8 (ix4 b n1 n2 g)) = ix3 b n1 g := funext fun a => match a with
    | ⟨0, _⟩ => rfl | ⟨1, _⟩ => rfl | ⟨2, _⟩ => rfl
  have e2 : idx_main_v7 (idx_main_v9 (ix4 b n1 n2 g)) = ix3 b n2 g := funext fun a => match a with
    | ⟨0, _⟩ => rfl | ⟨1, _⟩ => rfl | ⟨2, _⟩ => rfl
  have e3 : idx_main_v11 (idx_main_v12 (ix4 b n1 n2 g)) = ix1 g := funext fun a => match a with
    | ⟨0, _⟩ => rfl
  rw [e1, e2, e3]
  rfl

/-- The rectified first layer at (b, n1, n2, g). -/
theorem v14_at (x0 : (⟨S8x64x16x16, .f32⟩ : BufTy).Contents (Elt Ideal)) (x1 : (⟨S128x128, .f32⟩ : BufTy).Contents (Elt Ideal))
    (x2 : (⟨S128, .f32⟩ : BufTy).Contents (Elt Ideal)) (b : Fin 8) (n1 n2 : Fin 256) (g : Fin 128) :
    val_main_v14 (F := Ideal) x0 x1 x2 (ix4 b n1 n2 g) = max (val_main_v13 (F := Ideal) x0 x1 x2 (ix4 b n1 n2 g)) 0 := by
  rw [val_main_v14_apply, val_main_call0_v0_apply, val_main_call0_cst_apply]
  show max _ (Ideal.ofBits .f32 0x00000000#32) = _
  rw [Ideal.ofBits_zero_f32]

/-- The second layer before bias at (b, n1, n2, o): the sum over the 128 hidden channels. -/
theorem v15_at (x0 : (⟨S8x64x16x16, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal)) (b : Fin 8) (n1 n2 : Fin 256) (o : Fin 64) :
    val_main_v15 (F := Ideal) x0 x1 x2 x3 (ix4 b n1 n2 o)
      = ∑ g : Fin 128, val_main_v14 (F := Ideal) x0 x1 x2 (ix4 b n1 n2 g) * x3 (ix2 g o) := by
  rw [val_main_v15_apply]
  refine Finset.sum_congr rfl fun g _ => ?_
  have el : lidx_main_v15 (ix4 b n1 n2 o) g = ix4 b n1 n2 g := funext fun a => match a with
    | ⟨0, _⟩ => rfl | ⟨1, _⟩ => rfl | ⟨2, _⟩ => rfl | ⟨3, _⟩ => rfl
  have er : ridx_main_v15 (ix4 b n1 n2 o) g = ix2 g o := funext fun a => match a with
    | ⟨0, _⟩ => rfl | ⟨1, _⟩ => rfl
  rw [el, er]

/-- The rectified second layer at (b, n1, n2, o). -/
theorem v19_at (x0 : (⟨S8x64x16x16, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (b : Fin 8) (n1 n2 : Fin 256) (o : Fin 64) :
    val_main_v19 (F := Ideal) x0 x1 x2 x3 x4 (ix4 b n1 n2 o)
      = max (val_main_v15 (F := Ideal) x0 x1 x2 x3 (ix4 b n1 n2 o) + x4 (ix1 o)) 0 := by
  rw [val_main_v19_apply, val_main_v18_apply, val_main_call1_v0_apply, val_main_call1_cst_apply, val_main_v17_apply,
    val_main_v16_apply]
  have e : idx_main_v16 (idx_main_v17 (ix4 b n1 n2 o)) = ix1 o := funext fun a => match a with
    | ⟨0, _⟩ => rfl
  rw [e]
  show max _ (Ideal.ofBits .f32 0x00000000#32) = _
  rw [Ideal.ofBits_zero_f32]
  rfl

/-- The summed array at one pair of positions (n1, n2) of image `b` is that pair's term. -/
theorem v19_eq_pairTerm (x0 : (⟨S8x64x16x16, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (b : Fin 8) (n1 n2 : Fin 256) (o : Fin 64) :
    val_main_v19 (F := Ideal) x0 x1 x2 x3 x4 (ix4 b n1 n2 o)
      = Cert.RelSpec.pairTerm (fun c => val_main_v1 (F := Ideal) x0 (ix3 b n1 c)) (fun c => val_main_v1 (F := Ideal) x0 (ix3 b n2 c))
          (val_main_v2 (F := Ideal) x1) (val_main_v3 (F := Ideal) x1) x2 x3 x4 o := by
  rw [v19_at, v15_at]
  unfold Cert.RelSpec.pairTerm
  simp only [v14_at, v13_at, v4_at, v5_at]

/-! ## The pooled feature -/

/-- The reference's pooled feature at image `b` and channel `o` is the sum of the pair terms over all pairs of positions. -/
theorem ref_pooled (x0 : (⟨S8x64x16x16, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (b : Fin 8) (o : Fin 64) :
    Cert.ReferenceIdeal.Read.val_main_v20 (F := Ideal) x0 x1 x2 x3 x4 (ValueIdx.ix2 b o)
      = Cert.RelSpec.pooled (Cert.ReferenceIdeal.Read.val_main_v1 (F := Ideal) x0) (Cert.ReferenceIdeal.Read.val_main_v2 (F := Ideal) x1)
          (Cert.ReferenceIdeal.Read.val_main_v3 (F := Ideal) x1) x2 x3 x4 b o := by
  have h0 : val_main_v20 (F := Ideal) x0 x1 x2 x3 x4 (ix2 b o)
      = Ideal.hostReduceAdd reducesTo_S8x256x256x64_S8x64_d1_2 (val_main_v19 (F := Ideal) x0 x1 x2 x3 x4)
          (val_main_cst (F := Ideal) (Shape.Idx.first h_S_)) (ix2 b o) := rfl
  have h1 := hostReduceAdd_mid2 (A := 8) (B := 256) (C := 256) (D := 64) reducesTo_S8x256x256x64_S8x64_d1_2
    (val_main_v19 (F := Ideal) x0 x1 x2 x3 x4) (val_main_cst (F := Ideal) (Shape.Idx.first h_S_)) b o
  have hz : val_main_cst (F := Ideal) (Shape.Idx.first h_S_) = 0 := Ideal.ofBits_zero_f32
  refine h0.trans (h1.trans ?_)
  rw [hz, zero_add]
  unfold Cert.RelSpec.pooled
  exact Finset.sum_congr rfl fun n1 _ => Finset.sum_congr rfl fun n2 _ => v19_eq_pairTerm x0 x1 x2 x3 x4 b n1 n2 o

/-! ## The dense tail -/

/-- The dense tail of the reference: from the pooled feature `p` of shape [8, 64], a dense layer to 128 channels with
    bias and rectification, a dense layer back to 64 channels with bias, and the broadcast of each value over the
    16 × 16 positions. -/
def tail (p : (⟨S8x64, .f32⟩ : BufTy).Contents (Elt Ideal)) (x5 : (⟨S64x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) : (⟨S8x64x16x16, .f32⟩ : BufTy).Contents (Elt Ideal) :=
  broadcastInDim S8x64x16x16 ![0, 1, 2, 3] bcast_S8x64x1x1_S8x64x16x16_0_1_2_3
    (broadcastInDim S8x64x1x1 ![0, 1] bcast_S8x64_S8x64x1x1_0_1
      (addf
        (Host.dotGeneral (F := Ideal) (φ₁ := .f32) (φ₂ := .f32) dot_S8x128_S128x64_S8x64_1_0_0_1_n_n none
          (maximumf
            (addf (Host.dotGeneral (F := Ideal) (φ₁ := .f32) (φ₂ := .f32) dot_S8x64_S64x128_S8x128_1_0_0_1_n_n none p x5)
              (broadcastInDim S8x128 ![0, 1] bcast_S1x128_S8x128_0_1 (broadcastInDim S1x128 ![1] bcast_S128_S1x128_1 x6)))
            (broadcastInDim S8x128 ![] bcast_S_S8x128 (constant (F := Ideal) S_ .f32 0x00000000#32)))
          x7)
        (broadcastInDim S8x64 ![0, 1] bcast_S1x64_S8x64_0_1 (broadcastInDim S1x64 ![1] bcast_S64_S1x64_1 x8))))

/-- The reference's result is the dense tail of its pooled feature. -/
theorem ref_tail (x0 : (⟨S8x64x16x16, .f32⟩ : BufTy).Contents (Elt Ideal)) (x1 : (⟨S128x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S64x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) :
    Cert.ReferenceIdeal.Read.val_main_v31 (F := Ideal) x0 x1 x2 x3 x4 x5 x6 x7 x8
      = tail (Cert.ReferenceIdeal.Read.val_main_v20 (F := Ideal) x0 x1 x2 x3 x4) x5 x6 x7 x8 := rfl

end Cert.RelRef

end
-- ==== Proof.KITail.lean ====
/-
  The kernel program's host operations, read back as the reference's functions.

  Before the region the program reshapes and transposes its first argument and takes two slices of its second: the
  three arrays the region reads are the reference's `xf`, `wi` and `wj` of the same arguments. After the region it drops the
  unit axis of the region's result and applies the dense tail: the final buffer is the reference's `tail` of that array
  and the last four arguments. Dropping the unit axis reads the array at (b, 0, o).
-/
import proofs.«172315_j47828755808730_2_alg».proof.Proof.KIKeep
import proofs.«172315_j47828755808730_2_alg».proof.Proof.RefPooled
import proofs.«172315_j47828755808730_2_alg».proof.Proof.Gen.KernelIdeal.Launch
import Idealize.ShloMosaic.Lib.StableHlo.Run
import Idealize.ShloMosaic.Lib.Pipeline.Value
import Idealize.ShloMosaic.Lib.ValueIdx

noncomputable section

namespace Cert.Proof.KI

open Cert.KernelIdeal Cert.KernelIdeal.Gen Idealize.ShloMosaic Idealize.ShloMosaic.TcCoe Idealize.SL.Sem
open Idealize.ShloMosaic.StableHlo

/-! ## Before the region -/

/-- The transposed feature rows the region reads are the reference's `xf` of the first argument. -/
theorem prefix_v1 (V : Valuation τ sig (Elt Ideal)) :
    StableHlo.after hostOps0 V (Proc.devRef .tc main_v1)
      = Cert.ReferenceIdeal.Read.val_main_v1 (F := Ideal) (V (Proc.devRef .tc main_arg0)) := by
  after_results
  rfl

/-- The first half of the first layer's weights is the reference's `wi` of the second argument. -/
theorem prefix_v2 (V : Valuation τ sig (Elt Ideal)) :
    StableHlo.after hostOps0 V (Proc.devRef .tc main_v2)
      = Cert.ReferenceIdeal.Read.val_main_v2 (F := Ideal) (V (Proc.devRef .tc main_arg1)) := by
  after_results
  rfl

/-- The second half is the reference's `wj`. -/
theorem prefix_v3 (V : Valuation τ sig (Elt Ideal)) :
    StableHlo.after hostOps0 V (Proc.devRef .tc main_v3)
      = Cert.ReferenceIdeal.Read.val_main_v3 (F := Ideal) (V (Proc.devRef .tc main_arg1)) := by
  after_results
  rfl

/-! ## After the region -/

/-- The program's final buffer is the reference's dense tail of the region's result with its unit axis dropped. -/
theorem tail_read (V : Valuation τ sig (Elt Ideal)) :
    StableHlo.after hostOps1_2 (StableHlo.after hostOps1_1 (StableHlo.after hostOps1 V)) (Proc.devRef .tc main_v16)
      = Cert.RelRef.tail (shapeCast S8x64 (V (Proc.devRef .tc main_v4)) shapeCasts_S8x1x64_S8x64) (V (Proc.devRef .tc main_arg5))
          (V (Proc.devRef .tc main_arg6)) (V (Proc.devRef .tc main_arg7)) (V (Proc.devRef .tc main_arg8)) := by
  after_results
  rfl

/-- Dropping the unit axis of a [8, 1, 64] array reads it at (b, 0, o). -/
theorem cast_out (X : (⟨S8x1x64, .f32⟩ : BufTy).Contents (Elt Ideal)) (b : Fin 8) (o : Fin 64) :
    shapeCast S8x64 X shapeCasts_S8x1x64_S8x64 (ValueIdx.ix2 b o) = X (ValueIdx.ix3 b 0 o) :=
  shapeCast_apply X shapeCasts_S8x1x64_S8x64 (ValueIdx.ix2 b o) (ValueIdx.ix3 b 0 o) (by
    rewrite [Shape.rowMajor_val_three, Shape.rowMajor_val_two]
    show (b.val * 1 + 0) * 64 + o.val = b.val * 64 + o.val
    omega)

end Cert.Proof.KI

end
-- ==== Proof.KIOut.lean ====
/-
  What the kernel's pipeline reads and what it leaves, as functions of the arrays.

  The grid has 8 · 2 · 2 points; point t has coordinates (b, i, j) = (t / 4, t / 2 mod 2, t mod 2). A block's element
  sits in its array, on each axis, at the block index times the block's size plus the coordinate inside the block:
  window 0's block at t is rows 128 · i … 128 · i + 127 of image b of xf, window 1's is rows 128 · j … of the same
  image, windows 2 … 6 are their whole arrays. The result array [8, 1, 64] is written once per image, at the image's
  last point t = 4 · b + 3, with what the accumulator holds there; the eight rows are disjoint and cover the array.
-/
import proofs.«172315_j47828755808730_2_alg».proof.Proof.KIData
import proofs.«172315_j47828755808730_2_alg».proof.Proof.Gen.KernelIdeal.Points
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

variable (m : (ℓ : Loc nD τ sig) → Buf (Elt F) ℓ)

/-! ## The block indices, decided once over the 32 grid points -/

/-- Window 0's block index at point `t`: (t / 4, t / 2 mod 2, 0). -/
theorem idx_0 : ∀ t : Fin cfg0.N, win0_0.index t (0 : Fin 3) = t.val / 4 ∧ win0_0.index t (1 : Fin 3) = t.val / 2 % 2
    ∧ win0_0.index t (2 : Fin 3) = 0 :=
  (by decide +kernel : ∀ t : Fin grid0.N, win0_0.index t (0 : Fin 3) = t.val / 4 ∧ win0_0.index t (1 : Fin 3) = t.val / 2 % 2
    ∧ win0_0.index t (2 : Fin 3) = 0)

/-- Window 1's block index at point `t`: (t / 4, t mod 2, 0). -/
theorem idx_1 : ∀ t : Fin cfg0.N, win0_1.index t (0 : Fin 3) = t.val / 4 ∧ win0_1.index t (1 : Fin 3) = t.val % 2
    ∧ win0_1.index t (2 : Fin 3) = 0 :=
  (by decide +kernel : ∀ t : Fin grid0.N, win0_1.index t (0 : Fin 3) = t.val / 4 ∧ win0_1.index t (1 : Fin 3) = t.val % 2
    ∧ win0_1.index t (2 : Fin 3) = 0)

/-! ## The input blocks -/

/-- Window 0's block at point `t`: rows 128 · (t / 2 mod 2) … of image t / 4 of xf. -/
theorem iblk0_apply (c : Dev nD) (t : Fin cfg0.N) (y : S1x128x64.Idx) :
    iblk m c 0 t y = V₁ m c main_v1 (ValueIdx.ix3 (n0 := 8) (n1 := 256) (n2 := 64)
      ⟨t.val / 4, by have := t.isLt; have : cfg0.N = 32 := N_0; omega⟩
      ⟨128 * (t.val / 2 % 2) + (y 1).val, by have h : (y 1).val < 128 := (y 1).isLt; omega⟩
      ⟨(y 2).val, (y 2).isLt⟩) := by
  obtain ⟨e0, e1, e2⟩ := idx_0 t
  unfold iblk
  rw [View.read_apply]
  show V₁ m c main_v1 _ = V₁ m c main_v1 _
  congr 1
  funext a
  apply Fin.ext
  match a with
  | ⟨0, _⟩ => show win0_0.index t (0 : Fin 3) * 1 + 1 * (y 0).val = t.val / 4
              have h : (y 0).val < 1 := (y 0).isLt
              omega
  | ⟨1, _⟩ => show win0_0.index t (1 : Fin 3) * 128 + 1 * (y 1).val = 128 * (t.val / 2 % 2) + (y 1).val
              omega
  | ⟨2, _⟩ => show win0_0.index t (2 : Fin 3) * 64 + 1 * (y 2).val = (y 2).val
              omega

/-- Window 1's block at point `t`: rows 128 · (t mod 2) … of image t / 4 of xf. -/
theorem iblk1_apply (c : Dev nD) (t : Fin cfg0.N) (y : S1x128x64.Idx) :
    iblk m c 1 t y = V₁ m c main_v1 (ValueIdx.ix3 (n0 := 8) (n1 := 256) (n2 := 64)
      ⟨t.val / 4, by have := t.isLt; have : cfg0.N = 32 := N_0; omega⟩
      ⟨128 * (t.val % 2) + (y 1).val, by have h : (y 1).val < 128 := (y 1).isLt; omega⟩
      ⟨(y 2).val, (y 2).isLt⟩) := by
  obtain ⟨e0, e1, e2⟩ := idx_1 t
  unfold iblk
  rw [View.read_apply]
  show V₁ m c main_v1 _ = V₁ m c main_v1 _
  congr 1
  funext a
  apply Fin.ext
  match a with
  | ⟨0, _⟩ => show win0_1.index t (0 : Fin 3) * 1 + 1 * (y 0).val = t.val / 4
              have h : (y 0).val < 1 := (y 0).isLt
              omega
  | ⟨1, _⟩ => show win0_1.index t (1 : Fin 3) * 128 + 1 * (y 1).val = 128 * (t.val % 2) + (y 1).val
              omega
  | ⟨2, _⟩ => show win0_1.index t (2 : Fin 3) * 64 + 1 * (y 2).val = (y 2).val
              omega

/-- The whole-array windows sit at block index 0 at every point. -/
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_4 : ∀ t : Fin cfg0.N, win0_4.index t (0 : Fin 1) = 0 :=
  (by decide +kernel : ∀ t : Fin grid0.N, win0_4.index t (0 : Fin 1) = 0)
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_6 : ∀ t : Fin cfg0.N, win0_6.index t (0 : Fin 1) = 0 :=
  (by decide +kernel : ∀ t : Fin grid0.N, win0_6.index t (0 : Fin 1) = 0)

/-- Window 2's block is the whole first weight half wi. -/
theorem iblk2_eq (c : Dev nD) (t : Fin cfg0.N) : iblk m c 2 t = V₁ m c main_v2 := by
  obtain ⟨e0, e1⟩ := idx_2 t
  funext y
  unfold iblk
  rw [View.read_apply]
  show V₁ m c main_v2 _ = V₁ m c main_v2 y
  congr 1
  funext a
  apply Fin.ext
  match a with
  | ⟨0, _⟩ => show win0_2.index t (0 : Fin 2) * 64 + 1 * (y 0).val = (y 0).val
              omega
  | ⟨1, _⟩ => show win0_2.index t (1 : Fin 2) * 128 + 1 * (y 1).val = (y 1).val
              omega

/-- Window 3's block is the whole second weight half wj. -/
theorem iblk3_eq (c : Dev nD) (t : Fin cfg0.N) : iblk m c 3 t = V₁ m c main_v3 := by
  obtain ⟨e0, e1⟩ := idx_3 t
  funext y
  unfold iblk
  rw [View.read_apply]
  show V₁ m c main_v3 _ = V₁ m c main_v3 y
  congr 1
  funext a
  apply Fin.ext
  match a with
  | ⟨0, _⟩ => show win0_3.index t (0 : Fin 2) * 64 + 1 * (y 0).val = (y 0).val
              omega
  | ⟨1, _⟩ => show win0_3.index t (1 : Fin 2) * 128 + 1 * (y 1).val = (y 1).val
              omega

/-- Window 4's block is the whole first bias. -/
theorem iblk4_eq (c : Dev nD) (t : Fin cfg0.N) : iblk m c 4 t = V₁ m c main_arg2 := by
  have e0 := idx_4 t
  funext y
  unfold iblk
  rw [View.read_apply]
  show V₁ m c main_arg2 _ = V₁ m c main_arg2 y
  congr 1
  funext a
  apply Fin.ext
  match a with
  | ⟨0, _⟩ => show win0_4.index t (0 : Fin 1) * 128 + 1 * (y 0).val = (y 0).val
              omega

/-- Window 5's block is the whole second weight. -/
theorem iblk5_eq (c : Dev nD) (t : Fin cfg0.N) : iblk m c 5 t = V₁ m c main_arg3 := by
  obtain ⟨e0, e1⟩ := idx_5 t
  funext y
  unfold iblk
  rw [View.read_apply]
  show V₁ m c main_arg3 _ = V₁ m c main_arg3 y
  congr 1
  funext a
  apply Fin.ext
  match a with
  | ⟨0, _⟩ => show win0_5.index t (0 : Fin 2) * 128 + 1 * (y 0).val = (y 0).val
              omega
  | ⟨1, _⟩ => show win0_5.index t (1 : Fin 2) * 64 + 1 * (y 1).val = (y 1).val
              omega

/-- Window 6's block is the whole second bias. -/
theorem iblk6_eq (c : Dev nD) (t : Fin cfg0.N) : iblk m c 6 t = V₁ m c main_arg4 := by
  have e0 := idx_6 t
  funext y
  unfold iblk
  rw [View.read_apply]
  show V₁ m c main_arg4 _ = V₁ m c main_arg4 y
  congr 1
  funext a
  apply Fin.ext
  match a with
  | ⟨0, _⟩ => show win0_6.index t (0 : Fin 1) * 64 + 1 * (y 0).val = (y 0).val
              omega

/-! ## The result array after the region -/

/-- The output's block index at point `t`: (t / 4, 0, 0). -/
theorem idx_7 : ∀ t : Fin cfg0.N, win0_7.index t (0 : Fin 3) = t.val / 4 ∧ win0_7.index t (1 : Fin 3) = 0
    ∧ win0_7.index t (2 : Fin 3) = 0 :=
  (by decide +kernel : ∀ t : Fin grid0.N, win0_7.index t (0 : Fin 3) = t.val / 4 ∧ win0_7.index t (1 : Fin 3) = 0
    ∧ win0_7.index t (2 : Fin 3) = 0)

/-- The accumulator after a point depends on the point's number only, not on how the number is written. -/
theorem accA_congr (c : Dev nD) {k k' : ℕ} (e : k = k') (h : k < cfg0.N) (h' : k' < cfg0.N) {x x' : S1x1x64.Idx}
    (ex : x = x') : accA m c k h x = accA m c k' h' x' := by
  subst e; subst ex; rfl

/-- What the result array ends holding: row `b` is the accumulator after the last point 4 · b + 3 of image `b`. -/
def outG (c : Dev nD) : S8x1x64.Idx → Elt F .f32 := fun i =>
  accA m c (4 * (i 0).val + 3) (by have h : (i 0).val < 8 := (i 0).isLt; have : cfg0.N = 32 := N_0; omega)
    (ValueIdx.ix3 (n0 := 1) (n1 := 1) (n2 := 64) 0 0 ⟨(i 2).val, (i 2).isLt⟩)

/-- What a flushing point writes back is its block of `outG`: at t ≡ 3 (mod 4) the block is row t / 4, and
    4 · (t / 4) + 3 = t. -/
theorem flushed7_eq (c : Dev nD) (t : Fin cfg0.N) (hf : (cfg0.win 7).flush t = true) :
    (dats m 0 c).flushed 7 t = ((cfg0.win 7).blk t).view.read (Elt F) (outG m c) := by
  have h3 : t.val % 4 = 3 := (flush0_7 t).mp hf
  obtain ⟨e0, e1, e2⟩ := idx_7 t
  show (cfg0.win 7).cut (grid0.coords t) ((dats m 0 c).after 7 t) = _
  rw [after_7]
  funext y
  rw [View.read_apply]
  have hy0 : (y 0).val < 1 := (y 0).isLt
  have hy1 : (y 1).val < 1 := (y 1).isLt
  have hk : t.val = 4 * (((cfg0.win 7).blk t).view.emb y 0).val + 3 := by
    show t.val = 4 * (win0_7.index t (0 : Fin 3) * 1 + 1 * (y 0).val) + 3
    omega
  refine accA_congr m c hk _ _ ?_
  funext a
  apply Fin.ext
  match a with
  | ⟨0, _⟩ => show (y 0).val = 0
              omega
  | ⟨1, _⟩ => show (y 1).val = 0
              omega
  | ⟨2, _⟩ => show (y 2).val = win0_7.index t (2 : Fin 3) * 64 + 1 * (y 2).val
              omega

/-- An index of the result array is in point `t`'s block iff each coordinate is in the block's range on its axis. -/
theorem mem_blk7 (t : Fin cfg0.N) (i : S8x1x64.Idx) :
    i ∈ ((cfg0.win 7).blk t).view.set ↔ ∀ a : Fin 3, win0_7.index t a * S1x1x64.size a ≤ (i a).val
      ∧ (i a).val < win0_7.index t a * S1x1x64.size a + S1x1x64.size a := by
  show i ∈ ((View.whole main_v4).slice (win0_7.rect t)).set ↔ _
  rw [View.set_slice_whole, Rect.mem_set_unit]
  exact Iff.rfl

/-- The last point of image `b`. -/
abbrev lastPt (b : Fin 8) : Fin cfg0.N := ⟨4 * b.val + 3, by have := b.isLt; have : cfg0.N = 32 := N_0; omega⟩

/-- Every index of the result array is in the block some flushing point writes: row `b` is point 4 · b + 3's. -/
theorem cover7 (i : S8x1x64.Idx) : ∃ t : Fin cfg0.N, (cfg0.win 7).flush t = true ∧ i ∈ ((cfg0.win 7).blk t).view.set := by
  have h0 : (i 0).val < 8 := (i 0).isLt
  have h1 : (i 1).val < 1 := (i 1).isLt
  have h2 : (i 2).val < 64 := (i 2).isLt
  refine ⟨lastPt ⟨(i 0).val, h0⟩, (flush0_7 _).mpr (by show (4 * (i 0).val + 3) % 4 = 3; omega), ?_⟩
  obtain ⟨e0, e1, e2⟩ := idx_7 (lastPt ⟨(i 0).val, h0⟩)
  have ev : (lastPt ⟨(i 0).val, h0⟩).val = 4 * (i 0).val + 3 := rfl
  rw [mem_blk7]
  intro a
  match a with
  | ⟨0, _⟩ => show win0_7.index (lastPt ⟨(i 0).val, h0⟩) (0 : Fin 3) * 1 ≤ (i 0).val
                ∧ (i 0).val < win0_7.index (lastPt ⟨(i 0).val, h0⟩) (0 : Fin 3) * 1 + 1
              omega
  | ⟨1, _⟩ => show win0_7.index (lastPt ⟨(i 0).val, h0⟩) (1 : Fin 3) * 1 ≤ (i 1).val
                ∧ (i 1).val < win0_7.index (lastPt ⟨(i 0).val, h0⟩) (1 : Fin 3) * 1 + 1
              omega
  | ⟨2, _⟩ => show win0_7.index (lastPt ⟨(i 0).val, h0⟩) (2 : Fin 3) * 64 ≤ (i 2).val
                ∧ (i 2).val < win0_7.index (lastPt ⟨(i 0).val, h0⟩) (2 : Fin 3) * 64 + 64
              omega

/-- The result array after the region is `outG`. -/
theorem final7 (c : Dev nD) : (dats m 0 c).arrAt 7 cfg0.N = outG m c :=
  (dats m 0 c).arrAt_eq_of_cover 7 (outG m c) (flushed7_eq m c) cover7

/-- The result array after the region, read at (b, 0, o): what the accumulator holds, at channel `o`, after the last
    point 4 · b + 3 of image `b`. -/
theorem out_apply (c : Dev nD) (b : Fin 8) (o : Fin 64) :
    (dats m 0 c).arrAt 7 cfg0.N (ValueIdx.ix3 (n0 := 8) (n1 := 1) (n2 := 64) b 0 o)
      = accA m c (4 * b.val + 3) (by have := b.isLt; have : cfg0.N = 32 := N_0; omega)
          (ValueIdx.ix3 (n0 := 1) (n1 := 1) (n2 := 64) 0 0 o) := by
  rw [final7]
  rfl

end Cert.Proof.KI

end
-- ==== Proof.LibPairTiles.lean ====
/-
  Splitting a double sum over a square of side 2 · n into its four n × n tiles.

  The positions 0 … 2 · n − 1 are the disjoint union of the two consecutive halves n · i + p (i < 2, p < n), so a
  sum over all positions is the sum over the first half plus the sum over the second half; applied to both arguments
  of a function of two positions, the sum over the whole square is the sum of the four tile sums. Everything holds
  in any additive commutative monoid: no subtraction, no finiteness.
-/
import Mathlib

namespace Cert.RelAlg

/-- The position `n · i + p` of the `i`-th half (`i < 2`, `p < n`) lies below `2 · n`. -/
theorem half_pos_lt {n : ℕ} (i : Fin 2) (p : Fin n) : n * i.val + p.val < 2 * n := by
  have h1 : i.val ≤ 1 := by have := i.isLt; omega
  have h2 : n * i.val ≤ n * 1 := Nat.mul_le_mul_left n h1
  have h3 : p.val < n := p.isLt
  omega

/-- The position `n · i + p` of the `i`-th half, as an element of `Fin (2 * n)`. -/
def halfPos {n : ℕ} (i : Fin 2) (p : Fin n) : Fin (2 * n) := ⟨n * i.val + p.val, half_pos_lt i p⟩

/-- A sum over `2 · n` consecutive positions is the sum, over the two halves `i`, of the sum over the `n` positions
    `n · i + p` of that half. -/
theorem sum_halves {M : Type*} [AddCommMonoid M] (n : ℕ) (g : Fin (2 * n) → M) :
    ∑ a : Fin (2 * n), g a = ∑ i : Fin 2, ∑ p : Fin n, g ⟨n * i.val + p.val, half_pos_lt i p⟩ := by
  rw [← finProdFinEquiv.sum_comp g, Fintype.sum_prod_type]
  refine Finset.sum_congr rfl fun i _ => Finset.sum_congr rfl fun p _ => ?_
  congr 1
  apply Fin.ext
  simp only [finProdFinEquiv_apply_val]
  exact Nat.add_comm _ _

/-- The sum of `f` over the `n × n` tile `(i, j)` of a square of side `2 · n`: the rows `n · i + p` against the columns
    `n · j + q`. -/
def tileSum {M : Type*} [AddCommMonoid M] (n : ℕ) (f : Fin (2 * n) → Fin (2 * n) → M) (i j : Fin 2) : M :=
  ∑ p : Fin n, ∑ q : Fin n, f ⟨n * i.val + p.val, half_pos_lt i p⟩ ⟨n * j.val + q.val, half_pos_lt j q⟩

/-- **Four tiles make the square.** In any additive commutative monoid, for a function `f` of two positions below
    `2 · n`, adding the four `n × n` tile sums to an accumulator that starts at `0`, in the order (0,0), (0,1), (1,0),
    (1,1), gives the sum of `f` over all `2 · n × 2 · n` pairs of positions. -/
theorem four_tiles {M : Type*} [AddCommMonoid M] (n : ℕ) (f : Fin (2 * n) → Fin (2 * n) → M) :
    (((0 + tileSum n f 0 0) + tileSum n f 0 1) + tileSum n f 1 0) + tileSum n f 1 1
      = ∑ a : Fin (2 * n), ∑ b : Fin (2 * n), f a b := by
  have hsq : ∑ a : Fin (2 * n), ∑ b : Fin (2 * n), f a b = ∑ i : Fin 2, ∑ j : Fin 2, tileSum n f i j := by
    rw [sum_halves n (fun a => ∑ b : Fin (2 * n), f a b)]
    refine Finset.sum_congr rfl fun i _ => ?_
    have hrow : ∀ p : Fin n, ∑ b : Fin (2 * n), f ⟨n * i.val + p.val, half_pos_lt i p⟩ b
        = ∑ j : Fin 2, ∑ q : Fin n, f ⟨n * i.val + p.val, half_pos_lt i p⟩ ⟨n * j.val + q.val, half_pos_lt j q⟩ :=
      fun p => sum_halves n (fun b => f ⟨n * i.val + p.val, half_pos_lt i p⟩ b)
    rw [Finset.sum_congr rfl fun p _ => hrow p, Finset.sum_comm]
    rfl
  rw [hsq, Fin.sum_univ_two, Fin.sum_univ_two, Fin.sum_univ_two, zero_add, add_assoc, add_assoc]

end Cert.RelAlg
-- ==== Proof.PooledTiles.lean ====
/-
  The pooled feature as four tiles: the rows 0 … 255 of an image are the two blocks of 128 consecutive rows, so the
  sum of the pair terms over all 256 · 256 pairs of rows is the sum of the four 128 × 128 block sums, added to an
  accumulator that starts at 0 in the order (0,0), (0,1), (1,0), (1,1). This is the general four-tiles identity for
  finite sums in an additive commutative monoid, at side 2 · 128, for the function (n1, n2) ↦ pair term of rows n1, n2.
-/
import proofs.«172315_j47828755808730_2_alg».proof.Proof.Spec
import proofs.«172315_j47828755808730_2_alg».proof.Proof.LibPairTiles

namespace Cert.RelAlg

open Idealize.ShloMosaic Idealize.ShloMosaic.ValueIdx

/-- The four 128 × 128 block sums of image `b`, accumulated from 0 in the order (0,0), (0,1), (1,0), (1,1), add up to
    the pooled feature: row `p` of block `i` is row `128 · i + p` of the image. -/
theorem pooled_tiles (xf : (⟨3, ![8, 256, 64]⟩ : Shape).Idx → EReal) (wi wj : (⟨2, ![64, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (b : Fin 8) (o : Fin 64) :
    (((0 + Cert.RelSpec.blockSum (Cert.RelSpec.rowBlock xf b 0) (Cert.RelSpec.rowBlock xf b 0) wi wj b1 w2 b2 o)
          + Cert.RelSpec.blockSum (Cert.RelSpec.rowBlock xf b 0) (Cert.RelSpec.rowBlock xf b 1) wi wj b1 w2 b2 o)
          + Cert.RelSpec.blockSum (Cert.RelSpec.rowBlock xf b 1) (Cert.RelSpec.rowBlock xf b 0) wi wj b1 w2 b2 o)
          + Cert.RelSpec.blockSum (Cert.RelSpec.rowBlock xf b 1) (Cert.RelSpec.rowBlock xf b 1) wi wj b1 w2 b2 o
      = Cert.RelSpec.pooled xf wi wj b1 w2 b2 b o :=
  four_tiles (M := EReal) 128
    (fun n1 n2 : Fin (2 * 128) =>
      Cert.RelSpec.pairTerm (fun c => xf (ix3 b n1 c)) (fun c => xf (ix3 b n2 c)) wi wj b1 w2 b2 o)

end Cert.RelAlg
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition): two such records are equal.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibLayout3.lean ====
/-
  Three layout operations on arrays of rank 3, read at an index written by its coordinates, for any extents:
  a matrix `[a, b]` given a unit middle axis `[a, 1, b]` reads the same entry; a `[1, b, c]` array broadcast to
  `[a, b, c]` reads its one slab; an `[a, 1, c]` array broadcast to `[a, b, c]` reads its one row per slab.
  (The row-major position of `(i, 0, j)` in `[a, 1, b]` is `(i·1 + 0)·b + j = i·b + j`, that of `(i, j)` in `[a, b]`.)
-/
import Idealize.ShloMosaic.Lib.Pipeline.Value
import Idealize.ShloMosaic.Lib.ValueIdx

namespace Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand's one row of slab `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout3
-- ==== Proof.LibRowsLinear.lean ====
/-
  A linear layer over a batch of rows, in two layouts.

  An array `x` of extents `[A, B, K]` (a batch of `A·B` rows of length `K`) against a weight matrix `w` of
  extents `[N, K]` gives `y (a, b, o) = ∑ k, x (a, b, k) · w (o, k)`. The same numbers are obtained by first
  flattening the two leading axes of `x` into `M = A·B` rows, taking all row-by-row products
  `z (r, o) = ∑ k, x' (r, k) · w (o, k)`, and splitting the row axis of `z` again: row `r = a·B + b` of the
  flattened array is row `(a, b)` of `x`. Nothing is asked of the entries: each entry of the result is the
  same finite sum of the same products, so the statement holds over any additive commutative monoid with
  a product; it is stated on the extended reals.

  Also here: the two reshapes read at an index, for any extents.
-/
import Idealize.ShloMosaic.Lib.Pipeline.Value
import Idealize.ShloMosaic.Lib.ValueIdx

noncomputable section

namespace Cert.RowsLinear

open Idealize.ShloMosaic Idealize.ShloMosaic.ValueIdx
open scoped BigOperators

variable {α : Type} {A B C M : Nat}

/-- An `[A, B, C]` array reshaped to `[M, C]` (`M = A·B`) reads, at `(r, k)` with `r = a·B + b`, the operand at
    `(a, b, k)`: the two indices have the same row-major position. -/
theorem flatten_apply (x : (⟨3, ![A, B, C]⟩ : Shape).Idx → α)
    (h : (⟨3, ![A, B, C]⟩ : Shape).ShapeCasts ⟨2, ![M, C]⟩) (a : Fin A) (b : Fin B) (k : Fin C) (r : Fin M)
    (hr : r.val = a.val * B + b.val) :
    shapeCast ⟨2, ![M, C]⟩ x h (ix2 r k) = x (ix3 a b k) :=
  shapeCast_apply x h _ _ (by
    rw [Shape.rowMajor_val_three, Shape.rowMajor_val_two]
    show (a.val * B + b.val) * C + k.val = r.val * C + k.val
    rw [hr])

/-- An `[M, C]` array (`M = A·B`) reshaped to `[A, B, C]` reads, at `(a, b, k)`, the operand at `(a·B + b, k)`. -/
theorem split_apply (x : (⟨2, ![M, C]⟩ : Shape).Idx → α)
    (h : (⟨2, ![M, C]⟩ : Shape).ShapeCasts ⟨3, ![A, B, C]⟩) (a : Fin A) (b : Fin B) (k : Fin C) (r : Fin M)
    (hr : r.val = a.val * B + b.val) :
    shapeCast ⟨3, ![A, B, C]⟩ x h (ix3 a b k) = x (ix2 r k) :=
  shapeCast_apply x h _ _ (by
    rw [Shape.rowMajor_val_three, Shape.rowMajor_val_two]
    show r.val * C + k.val = (a.val * B + b.val) * C + k.val
    rw [hr])

variable {K N : Nat}

/-- All products of a row of `xs` with a row of `w`: `z (r, o) = ∑ k, xs (r, k) · w (o, k)`. -/
def rowsProd (xs : (⟨2, ![M, K]⟩ : Shape).Idx → EReal) (w : (⟨2, ![N, K]⟩ : Shape).Idx → EReal) :
    (⟨2, ![M, N]⟩ : Shape).Idx → EReal :=
  fun i => ∑ k : Fin K, xs (ix2 (i 0) k) * w (ix2 (i 1) k)

/-- The linear layer on a batch: `y (a, b, o) = ∑ k, x (a, b, k) · w (o, k)`. -/
def linear (x : (⟨3, ![A, B, K]⟩ : Shape).Idx → EReal) (w : (⟨2, ![N, K]⟩ : Shape).Idx → EReal) :
    (⟨3, ![A, B, N]⟩ : Shape).Idx → EReal :=
  fun i => ∑ k : Fin K, x (ix3 (i 0) (i 1) k) * w (ix2 (i 2) k)

/-- Flattening the batch, multiplying rows by rows and splitting the row axis again is the linear layer on the
    batch: entry `(a, b, o)` of the split array is entry `(a·B + b, o)` of the products, whose left factors are row
    `a·B + b` of the flattened batch, that is row `(a, b)` of `x`. -/
theorem split_rowsProd_flatten (hM : M = A * B) (x : (⟨3, ![A, B, K]⟩ : Shape).Idx → EReal)
    (w : (⟨2, ![N, K]⟩ : Shape).Idx → EReal)
    (h1 : (⟨3, ![A, B, K]⟩ : Shape).ShapeCasts ⟨2, ![M, K]⟩)
    (h2 : (⟨2, ![M, N]⟩ : Shape).ShapeCasts ⟨3, ![A, B, N]⟩) :
    shapeCast ⟨3, ![A, B, N]⟩ (rowsProd (shapeCast ⟨2, ![M, K]⟩ x h1) w) h2 = linear x w := by
  funext i
  obtain ⟨a, b, o, rfl⟩ : ∃ (a : Fin A) (b : Fin B) (o : Fin N), i = ix3 a b o := ⟨i 0, i 1, i 2, eq_ix3 i⟩
  have hlt : a.val * B + b.val < M := by
    rw [hM]
    calc a.val * B + b.val < a.val * B + B := Nat.add_lt_add_left b.isLt _
      _ = (a.val + 1) * B := by rw [Nat.add_mul, Nat.one_mul]
      _ ≤ A * B := Nat.mul_le_mul_right B a.isLt
  rw [split_apply _ h2 a b o ⟨a.val * B + b.val, hlt⟩ rfl]
  unfold rowsProd linear
  refine Finset.sum_congr rfl fun k _ => ?_
  show shapeCast ⟨2, ![M, K]⟩ x h1 (ix2 ⟨a.val * B + b.val, hlt⟩ k) * w (ix2 o k) = x (ix3 a b k) * w (ix2 o k)
  rw [flatten_apply x h1 a b k ⟨a.val * B + b.val, hlt⟩ rfl]

end Cert.RowsLinear

end
-- ==== Proof.LibSublaneSum.lean ====
/-
  The sum of an [a, b] array along its rows (axis 0), read at an index: on the extended reals the reduction
  to [b], at q, is the sum over k of the entries (k, q).  Stated for any extents a and b.
-/
import Idealize.ShloMosaic.Lib.Pipeline.Value
import Idealize.ShloMosaic.Lib.ValueIdx
import Idealize.ShloMosaic.PureOps.Ideal.Laws

namespace SublaneSum

open Idealize.ShloMosaic Idealize.ShloMosaic.ValueIdx

/-- The index of an [a, b] array that lies over q of the reduced [b] with row k put back is (k, q). -/
theorem lift_row {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- On the extended reals the sum of an [a, b] array along its rows is, at q, the sum over k of the entries
    (k, q): the reduction starts from the zero word, the neutral element of the sum. -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_row h q k)

end SublaneSum
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«172315_j47828755808730_2_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.KPayload.lean ====
/-
  The kernel's arithmetic read at an index, on the extended reals.

  One grid step works on a block xi of 128 feature rows and a block xj of 128 feature rows (each [1, 128, 64]).
  Its first value is, for every pair (p, q) of a row of xi and a row of xj and every output channel o,
      z (128·p + q, o) = Σ_g max ((Σ_c xi (p, c) · wi (c, g) + Σ_c xj (q, c) · wj (c, g)) + b1 g, 0) · w2 (g, o):
  two [128, 64]·[64, 128] products into zero accumulators, spread over a [128, 128, 128] array as
  hi[:, None, :] + hj[None, :, :] + b1, rectified, flattened to 16384 rows, and multiplied by w2; the changes of
  format in between are the identity on extended reals.  Its second value adds to the accumulator a (0, 0, o) the sum
  over the 16384 rows of max (z (r, o) + b2 o, 0).  Row r = 128·p + q is the pair (p, q), so that sum, taken block by
  block, is the tile's contribution Σ_p Σ_q pairTerm.

  Each operation is read at an index for ANY extents; the statements about the kernel's own values instantiate them.
-/
import proofs.«172315_j47828755808730_2_alg».proof.Proof.Gen.KernelIdeal.Skeleton
import proofs.«172315_j47828755808730_2_alg».proof.Proof.Spec
import proofs.«172315_j47828755808730_2_alg».proof.Proof.LibPlainDot
import proofs.«172315_j47828755808730_2_alg».proof.Proof.LibLayout3
import proofs.«172315_j47828755808730_2_alg».proof.Proof.LibRowsLinear
import proofs.«172315_j47828755808730_2_alg».proof.Proof.LibSublaneSum
import proofs.«172315_j47828755808730_2_alg».proof.Proof.LibBlockSum
import Idealize.ShloMosaic.PureOps.Ideal.Laws
import Idealize.ShloMosaic.Lib.ValueIdx
import Idealize.ShloMosaic.Lib.ValueLayout
import Idealize.ShloMosaic.Lib.Pipeline.Value

noncomputable section

namespace Cert.RelKernel

open Idealize.ShloMosaic Idealize.ShloMosaic.ValueIdx
open scoped BigOperators

/-! ## Operations read at an index, for any extents -/

/-- A vector of length c viewed as a [1, 1, c] block reads, at (u, u', k), the vector at k. -/
theorem cast_c_11c {α : Type} {c : ℕ} (v : (⟨1, ![c]⟩ : Shape).Idx → α)
    (h : (⟨1, ![c]⟩ : Shape).ShapeCasts ⟨3, ![1, 1, c]⟩) (u u' : Fin 1) (k : Fin c) :
    shapeCast ⟨3, ![1, 1, c]⟩ v h (ix3 u u' k) = v (ix1 k) := by
  refine shapeCast_apply v h (ix3 u u' k) (ix1 k) ?_
  rw [Shape.rowMajor_val_three, Shape.rowMajor_val_one]
  show k.val = (u.val * 1 + u'.val) * c + k.val
  have hu : u.val = 0 := by omega
  have hu' : u'.val = 0 := by omega
  rw [hu, hu']
  omega

/-- A [1, 1, c] block spread over [a, b, c] reads, at (i, j, k), the block at (0, 0, k). -/
theorem spread_11c_abc {α : Type} {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector of length c made a [1, c] row and spread over m rows reads, at (r, k), the vector at k. -/
theorem biasRow_apply {α : Type} {m c : ℕ} (v : (⟨1, ![c]⟩ : Shape).Idx → α)
    (h1 : (⟨1, ![c]⟩ : Shape).ShapeCasts ⟨2, ![1, c]⟩) (h2 : (⟨2, ![1, c]⟩ : Shape).Broadcasts ⟨2, ![m, c]⟩)
    (r : Fin m) (k : Fin c) :
    broadcastTo ⟨2, ![m, c]⟩ (shapeCast ⟨2, ![1, c]⟩ v h1) h2 (ix2 r k) = v (ix1 k) :=
  (broadcastTo_1b_ab_apply _ h2 r k).trans (shapeCast_a_1a_apply v h1 (0 : Fin 1) k)

/-- A product of an M×K by a K×N matrix (any formats of the operands) into the zero accumulator, at (p, q). -/
theorem plainMatmul_apply {M K N : ℕ} {φ₁ φ₂ : FTy} (D : DotDims ⟨2, ![M, K]⟩ ⟨2, ![K, N]⟩ ⟨2, ![M, N]⟩)
    (hD : D = DotDims.plain M K N) (lhs : FVec Ideal ⟨2, ![M, K]⟩ φ₁) (rhs : FVec Ideal ⟨2, ![K, N]⟩ φ₂)
    (p : Fin M) (q : Fin N) :
    matmul (F := Ideal) D none lhs rhs (constant (F := Ideal) ⟨2, ![M, N]⟩ .f32 0x00000000#32) (ix2 p q)
      = ∑ k : Fin K, lhs (ix2 p k) * rhs (ix2 k q) := by
  subst hD
  exact (Ideal.matmul_constant_zero_apply (DotDims.plain M K N) none lhs rhs (ix2 p q)).trans
    (Cert.PlainDot.contraction_eq lhs rhs p q)

/-- The sum of an [a, b] array along its rows from the zero word, at q: the sum over k of the entries (k, q). -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = FKind.add.neutral .f32 hφ) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (SublaneSum.lift_row h q k)

/-- The literal zero of the rectifications is the extended real 0. -/
theorem zeroWord : Scalar.ofBits (F := Ideal) .f32 0x00000000#32 = (0 : EReal) := Ideal.ofBits_zero_f32

/-! ## The three composite values, for any extents -/

/-- The rectified first layer of a tile of pairs at (p, q, g): the two blocks' projections, each a product into
    the zero accumulator of the block viewed as a matrix, spread over the pairs and added to the spread bias. -/
theorem hidden_apply {A B K G : ℕ}
    (xi : FVec Ideal ⟨3, ![1, A, K]⟩ .f32) (xj : FVec Ideal ⟨3, ![1, B, K]⟩ .f32)
    (wi wj : FVec Ideal ⟨2, ![K, G]⟩ .f32) (b1 : FVec Ideal ⟨1, ![G]⟩ .f32)
    (Di : DotDims ⟨2, ![A, K]⟩ ⟨2, ![K, G]⟩ ⟨2, ![A, G]⟩) (hDi : Di = DotDims.plain A K G)
    (Dj : DotDims ⟨2, ![B, K]⟩ ⟨2, ![K, G]⟩ ⟨2, ![B, G]⟩) (hDj : Dj = DotDims.plain B K G)
    (hxi : (⟨3, ![1, A, K]⟩ : Shape).ShapeCasts ⟨2, ![A, K]⟩)
    (hxj : (⟨3, ![1, B, K]⟩ : Shape).ShapeCasts ⟨2, ![B, K]⟩)
    (hw : (⟨2, ![K, G]⟩ : Shape).ShapeCasts ⟨2, ![K, G]⟩)
    (hlt : FTy.bits .bf16 < FTy.bits .f32)
    (hci : (⟨2, ![A, G]⟩ : Shape).ShapeCasts ⟨3, ![A, 1, G]⟩)
    (hcj : (⟨2, ![B, G]⟩ : Shape).ShapeCasts ⟨3, ![1, B, G]⟩)
    (hbi : (⟨3, ![A, 1, G]⟩ : Shape).Broadcasts ⟨3, ![A, B, G]⟩)
    (hbj : (⟨3, ![1, B, G]⟩ : Shape).Broadcasts ⟨3, ![A, B, G]⟩)
    (hcb : (⟨1, ![G]⟩ : Shape).ShapeCasts ⟨3, ![1, 1, G]⟩)
    (hbb : (⟨3, ![1, 1, G]⟩ : Shape).Broadcasts ⟨3, ![A, B, G]⟩)
    (p : Fin A) (q : Fin B) (g : Fin G) :
    maximumf
      (addf
        (addf
          (broadcastTo ⟨3, ![A, B, G]⟩
            (shapeCast ⟨3, ![A, 1, G]⟩
              (matmul (F := Ideal) Di none (truncf .bf16 (shapeCast ⟨2, ![A, K]⟩ xi hxi) hlt)
                (truncf .bf16 (shapeCast ⟨2, ![K, G]⟩ wi hw) hlt) (constant (F := Ideal) ⟨2, ![A, G]⟩ .f32 0x00000000#32))
              hci) hbi)
          (broadcastTo ⟨3, ![A, B, G]⟩
            (shapeCast ⟨3, ![1, B, G]⟩
              (matmul (F := Ideal) Dj none (truncf .bf16 (shapeCast ⟨2, ![B, K]⟩ xj hxj) hlt)
                (truncf .bf16 (shapeCast ⟨2, ![K, G]⟩ wj hw) hlt) (constant (F := Ideal) ⟨2, ![B, G]⟩ .f32 0x00000000#32))
              hcj) hbj))
        (broadcastTo ⟨3, ![A, B, G]⟩ (shapeCast ⟨3, ![1, 1, G]⟩ b1 hcb) hbb))
      (broadcast ⟨3, ![A, B, G]⟩ (Scalar.ofBits (F := Ideal) .f32 0x00000000#32)) (ix3 p q g)
    = max (((∑ c : Fin K, xi (ix3 0 p c) * wi (ix2 c g)) + ∑ c : Fin K, xj (ix3 0 q c) * wj (ix2 c g)) + b1 (ix1 g)) 0 := by
  rw [maximumf_apply, addf_apply, addf_apply, broadcast_apply, zeroWord,
    Layout3.broadcastTo_a1c_abc_apply, Layout3.shapeCast_ab_a1b_apply,
    Layout3.broadcastTo_1bc_abc_apply, shapeCast_ab_1ab_apply, spread_11c_abc, cast_c_11c,
    plainMatmul_apply Di hDi, plainMatmul_apply Dj hDj, shapeCast_self wi hw, shapeCast_self wj hw]
  have hi : ∀ c : Fin K, truncf .bf16 (shapeCast ⟨2, ![A, K]⟩ xi hxi) hlt (ix2 p c) = xi (ix3 0 p c) :=
    fun c => shapeCast_1ab_ab_apply xi hxi p c
  have hj : ∀ c : Fin K, truncf .bf16 (shapeCast ⟨2, ![B, K]⟩ xj hxj) hlt (ix2 q c) = xj (ix3 0 q c) :=
    fun c => shapeCast_1ab_ab_apply xj hxj q c
  rw [Finset.sum_congr rfl fun c _ => congrArg (· * truncf .bf16 wi hlt (ix2 c g)) (hi c),
    Finset.sum_congr rfl fun c _ => congrArg (· * truncf .bf16 wj hlt (ix2 c g)) (hj c)]
  rfl

/-- The second layer's product on the flattened tile at (r, o), row r being the pair (p, q): the [A, B, G] array
    viewed as A·B rows of length G, times the G×N weights, into the zero accumulator. -/
theorem out_apply {A B G N M : ℕ} (H : FVec Ideal ⟨3, ![A, B, G]⟩ .f32) (w2 : FVec Ideal ⟨2, ![G, N]⟩ .f32)
    (D : DotDims ⟨2, ![M, G]⟩ ⟨2, ![G, N]⟩ ⟨2, ![M, N]⟩) (hD : D = DotDims.plain M G N)
    (hlt : FTy.bits .bf16 < FTy.bits .f32)
    (hc : (⟨3, ![A, B, G]⟩ : Shape).ShapeCasts ⟨2, ![M, G]⟩)
    (p : Fin A) (q : Fin B) (r : Fin M) (hr : r.val = p.val * B + q.val) (o : Fin N) :
    matmul (F := Ideal) D none (shapeCast ⟨2, ![M, G]⟩ (truncf .bf16 H hlt) hc) (truncf .bf16 w2 hlt)
        (constant (F := Ideal) ⟨2, ![M, N]⟩ .f32 0x00000000#32) (ix2 r o)
      = ∑ g : Fin G, H (ix3 p q g) * w2 (ix2 g o) := by
  rw [plainMatmul_apply D hD]
  refine Finset.sum_congr rfl fun g _ => ?_
  rw [Cert.RowsLinear.flatten_apply (truncf .bf16 H hlt) hc p q g r hr]
  rfl

/-- The accumulation at (0, 0, o): the accumulator plus the sum over all rows of the rectified second layer. -/
theorem acc_apply {M N : ℕ} (Z : FVec Ideal ⟨2, ![M, N]⟩ .f32) (b2 : FVec Ideal ⟨1, ![N]⟩ .f32)
    (a : FVec Ideal ⟨3, ![1, 1, N]⟩ .f32)
    (h1 : (⟨1, ![N]⟩ : Shape).ShapeCasts ⟨2, ![1, N]⟩) (h2 : (⟨2, ![1, N]⟩ : Shape).Broadcasts ⟨2, ![M, N]⟩)
    (hred : (⟨2, ![M, N]⟩ : Shape).Reduces [0] (⟨1, ![N]⟩ : Shape)) (hφ : FKind.Formats .f32)
    (hacc : (0x00000000#32 : BitVec 32) = FKind.add.neutral .f32 hφ)
    (h3 : (⟨1, ![N]⟩ : Shape).ShapeCasts ⟨3, ![1, 1, N]⟩)
    (h4 : (⟨3, ![1, 1, N]⟩ : Shape).ShapeCasts ⟨3, ![1, 1, N]⟩) (o : Fin N) :
    shapeCast ⟨3, ![1, 1, N]⟩
        (addf a
          (shapeCast ⟨3, ![1, 1, N]⟩
            (multiReduction (F := Ideal) .add [0] ⟨1, ![N]⟩
              (maximumf (addf Z (broadcastTo ⟨2, ![M, N]⟩ (shapeCast ⟨2, ![1, N]⟩ b2 h1) h2))
                (broadcast ⟨2, ![M, N]⟩ (Scalar.ofBits (F := Ideal) .f32 0x00000000#32)))
              0x00000000#32 hred hφ hacc) h3)) h4 (ix3 0 0 o)
      = a (ix3 0 0 o) + ∑ r : Fin M, max (Z (ix2 r o) + b2 (ix1 o)) 0 := by
  rw [shapeCast_self, addf_apply, cast_c_11c, rowSum_apply]
  refine congrArg (a (ix3 0 0 o) + ·) (Finset.sum_congr rfl fun r _ => ?_)
  rw [maximumf_apply, addf_apply, broadcast_apply, zeroWord, biasRow_apply]

/-! ## The kernel's own values -/

open Cert.KernelIdeal

/-- The value stored when a tile's accumulation starts is zero everywhere. -/
theorem pay2_apply (j : S1x1x64.Idx) : Cert.KernelIdeal.Gen.k0_pay2 (F := Ideal) j = 0 := by
  show shapeCast S1x1x64 (broadcast S1x1x64 (Scalar.ofBits (F := Ideal) .f32 0x00000000#32))
      Cert.KernelIdeal.Gen.shapeCasts_S1x1x64_S1x1x64 j = 0
  rw [shapeCast_self, broadcast_apply, zeroWord]

/-- The second layer's product on the tile at row r = 128·p + q and channel o. -/
theorem pay3_apply (xi xj : (⟨3, ![1, 128, 64]⟩ : Shape).Idx → EReal) (wi wj : (⟨2, ![64, 128]⟩ : Shape).Idx → EReal)
    (b1 : (⟨1, ![128]⟩ : Shape).Idx → EReal) (w2 : (⟨2, ![128, 64]⟩ : Shape).Idx → EReal)
    (p q : Fin 128) (r : Fin 16384) (hr : r.val = p.val * 128 + q.val) (o : Fin 64) :
    Cert.KernelIdeal.Gen.k0_pay3 (F := Ideal) xi xj wi wj b1 w2 (ix2 r o)
      = ∑ g : Fin 128, max (((∑ c : Fin 64, xi (ix3 0 p c) * wi (ix2 c g)) + ∑ c : Fin 64, xj (ix3 0 q c) * wj (ix2 c g))
          + b1 (ix1 g)) 0 * w2 (ix2 g o) := by
  refine (out_apply (A := 128) (B := 128) (G := 128) (N := 64) (M := 16384) _ w2
    Cert.KernelIdeal.dot_S16384x128_S128x64_S16384x64_1_0_0_1_n_n rfl Cert.KernelIdeal.Gen.bitsLt_bf16_f32
    Cert.KernelIdeal.Gen.shapeCasts_S128x128x128_S16384x128 p q r hr o).trans ?_
  exact Finset.sum_congr rfl fun g _ => congrArg (· * w2 (ix2 g o))
    (hidden_apply (A := 128) (B := 128) (K := 64) (G := 128) xi xj wi wj b1
      Cert.KernelIdeal.dot_S128x64_S64x128_S128x128_1_0_0_1_n_n rfl
      Cert.KernelIdeal.dot_S128x64_S64x128_S128x128_1_0_0_1_n_n rfl
      Cert.KernelIdeal.Gen.shapeCasts_S1x128x64_S128x64 Cert.KernelIdeal.Gen.shapeCasts_S1x128x64_S128x64
      Cert.KernelIdeal.Gen.shapeCasts_S64x128_S64x128 Cert.KernelIdeal.Gen.bitsLt_bf16_f32
      Cert.KernelIdeal.Gen.shapeCasts_S128x128_S128x1x128 Cert.KernelIdeal.Gen.shapeCasts_S128x128_S1x128x128
      Cert.KernelIdeal.Gen.broadcasts_S128x1x128_S128x128x128 Cert.KernelIdeal.Gen.broadcasts_S1x128x128_S128x128x128
      Cert.KernelIdeal.Gen.shapeCasts_S128_S1x1x128 Cert.KernelIdeal.Gen.broadcasts_S1x1x128_S128x128x128 p q g)

/-- One grid step: the accumulator at channel o grows by the tile's contribution. -/
theorem step_apply (xi xj : Vec Ideal S1x128x64 .f32) (wi wj : Vec Ideal S64x128 .f32) (b1 : Vec Ideal S128 .f32)
    (w2 : Vec Ideal S128x64 .f32) (b2 : Vec Ideal S64 .f32) (a : Vec Ideal S1x1x64 .f32) (o : Fin 64) :
    Cert.KernelIdeal.Gen.k0_pay1 (F := Ideal) (Cert.KernelIdeal.Gen.k0_pay3 (F := Ideal) xi xj wi wj b1 w2) b2 a (ValueIdx.ix3 0 0 o)
      = a (ValueIdx.ix3 0 0 o) + Cert.RelSpec.blockSum xi xj wi wj b1 w2 b2 o := by
  refine (acc_apply (M := 16384) (N := 64) (Cert.KernelIdeal.Gen.k0_pay3 (F := Ideal) xi xj wi wj b1 w2) b2 a
    Cert.KernelIdeal.Gen.shapeCasts_S64_S1x64 Cert.KernelIdeal.Gen.broadcasts_S1x64_S16384x64
    Cert.KernelIdeal.Gen.reduces_S16384x64_S64 (.inl rfl) rfl Cert.KernelIdeal.Gen.shapeCasts_S64_S1x1x64
    Cert.KernelIdeal.Gen.shapeCasts_S1x1x64_S1x1x64 o).trans ?_
  refine congrArg (a (ix3 0 0 o) + ·) ?_
  refine (BlockSum.sum_eq_sum_blocks 128 128 16384 rfl
    (fun r : Fin 16384 => max (Cert.KernelIdeal.Gen.k0_pay3 (F := Ideal) xi xj wi wj b1 w2 (ix2 r o) + b2 (ix1 o)) 0)).trans ?_
  refine Finset.sum_congr rfl fun p _ => Finset.sum_congr rfl fun q _ => ?_
  have hr : (⟨128 * p.val + q.val, BlockSum.pos_lt p q⟩ : Fin 16384).val = p.val * 128 + q.val := by
    show 128 * p.val + q.val = p.val * 128 + q.val
    omega
  exact congrArg (fun z => max (z + b2 (ix1 o)) 0)
    (pay3_apply xi xj wi wj b1 w2 p q ⟨128 * p.val + q.val, BlockSum.pos_lt p q⟩ hr o)

end Cert.RelKernel

end
-- ==== Proof.KIValue.lean ====
/-
  The kernel's pooled value, over the extended reals.

  For image b the grid's four points 4 · b, 4 · b + 1, 4 · b + 2, 4 · b + 3 have tile coordinates (0,0), (0,1), (1,0),
  (1,1). The accumulator is restarted at the first of them from the zero block and each point adds, channel by
  channel, the sum of the pair terms over its 128 × 128 tile: rows 128 · i … of image b against rows 128 · j … of the
  same image, with the two weight halves, both biases and the second weight read whole. What the last point leaves
  is written to row b of the result. So the result at (b, 0, o) is (((0 + tile(0,0)) + tile(0,1)) + tile(1,0)) +
  tile(1,1), and the four tiles together are all 256 · 256 pairs of rows: the pooled feature.
-/
import proofs.«172315_j47828755808730_2_alg».proof.Proof.KIOut
import proofs.«172315_j47828755808730_2_alg».proof.Proof.PooledTiles
import proofs.«172315_j47828755808730_2_alg».proof.Proof.KPayload

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable (m : (ℓ : Loc nD τ sig) → Buf (Elt Ideal) ℓ)

/-! ## The two row blocks a point reads -/

/-- At a point `t` of image `b` whose first tile coordinate is `i`, window 0's block is rows 128 · i … of image `b`. -/
theorem iblk0_rowBlock (c : Dev nD) (b : Fin 8) (i : Fin 2) (t : Fin cfg0.N) (h4 : t.val / 4 = b.val)
    (hi : t.val / 2 % 2 = i.val) : iblk m c 0 t = Cert.RelSpec.rowBlock (V₁ m c main_v1) b i := by
  funext y
  refine (iblk0_apply m c t y).trans ?_
  show V₁ m c main_v1 _ = V₁ m c main_v1 _
  congr 1
  funext a
  apply Fin.ext
  match a with
  | ⟨0, _⟩ => show t.val / 4 = b.val
              exact h4
  | ⟨1, _⟩ => show 128 * (t.val / 2 % 2) + (y 1).val = 128 * i.val + (y 1).val
              rw [hi]
  | ⟨2, _⟩ => rfl

/-- At a point `t` of image `b` whose second tile coordinate is `j`, window 1's block is rows 128 · j … of image `b`. -/
theorem iblk1_rowBlock (c : Dev nD) (b : Fin 8) (j : Fin 2) (t : Fin cfg0.N) (h4 : t.val / 4 = b.val)
    (hj : t.val % 2 = j.val) : iblk m c 1 t = Cert.RelSpec.rowBlock (V₁ m c main_v1) b j := by
  funext y
  refine (iblk1_apply m c t y).trans ?_
  show V₁ m c main_v1 _ = V₁ m c main_v1 _
  congr 1
  funext a
  apply Fin.ext
  match a with
  | ⟨0, _⟩ => show t.val / 4 = b.val
              exact h4
  | ⟨1, _⟩ => show 128 * (t.val % 2) + (y 1).val = 128 * j.val + (y 1).val
              rw [hj]
  | ⟨2, _⟩ => rfl

/-! ## One step of the accumulator, read at channel `o` -/

/-- The step at a point `t` of image `b` with tile coordinates (i, j) adds, at channel `o`, the sum over the tile's
    128 · 128 pairs: rows 128 · i … against rows 128 · j … of image `b`. -/
theorem stepAt_apply (c : Dev nD) (b : Fin 8) (i j : Fin 2) (t : Fin cfg0.N) (h4 : t.val / 4 = b.val)
    (hi : t.val / 2 % 2 = i.val) (hj : t.val % 2 = j.val) (a : Vec Ideal S1x1x64 .f32) (o : Fin 64) :
    stepAt m c t a (ValueIdx.ix3 (n0 := 1) (n1 := 1) (n2 := 64) 0 0 o)
      = a (ValueIdx.ix3 (n0 := 1) (n1 := 1) (n2 := 64) 0 0 o)
        + Cert.RelSpec.blockSum (Cert.RelSpec.rowBlock (V₁ m c main_v1) b i) (Cert.RelSpec.rowBlock (V₁ m c main_v1) b j)
            (V₁ m c main_v2) (V₁ m c main_v3) (V₁ m c main_arg2) (V₁ m c main_arg3) (V₁ m c main_arg4) o := by
  unfold stepAt
  refine (Cert.RelKernel.step_apply (iblk m c 0 t) (iblk m c 1 t) (iblk m c 2 t) (iblk m c 3 t) (iblk m c 4 t)
    (iblk m c 5 t) (iblk m c 6 t) a o).trans ?_
  rw [iblk0_rowBlock m c b i t h4 hi, iblk1_rowBlock m c b j t h4 hj, iblk2_eq, iblk3_eq, iblk4_eq, iblk5_eq, iblk6_eq]

/-! ## The accumulator after an image's last point -/

/-- From an image's first point `n` (n ≡ 0 mod 4) the accumulator is restarted and stepped through the image's four
    points. -/
theorem accA_unroll (c : Dev nD) (n : ℕ) (h0 : n < cfg0.N) (h1 : n + 1 < cfg0.N) (h2 : n + 2 < cfg0.N)
    (h3 : n + 3 < cfg0.N) (hn : n % 4 = 0) :
    accA m c (n + 3) h3
      = stepAt m c ⟨n + 3, h3⟩ (stepAt m c ⟨n + 2, h2⟩ (stepAt m c ⟨n + 1, h1⟩ (stepAt m c ⟨n, h0⟩ (k0_pay2 (F := Ideal))))) := by
  have s0 : accA m c n h0 = stepAt m c ⟨n, h0⟩ (k0_pay2 (F := Ideal)) := accA_first m c ⟨n, h0⟩ hn
  have s1 : accA m c (n + 1) h1 = stepAt m c ⟨n + 1, h1⟩ (accA m c n h0) :=
    accA_step m c ⟨n + 1, h1⟩ (by show (n + 1) % 4 ≠ 0; omega) (by show n + 1 - 1 < cfg0.N; omega)
  have s2 : accA m c (n + 2) h2 = stepAt m c ⟨n + 2, h2⟩ (accA m c (n + 1) h1) :=
    accA_step m c ⟨n + 2, h2⟩ (by show (n + 2) % 4 ≠ 0; omega) (by show n + 2 - 1 < cfg0.N; omega)
  have s3 : accA m c (n + 3) h3 = stepAt m c ⟨n + 3, h3⟩ (accA m c (n + 2) h2) :=
    accA_step m c ⟨n + 3, h3⟩ (by show (n + 3) % 4 ≠ 0; omega) (by show n + 3 - 1 < cfg0.N; omega)
  rw [s3, s2, s1, s0]

/-! ## The kernel's pooled value -/

/-- The result array after the region, at (b, 0, o), is the pooled feature of image `b`, channel `o`: the
    accumulator starts at 0 and the image's four points add the four 128 × 128 tiles of pairs in the order
    (0,0), (0,1), (1,0), (1,1), which together are all 256 · 256 pairs. -/
theorem out_pooled (m : (ℓ : Loc nD τ sig) → Buf (Elt Ideal) ℓ) (c : Dev nD) (b : Fin 8) (o : Fin 64) :
    (dats (F := Ideal) m 0 c).arrAt 7 cfg0.N (ValueIdx.ix3 (n0 := 8) (n1 := 1) (n2 := 64) b 0 o)
      = Cert.RelSpec.pooled (V₁ m c main_v1) (V₁ m c main_v2) (V₁ m c main_v3) (V₁ m c main_arg2) (V₁ m c main_arg3)
          (V₁ m c main_arg4) b o := by
  have hN : cfg0.N = 32 := N_0
  have hb : b.val < 8 := b.isLt
  have h0 : 4 * b.val < cfg0.N := by omega
  have h1 : 4 * b.val + 1 < cfg0.N := by omega
  have h2 : 4 * b.val + 2 < cfg0.N := by omega
  have h3 : 4 * b.val + 3 < cfg0.N := by omega
  rw [out_apply m c b o, accA_unroll m c (4 * b.val) h0 h1 h2 h3 (by omega)]
  rw [stepAt_apply m c b 1 1 ⟨4 * b.val + 3, h3⟩ (by show (4 * b.val + 3) / 4 = b.val; omega)
      (by show (4 * b.val + 3) / 2 % 2 = 1; omega) (by show (4 * b.val + 3) % 2 = 1; omega) _ o,
    stepAt_apply m c b 1 0 ⟨4 * b.val + 2, h2⟩ (by show (4 * b.val + 2) / 4 = b.val; omega)
      (by show (4 * b.val + 2) / 2 % 2 = 1; omega) (by show (4 * b.val + 2) % 2 = 0; omega) _ o,
    stepAt_apply m c b 0 1 ⟨4 * b.val + 1, h1⟩ (by show (4 * b.val + 1) / 4 = b.val; omega)
      (by show (4 * b.val + 1) / 2 % 2 = 0; omega) (by show (4 * b.val + 1) % 2 = 1; omega) _ o,
    stepAt_apply m c b 0 0 ⟨4 * b.val, h0⟩ (by show (4 * b.val) / 4 = b.val; omega)
      (by show (4 * b.val) / 2 % 2 = 0; omega) (by show (4 * b.val) % 2 = 0; omega) _ o,
    Cert.RelKernel.pay2_apply]
  exact Cert.RelAlg.pooled_tiles (V₁ m c main_v1) (V₁ m c main_v2) (V₁ m c main_v3) (V₁ m c main_arg2) (V₁ m c main_arg3)
    (V₁ m c main_arg4) b o

end Cert.Proof.KI

end
-- ==== Proof.KIFinal.lean ====
/-
  The idealized kernel's result as a function of its arguments, over the extended reals.

  After the region the result's buffer holds, at (b, 0, o), the accumulator of image b after its four points: zero plus
  the four 128 × 128 tiles of pairs, which is the sum over all 256 · 256 pairs — the reference's pooled feature of the
  same layout of the image and the same halves of the first weight. The dense tail is the same text in both programs,
  so the kernel's result is the reference's tail of the reference's pooled feature.
-/
import proofs.«172315_j47828755808730_2_alg».proof.Proof.KIFrame
import proofs.«172315_j47828755808730_2_alg».proof.Proof.KIOblig
import proofs.«172315_j47828755808730_2_alg».proof.Proof.KITail
import proofs.«172315_j47828755808730_2_alg».proof.Proof.KIValue
import proofs.«172315_j47828755808730_2_alg».proof.Proof.RefPooled

noncomputable section

namespace Cert.Proof.KI

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result array as a function of the nine arguments: the dense tail of the pooled relation feature. -/
def result (c : Dev nD) : Buf (Elt Ideal) ((c.tc : Thread nD τ).loc main_v16) :=
  Cert.RelRef.tail
    (Cert.ReferenceIdeal.Read.val_main_v20 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
    (m ((c.tc : Thread nD τ).loc main_arg5)) (m ((c.tc : Thread nD τ).loc main_arg6)) (m ((c.tc : Thread nD τ).loc main_arg7))
    (m ((c.tc : Thread nD τ).loc main_arg8))

/-- An argument as the region finds it, and as the tail finds it: as launched. -/
theorem V₁_arg (c : Dev nD) (b : Ref sig .tc) (hb : b ∈ args) : V₁ m c b = m ((c : Thread nD τ).loc b) := keep0 (V₀ m c) b hb
theorem W₂_arg (c : Dev nD) (b : Ref sig .tc) (hb : b ∈ args) : W₂ m c (Proc.devRef .tc b) = m ((c : Thread nD τ).loc b) :=
  (V₂_of_ne m c b fun e => by subst e; exact absurd hb (by decide)).trans (V₁_arg m c b hb)

/-- The result's buffer after the region, made [8, 64], is the reference's pooled feature of the arguments. -/
theorem pooled_eq (c : Dev nD) :
    shapeCast S8x64 (W₂ m c (Proc.devRef .tc main_v4)) shapeCasts_S8x1x64_S8x64
      = Cert.ReferenceIdeal.Read.val_main_v20 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨b, o, rfl⟩ : ∃ (b : Fin 8) (o : Fin 64), i = ValueIdx.ix2 b o := ⟨i 0, i 1, ValueIdx.eq_ix2 i⟩
  rw [cast_out, show W₂ m c (Proc.devRef .tc main_v4) = (dats m 0 c).arrAt 7 cfg0.N from V₂_v4 m c, out_pooled, Cert.RelRef.ref_pooled,
    show V₁ m c main_v1 = _ from prefix_v1 (V₀ m c), show V₁ m c main_v2 = _ from prefix_v2 (V₀ m c), show V₁ m c main_v3 = _ from prefix_v3 (V₀ m c),
    V₁_arg m c main_arg2 (by decide), V₁_arg m c main_arg3 (by decide), V₁_arg m c main_arg4 (by decide)]

/-- The result's buffer after the whole run. -/
theorem W₃_v16 (c : Dev nD) : W₃ m c (Proc.devRef .tc main_v16) = result m c := by
  show StableHlo.after hostOps1_2 (StableHlo.after hostOps1_1 (StableHlo.after hostOps1 (W₂ m c))) (Proc.devRef .tc main_v16) = _
  rw [tail_read (W₂ m c), pooled_eq m c, W₂_arg m c main_arg5 (by decide), W₂_arg m c main_arg6 (by decide), W₂_arg m c main_arg7 (by decide),
    W₂_arg m c main_arg8 (by decide)]
  rfl

/-- Every weakly fair execution of the idealized kernel's @main terminates with the result at `result` and the nine
    arguments unchanged. -/
theorem run_value :
    θ_run (defs (F := Ideal)) (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v16 rfl)).trans (W₃_v16 m c),
     (h c _ (mem_uc main_arg0 rfl)).trans (W₃_arg m c main_arg0 (by decide)),
     (h c _ (mem_uc main_arg1 rfl)).trans (W₃_arg m c main_arg1 (by decide)),
     (h c _ (mem_uc main_arg2 rfl)).trans (W₃_arg m c main_arg2 (by decide)),
     (h c _ (mem_uc main_arg3 rfl)).trans (W₃_arg m c main_arg3 (by decide)),
     (h c _ (mem_uc main_arg4 rfl)).trans (W₃_arg m c main_arg4 (by decide)),
     (h c _ (mem_uc main_arg5 rfl)).trans (W₃_arg m c main_arg5 (by decide)),
     (h c _ (mem_uc main_arg6 rfl)).trans (W₃_arg m c main_arg6 (by decide)),
     (h c _ (mem_uc main_arg7 rfl)).trans (W₃_arg m c main_arg7 (by decide)),
     (h c _ (mem_uc main_arg8 rfl)).trans (W₃_arg m c main_arg8 (by decide))⟩) (run_main m ρ (body_obligation m))

end Cert.Proof.KI

end
-- ==== Proof.lean ====
/-
  The kernel — a relation network's pairwise stage: for each of 8 images, every pair of its 256 positions is sent
  through two rectified dense layers and the 256 · 256 results are summed, tile by tile (2 × 2 tiles of 128 × 128 pairs
  per image) into an accumulator carried across the grid; a small dense tail follows — against the reference, which
  forms all pairs at once and sums them in one reduction before the same tail.

  At the extended reals a change of float format is the identity and a sum may be regrouped freely, so both programs
  compute  pooled[b, o] = Σ_{n1, n2} max(Σ_g max((Σ_c xf[b,n1,c]·wi[c,g] + Σ_c xf[b,n2,c]·wj[c,g]) + b1[g], 0)·w2[g,o] + b2[o], 0)
  followed by the same tail: the claims below. No finiteness of the inputs is used. The three frames: each program runs
  to the end from any memory and writes no argument. The idealization rewrote no operation, so `preserves` is trivial.
-/
import proofs.«172315_j47828755808730_2_alg».proof.Defs
import proofs.«172315_j47828755808730_2_alg».proof.Proof.Gen.Kernel
import proofs.«172315_j47828755808730_2_alg».proof.Proof.Gen.KernelIdeal
import proofs.«172315_j47828755808730_2_alg».proof.Proof.Gen.ReferenceIdeal
import proofs.«172315_j47828755808730_2_alg».proof.Proof.Gen.Pre_finite_inputs
import proofs.«172315_j47828755808730_2_alg».proof.Proof.Gen.ReferenceIdeal.Run
import proofs.«172315_j47828755808730_2_alg».proof.Proof.Gen.ReferenceIdeal.Read
import proofs.«172315_j47828755808730_2_alg».proof.Proof.KFrame
import proofs.«172315_j47828755808730_2_alg».proof.Proof.KOblig
import proofs.«172315_j47828755808730_2_alg».proof.Proof.KIFinal

noncomputable section

namespace Cert.Proof

open Idealize.ShloMosaic Idealize.SL.Sem

/-- The word-level kernel runs to the end and leaves its nine arguments. -/
theorem frame_p : Cert.frame_Kernel := fun m ρ _ => Cert.Proof.K.frame_of m ρ (Cert.Proof.K.body_obligation m)

/-- So does the kernel read over the extended reals. -/
theorem frame_pi : Cert.frame_KernelIdeal := fun m ρ _ => Cert.Proof.KI.frame_of m ρ (Cert.Proof.KI.body_obligation m)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories agreeing on the arguments, both programs end with the dense tail of the pooled
    relation feature of the arguments: the kernel by its accumulated tiles, the reference by its one reduction. -/
theorem algebraic : Cert.algebraic_KernelIdeal_ReferenceIdeal := by
  intro m ρ m' ρ' _ hagree
  refine ⟨fun c => Cert.Proof.KI.result m c, Cert.Proof.KI.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.ReferenceIdeal.Read.val_main_v31_eq (F := Ideal) _ _ _ _ _ _ _ _ _).trans (Cert.RelRef.ref_tail _ _ _ _ _ _ _ _ _)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
